-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x65536x576 : Shape := ⟨3, ![2, 65536, 576]⟩
abbrev S2x128x128x192 : Shape := ⟨4, ![2, 128, 128, 192]⟩
abbrev S1x11x11x2 : Shape := ⟨4, ![1, 11, 11, 2]⟩
abbrev S16x64 : Shape := ⟨2, ![16, 64]⟩
abbrev S64x16 : Shape := ⟨2, ![64, 16]⟩
abbrev S1024x16x64 : Shape := ⟨3, ![1024, 16, 64]⟩
abbrev S1024x64x16 : Shape := ⟨3, ![1024, 64, 16]⟩
abbrev S6x1x1 : Shape := ⟨3, ![6, 1, 1]⟩
abbrev S2x512 : Shape := ⟨2, ![2, 512]⟩
abbrev S512 : Shape := ⟨1, ![512]⟩
abbrev S512x6 : Shape := ⟨2, ![512, 6]⟩
abbrev S_ : Shape := ⟨0, ![]⟩

class Facts : Prop where
  bcast_S_S2x65536x576 : S_.BroadcastsInDim S2x65536x576 (![] : Fin 0 → Fin S2x65536x576.rank)
  reducesTo_S2x65536x576_S_d0_1_2 : S2x65536x576.ReducesTo [0, 1, 2] S_
  h_S_ : 0 < S_.numel
  bcast_S_S2x128x128x192 : S_.BroadcastsInDim S2x128x128x192 (![] : Fin 0 → Fin S2x128x128x192.rank)
  reducesTo_S2x128x128x192_S_d0_1_2_3 : S2x128x128x192.ReducesTo [0, 1, 2, 3] S_
  bcast_S_S1x11x11x2 : S_.BroadcastsInDim S1x11x11x2 (![] : Fin 0 → Fin S1x11x11x2.rank)
  reducesTo_S1x11x11x2_S_d0_1_2_3 : S1x11x11x2.ReducesTo [0, 1, 2, 3] S_
  bcast_S_S1024x16x64 : S_.BroadcastsInDim S1024x16x64 (![] : Fin 0 → Fin S1024x16x64.rank)
  reducesTo_S1024x16x64_S_d0_1_2 : S1024x16x64.ReducesTo [0, 1, 2] S_
  bcast_S_S1024x64x16 : S_.BroadcastsInDim S1024x64x16 (![] : Fin 0 → Fin S1024x64x16.rank)
  reducesTo_S1024x64x16_S_d0_1_2 : S1024x64x16.ReducesTo [0, 1, 2] S_
  bcast_S_S6x1x1 : S_.BroadcastsInDim S6x1x1 (![] : Fin 0 → Fin S6x1x1.rank)
  reducesTo_S6x1x1_S_d0_1_2 : S6x1x1.ReducesTo [0, 1, 2] S_
  bcast_S_S2x512 : S_.BroadcastsInDim S2x512 (![] : Fin 0 → Fin S2x512.rank)
  reducesTo_S2x512_S_d0_1 : S2x512.ReducesTo [0, 1] S_
  bcast_S_S512 : S_.BroadcastsInDim S512 (![] : Fin 0 → Fin S512.rank)
  reducesTo_S512_S_d0 : S512.ReducesTo [0] S_
  bcast_S_S512x6 : S_.BroadcastsInDim S512x6 (![] : Fin 0 → Fin S512x6.rank)
  reducesTo_S512x6_S_d0_1 : S512x6.ReducesTo [0, 1] S_

variable [Facts]

def fn_part3 {F : FTy → Type} [FloatOps F] (main_arg13 : FVec F S512 .f32) (main_arg14 : FVec F S512x6 .f32) (main_v48 : IVec S_ 1) (main_v49 : FVec F S2x512 .f32) (main_v50 : FVec F S2x512 .f32) : IVec S_ 1 :=
  let main_v51 : IVec S2x512 1 := cmpf .olt main_v49 main_v50
  let main_c_19 : IVec S_ 1 := constantI S_ 1 1#1
  let main_v52 : IVec S_ 1 := (fun x v => Host.reduce IntOp.andi x v reducesTo_S2x512_S_d0_1 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x6 .f32 := Host.absf main_arg14
  let main_cst_22 : FVec F S_ .f32 := constant S_ .f32 0x7F800000#32
  let main_v60 : FVec F S512x6 .f32 := broadcastInDim S512x6 ![] bcast_S_S512x6 main_cst_22
  let main_v61 : IVec S512x6 1 := cmpf .olt main_v59 main_v60
  let main_c_23 : IVec S_ 1 := constantI S_ 1 1#1
  let main_v62 : IVec S_ 1 := (fun x v => Host.reduce IntOp.andi x v reducesTo_S512x6_S_d0_1 h_S_) main_v61 main_c_23
  let main_v63 : IVec S_ 1 := andi main_v58 main_v62
  main_v63

def fn_part2 {F : FTy → Type} [FloatOps F] (main_arg9 : FVec F S512 .f32) (main_arg10 : FVec F S512x6 .f32) (main_arg11 : FVec F S6x1x1 .f32) (main_arg12 : FVec F S2x512 .f32) (main_arg13 : FVec F S512 .f32) (main_arg14 : FVec F S512x6 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x6 .f32 := Host.absf main_arg10
  let main_cst_14 : FVec F S_ .f32 := constant S_ .f32 0x7F800000#32
  let main_v40 : FVec F S512x6 .f32 := broadcastInDim S512x6 ![] bcast_S_S512x6 main_cst_14
  let main_v41 : IVec S512x6 1 := cmpf .olt main_v39 main_v40
  let main_c_15 : IVec S_ 1 := constantI S_ 1 1#1
  let main_v42 : IVec S_ 1 := (fun x v => Host.reduce IntOp.andi x v reducesTo_S512x6_S_d0_1 h_S_) main_v41 main_c_15
  let main_v43 : IVec S_ 1 := andi main_v38 main_v42
  let main_v44 : FVec F S6x1x1 .f32 := Host.absf main_arg11
  let main_cst_16 : FVec F S_ .f32 := constant S_ .f32 0x7F800000#32
  let main_v45 : FVec F S6x1x1 .f32 := broadcastInDim S6x1x1 ![] bcast_S_S6x1x1 main_cst_16
  let main_v46 : IVec S6x1x1 1 := cmpf .olt main_v44 main_v45
  let main_c_17 : IVec S_ 1 := constantI S_ 1 1#1
  let main_v47 : IVec S_ 1 := (fun x v => Host.reduce IntOp.andi x v reducesTo_S6x1x1_S_d0_1_2 h_S_) main_v46 main_c_17
  let main_v48 : IVec S_ 1 := andi main_v43 main_v47
  let main_v49 : FVec F S2x512 .f32 := Host.absf main_arg12
  let main_cst_18 : FVec F S_ .f32 := constant S_ .f32 0x7F800000#32
  let main_v50 : FVec F S2x512 .f32 := broadcastInDim S2x512 ![] bcast_S_S2x512 main_cst_18
  fn_part3 (F := F) main_arg13 main_arg14 main_v48 main_v49 main_v50

def fn_part1 {F : FTy → Type} [FloatOps F] (main_arg6 : FVec F S1024x64x16 .f32) (main_arg7 : FVec F S6x1x1 .f32) (main_arg8 : FVec F S2x512 .f32) (main_arg9 : FVec F S512 .f32) (main_arg10 : FVec F S512x6 .f32) (main_arg11 : FVec F S6x1x1 .f32) (main_arg12 : FVec F S2x512 .f32) (main_arg13 : FVec F S512 .f32) (main_arg14 : FVec F S512x6 .f32) (main_v13 : IVec S_ 1) (main_v16 : IVec S1024x16x64 1) : IVec S_ 1 :=
  let main_c_5 : IVec S_ 1 := constantI S_ 1 1#1
  let main_v17 : IVec S_ 1 := (fun x v => Host.reduce IntOp.andi x v reducesTo_S1024x16x64_S_d0_1_2 h_S_) main_v16 main_c_5
  let main_v18 : IVec S_ 1 := andi main_v13 main_v17
  let main_v19 : FVec F S1024x64x16 .f32 := Host.absf main_arg6
  let main_cst_6 : FVec F S_ .f32 := constant S_ .f32 0x7F800000#32
  let main_v20 : FVec F S1024x64x16 .f32 := broadcastInDim S1024x64x16 ![] bcast_S_S1024x64x16 main_cst_6
  let main_v21 : IVec S1024x64x16 1 := cmpf .olt main_v19 main_v20
  let main_c_7 : IVec S_ 1 := constantI S_ 1 1#1
  let main_v22 : IVec S_ 1 := (fun x v => Host.reduce IntOp.andi x v reducesTo_S1024x64x16_S_d0_1_2 h_S_) main_v21 main_c_7
  let main_v23 : IVec S_ 1 := andi main_v18 main_v22
  let main_v24 : FVec F S6x1x1 .f32 := Host.absf main_arg7
  let main_cst_8 : FVec F S_ .f32 := constant S_ .f32 0x7F800000#32
  let main_v25 : FVec F S6x1x1 .f32 := broadcastInDim S6x1x1 ![] bcast_S_S6x1x1 main_cst_8
  let main_v26 : IVec S6x1x1 1 := cmpf .olt main_v24 main_v25
  let main_c_9 : IVec S_ 1 := constantI S_ 1 1#1
  let main_v27 : IVec S_ 1 := (fun x v => Host.reduce IntOp.andi x v reducesTo_S6x1x1_S_d0_1_2 h_S_) main_v26 main_c_9
  let main_v28 : IVec S_ 1 := andi main_v23 main_v27
  let main_v29 : FVec F S2x512 .f32 := Host.absf main_arg8
  let main_cst_10 : FVec F S_ .f32 := constant S_ .f32 0x7F800000#32
  let main_v30 : FVec F S2x512 .f32 := broadcastInDim S2x512 ![] bcast_S_S2x512 main_cst_10
  let main_v31 : IVec S2x512 1 := cmpf .olt main_v29 main_v30
  let main_c_11 : IVec S_ 1 := constantI S_ 1 1#1
  let main_v32 : IVec S_ 1 := (fun x v => Host.reduce IntOp.andi x v reducesTo_S2x512_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S2x65536x576 .f32) (main_arg1 : FVec F S2x128x128x192 .f32) (main_arg2 : FVec F S1x11x11x2 .f32) (main_arg3 : IVec S16x64 32) (main_arg4 : IVec S64x16 32) (main_arg5 : FVec F S1024x16x64 .f32) (main_arg6 : FVec F S1024x64x16 .f32) (main_arg7 : FVec F S6x1x1 .f32) (main_arg8 : FVec F S2x512 .f32) (main_arg9 : FVec F S512 .f32) (main_arg10 : FVec F S512x6 .f32) (main_arg11 : FVec F S6x1x1 .f32) (main_arg12 : FVec F S2x512 .f32) (main_arg13 : FVec F S512 .f32) (main_arg14 : FVec F S512x6 .f32) : IVec S_ 1 :=
  let main_v0 : FVec F S2x65536x576 .f32 := Host.absf main_arg0
  let main_cst : FVec F S_ .f32 := constant S_ .f32 0x7F800000#32
  let main_v1 : FVec F S2x65536x576 .f32 := broadcastInDim S2x65536x576 ![] bcast_S_S2x65536x576 main_cst
  let main_v2 : IVec S2x65536x576 1 := cmpf .olt main_v0 main_v1
  let main_c : IVec S_ 1 := constantI S_ 1 1#1
  let main_v3 : IVec S_ 1 := (fun x v => Host.reduce IntOp.andi x v reducesTo_S2x65536x576_S_d0_1_2 h_S_) main_v2 main_c
  let main_v4 : FVec F S2x128x128x192 .f32 := Host.absf main_arg1
  let main_cst_0 : FVec F S_ .f32 := constant S_ .f32 0x7F800000#32
  let main_v5 : FVec F S2x128x128x192 .f32 := broadcastInDim S2x128x128x192 ![] bcast_S_S2x128x128x192 main_cst_0
  let main_v6 : IVec S2x128x128x192 1 := cmpf .olt main_v4 main_v5
  let main_c_1 : IVec S_ 1 := constantI S_ 1 1#1
  let main_v7 : IVec S_ 1 := (fun x v => Host.reduce IntOp.andi x v reducesTo_S2x128x128x192_S_d0_1_2_3 h_S_) main_v6 main_c_1
  let main_v8 : IVec S_ 1 := andi main_v3 main_v7
  let main_v9 : FVec F S1x11x11x2 .f32 := Host.absf main_arg2
  let main_cst_2 : FVec F S_ .f32 := constant S_ .f32 0x7F800000#32
  let main_v10 : FVec F S1x11x11x2 .f32 := broadcastInDim S1x11x11x2 ![] bcast_S_S1x11x11x2 main_cst_2
  let main_v11 : IVec S1x11x11x2 1 := cmpf .olt main_v9 main_v10
  let main_c_3 : IVec S_ 1 := constantI S_ 1 1#1
  let main_v12 : IVec S_ 1 := (fun x v => Host.reduce IntOp.andi x v reducesTo_S1x11x11x2_S_d0_1_2_3 h_S_) main_v11 main_c_3
  let main_v13 : IVec S_ 1 := andi main_v8 main_v12
  let main_v14 : FVec F S1024x16x64 .f32 := Host.absf main_arg5
  let main_cst_4 : FVec F S_ .f32 := constant S_ .f32 0x7F800000#32
  let main_v15 : FVec F S1024x16x64 .f32 := broadcastInDim S1024x16x64 ![] bcast_S_S1024x16x64 main_cst_4
  let main_v16 : IVec S1024x16x64 1 := cmpf .olt main_v14 main_v15
  fn_part1 (F := F) main_arg6 main_arg7 main_arg8 main_arg9 main_arg10 main_arg11 main_arg12 main_arg13 main_arg14 main_v13 main_v16
-- ==== Kernel.lean ====
abbrev S2x65536x576 : Shape := ⟨3, ![2, 65536, 576]⟩
abbrev S2x128x128x192 : Shape := ⟨4, ![2, 128, 128, 192]⟩
abbrev S1x11x11x2 : Shape := ⟨4, ![1, 11, 11, 2]⟩
abbrev S16x64 : Shape := ⟨2, ![16, 64]⟩
abbrev S64x16 : Shape := ⟨2, ![64, 16]⟩
abbrev S1024x16x64 : Shape := ⟨3, ![1024, 16, 64]⟩
abbrev S1024x64x16 : Shape := ⟨3, ![1024, 64, 16]⟩
abbrev S6x1x1 : Shape := ⟨3, ![6, 1, 1]⟩
abbrev S2x512 : Shape := ⟨2, ![2, 512]⟩
abbrev S512 : Shape := ⟨1, ![512]⟩
abbrev S512x6 : Shape := ⟨2, ![512, 6]⟩
abbrev S2x256x256x576 : Shape := ⟨4, ![2, 256, 256, 576]⟩
abbrev S2x32x8x32x8x576 : Shape := ⟨6, ![2, 32, 8, 32, 8, 576]⟩
abbrev S2x32x32x8x8x576 : Shape := ⟨6, ![2, 32, 32, 8, 8, 576]⟩
abbrev S2048x64x576 : Shape := ⟨3, ![2048, 64, 576]⟩
abbrev S2x32x4x32x4x192 : Shape := ⟨6, ![2, 32, 4, 32, 4, 192]⟩
abbrev S2x32x32x4x4x192 : Shape := ⟨6, ![2, 32, 32, 4, 4, 192]⟩
abbrev S2048x16x192 : Shape := ⟨3, ![2048, 16, 192]⟩
abbrev S2048x64x192 : Shape := ⟨3, ![2048, 64, 192]⟩
abbrev S2048x64x6x32 : Shape := ⟨4, ![2048, 64, 6, 32]⟩
abbrev S2048x6x64x32 : Shape := ⟨4, ![2048, 6, 64, 32]⟩
abbrev S2048x16x6x32 : Shape := ⟨4, ![2048, 16, 6, 32]⟩
abbrev S2048x6x16x32 : Shape := ⟨4, ![2048, 6, 16, 32]⟩
abbrev S121x2 : Shape := ⟨2, ![121, 2]⟩
abbrev S121x512 : Shape := ⟨2, ![121, 512]⟩
abbrev S1x512 : Shape := ⟨2, ![1, 512]⟩
abbrev S_ : Shape := ⟨0, ![]⟩
abbrev S121x6 : Shape := ⟨2, ![121, 6]⟩
abbrev S1024 : Shape := ⟨1, ![1024]⟩
abbrev S1024x1 : Shape := ⟨2, ![1024, 1]⟩
abbrev S1024x6 : Shape := ⟨2, ![1024, 6]⟩
abbrev S16x64x6 : Shape := ⟨3, ![16, 64, 6]⟩
abbrev S6x16x64 : Shape := ⟨3, ![6, 16, 64]⟩
abbrev S64x16x6 : Shape := ⟨3, ![64, 16, 6]⟩
abbrev S6x64x16 : Shape := ⟨3, ![6, 64, 16]⟩
abbrev S1x6 : Shape := ⟨2, ![1, 6]⟩
abbrev S16x6x64x32 : Shape := ⟨4, ![16, 6, 64, 32]⟩
abbrev S16x6x16x32 : Shape := ⟨4, ![16, 6, 16, 32]⟩
abbrev S16x16x64 : Shape := ⟨3, ![16, 16, 64]⟩
abbrev S16x64x16 : Shape := ⟨3, ![16, 64, 16]⟩
abbrev S96x64x32 : Shape := ⟨3, ![96, 64, 32]⟩
abbrev S96x16x32 : Shape := ⟨3, ![96, 16, 32]⟩
abbrev S96x64 : Shape := ⟨2, ![96, 64]⟩
abbrev S96x64x1 : Shape := ⟨3, ![96, 64, 1]⟩
abbrev S96x16 : Shape := ⟨2, ![96, 16]⟩
abbrev S96x16x1 : Shape := ⟨3, ![96, 16, 1]⟩
abbrev S96x16x64 : Shape := ⟨3, ![96, 16, 64]⟩
abbrev S16x6x16x64 : Shape := ⟨4, ![16, 6, 16, 64]⟩
abbrev S1x6x1x1 : Shape := ⟨4, ![1, 6, 1, 1]⟩
abbrev S1x6x16x64 : Shape := ⟨4, ![1, 6, 16, 64]⟩
abbrev S16x1x16x64 : Shape := ⟨4, ![16, 1, 16, 64]⟩
abbrev S16x6x16 : Shape := ⟨3, ![16, 6, 16]⟩
abbrev S16x6x16x1 : Shape := ⟨4, ![16, 6, 16, 1]⟩
abbrev S96x64x16 : Shape := ⟨3, ![96, 64, 16]⟩
abbrev S16x6x64x16 : Shape := ⟨4, ![16, 6, 64, 16]⟩
abbrev S1x6x64x16 : Shape := ⟨4, ![1, 6, 64, 16]⟩
abbrev S16x1x64x16 : Shape := ⟨4, ![16, 1, 64, 16]⟩
abbrev S16x6x64 : Shape := ⟨3, ![16, 6, 64]⟩
abbrev S16x6x64x1 : Shape := ⟨4, ![16, 6, 64, 1]⟩
abbrev S2x32x32x8x8x192 : Shape := ⟨6, ![2, 32, 32, 8, 8, 192]⟩
abbrev S2x32x8x32x8x192 : Shape := ⟨6, ![2, 32, 8, 32, 8, 192]⟩
abbrev S2x256x256x192 : Shape := ⟨4, ![2, 256, 256, 192]⟩
abbrev S2x65536x192 : Shape := ⟨3, ![2, 65536, 192]⟩

abbrev nBuf : Space → Nat
  | .hbm => 114
  | .vmem => 18
  | .smem => 0
  | _ => 0

abbrev bufTy : (tb : Table) → Fin (tcTables nBuf tb) → BufTy
  | .hbm, ⟨0, _⟩ => ⟨S2x65536x576, .f32⟩
  | .hbm, ⟨1, _⟩ => ⟨S2x128x128x192, .f32⟩
  | .hbm, ⟨2, _⟩ => ⟨S1x11x11x2, .f32⟩
  | .hbm, ⟨3, _⟩ => ⟨S16x64, .i32⟩
  | .hbm, ⟨4, _⟩ => ⟨S64x16, .i32⟩
  | .hbm, ⟨5, _⟩ => ⟨S1024x16x64, .f32⟩
  | .hbm, ⟨6, _⟩ => ⟨S1024x64x16, .f32⟩
  | .hbm, ⟨7, _⟩ => ⟨S6x1x1, .f32⟩
  | .hbm, ⟨8, _⟩ => ⟨S2x512, .f32⟩
  | .hbm, ⟨9, _⟩ => ⟨S512, .f32⟩
  | .hbm, ⟨10, _⟩ => ⟨S512x6, .f32⟩
  | .hbm, ⟨11, _⟩ => ⟨S6x1x1, .f32⟩
  | .hbm, ⟨12, _⟩ => ⟨S2x512, .f32⟩
  | .hbm, ⟨13, _⟩ => ⟨S512, .f32⟩
  | .hbm, ⟨14, _⟩ => ⟨S512x6, .f32⟩
  | .hbm, ⟨15, _⟩ => ⟨S2x256x256x576, .f32⟩
  | .hbm, ⟨16, _⟩ => ⟨S2x32x8x32x8x576, .f32⟩
  | .hbm, ⟨17, _⟩ => ⟨S2x32x32x8x8x576, .f32⟩
  | .hbm, ⟨18, _⟩ => ⟨S2048x64x576, .f32⟩
  | .hbm, ⟨19, _⟩ => ⟨S2x32x4x32x4x192, .f32⟩
  | .hbm, ⟨20, _⟩ => ⟨S2x32x32x4x4x192, .f32⟩
  | .hbm, ⟨21, _⟩ => ⟨S2048x16x192, .f32⟩
  | .hbm, ⟨22, _⟩ => ⟨S2048x64x192, .f32⟩
  | .hbm, ⟨23, _⟩ => ⟨S2048x64x6x32, .f32⟩
  | .hbm, ⟨24, _⟩ => ⟨S2048x6x64x32, .f32⟩
  | .hbm, ⟨25, _⟩ => ⟨S2048x64x192, .f32⟩
  | .hbm, ⟨26, _⟩ => ⟨S2048x64x6x32, .f32⟩
  | .hbm, ⟨27, _⟩ => ⟨S2048x6x64x32, .f32⟩
  | .hbm, ⟨28, _⟩ => ⟨S2048x64x192, .f32⟩
  | .hbm, ⟨29, _⟩ => ⟨S2048x64x6x32, .f32⟩
  | .hbm, ⟨30, _⟩ => ⟨S2048x6x64x32, .f32⟩
  | .hbm, ⟨31, _⟩ => ⟨S2048x16x6x32, .f32⟩
  | .hbm, ⟨32, _⟩ => ⟨S2048x6x16x32, .f32⟩
  | .hbm, ⟨33, _⟩ => ⟨S121x2, .f32⟩
  | .hbm, ⟨34, _⟩ => ⟨S121x512, .f32⟩
  | .hbm, ⟨35, _⟩ => ⟨S1x512, .f32⟩
  | .hbm, ⟨36, _⟩ => ⟨S121x512, .f32⟩
  | .hbm, ⟨37, _⟩ => ⟨S121x512, .f32⟩
  | .hbm, ⟨38, _⟩ => ⟨S_, .f32⟩
  | .hbm, ⟨39, _⟩ => ⟨S121x512, .f32⟩
  | .hbm, ⟨40, _⟩ => ⟨S121x512, .f32⟩
  | .hbm, ⟨41, _⟩ => ⟨S121x6, .f32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S_, .i32⟩
  | .hbm, ⟨47, _⟩ => ⟨S1024, .i32⟩
  | .hbm, ⟨48, _⟩ => ⟨S1024, .i32⟩
  | .hbm, ⟨49, _⟩ => ⟨S1024, .i32⟩
  | .hbm, ⟨50, _⟩ => ⟨S1024x1, .i32⟩
  | .hbm, ⟨51, _⟩ => ⟨S1024x6, .f32⟩
  | .hbm, ⟨52, _⟩ => ⟨S16x64x6, .f32⟩
  | .hbm, ⟨53, _⟩ => ⟨S6x16x64, .f32⟩
  | .hbm, ⟨54, _⟩ => ⟨S6x16x64, .f32⟩
  | .hbm, ⟨55, _⟩ => ⟨S6x16x64, .f32⟩
  | .hbm, ⟨56, _⟩ => ⟨S_, .f32⟩
  | .hbm, ⟨57, _⟩ => ⟨S6x16x64, .f32⟩
  | .hbm, ⟨58, _⟩ => ⟨S6x16x64, .f32⟩
  | .hbm, ⟨59, _⟩ => ⟨S_, .f32⟩
  | .hbm, ⟨60, _⟩ => ⟨S6x16x64, .f32⟩
  | .hbm, ⟨61, _⟩ => ⟨S6x16x64, .f32⟩
  | .hbm, ⟨62, _⟩ => ⟨S_, .f32⟩
  | .hbm, ⟨63, _⟩ => ⟨S6x16x64, .f32⟩
  | .hbm, ⟨64, _⟩ => ⟨S6x16x64, .f32⟩
  | .hbm, ⟨65, _⟩ => ⟨S121x2, .f32⟩
  | .hbm, ⟨66, _⟩ => ⟨S121x512, .f32⟩
  | .hbm, ⟨67, _⟩ => ⟨S1x512, .f32⟩
  | .hbm, ⟨68, _⟩ => ⟨S121x512, .f32⟩
  | .hbm, ⟨69, _⟩ => ⟨S121x512, .f32⟩
  | .hbm, ⟨70, _⟩ => ⟨S_, .f32⟩
  | .hbm, ⟨71, _⟩ => ⟨S121x512, .f32⟩
  | .hbm, ⟨72, _⟩ => ⟨S121x512, .f32⟩
  | .hbm, ⟨73, _⟩ => ⟨S121x6, .f32⟩
  | .hbm, ⟨74, _⟩ => ⟨S1024, .i32⟩
  | .hbm, ⟨75, _⟩ => ⟨S_, .i32⟩
  | .hbm, ⟨76, _⟩ => ⟨S1024, .i32⟩
  | .hbm, ⟨77, _⟩ => ⟨S1024, .i1⟩
  | .hbm, ⟨78, _⟩ => ⟨S_, .i32⟩
  | .hbm, ⟨79, _⟩ => ⟨S1024, .i32⟩
  | .hbm, ⟨80, _⟩ => ⟨S1024, .i32⟩
  | .hbm, ⟨81, _⟩ => ⟨S1024, .i32⟩
  | .hbm, ⟨82, _⟩ => ⟨S1024x1, .i32⟩
  | .hbm, ⟨83, _⟩ => ⟨S1024x6, .f32⟩
  | .hbm, ⟨84, _⟩ => ⟨S64x16x6, .f32⟩
  | .hbm, ⟨85, _⟩ => ⟨S6x64x16, .f32⟩
  | .hbm, ⟨86, _⟩ => ⟨S6x64x16, .f32⟩
  | .hbm, ⟨87, _⟩ => ⟨S6x64x16, .f32⟩
  | .hbm, ⟨88, _⟩ => ⟨S_, .f32⟩
  | .hbm, ⟨89, _⟩ => ⟨S6x64x16, .f32⟩
  | .hbm, ⟨90, _⟩ => ⟨S6x64x16, .f32⟩
  | .hbm, ⟨91, _⟩ => ⟨S_, .f32⟩
  | .hbm, ⟨92, _⟩ => ⟨S6x64x16, .f32⟩
  | .hbm, ⟨93, _⟩ => ⟨S6x64x16, .f32⟩
  | .hbm, ⟨94, _⟩ => ⟨S_, .f32⟩
  | .hbm, ⟨95, _⟩ => ⟨S6x64x16, .f32⟩
  | .hbm, ⟨96, _⟩ => ⟨S6x64x16, .f32⟩
  | .hbm, ⟨97, _⟩ => ⟨S_, .f32⟩
  | .hbm, ⟨98, _⟩ => ⟨S6x1x1, .f32⟩
  | .hbm, ⟨99, _⟩ => ⟨S6x1x1, .f32⟩
  | .hbm, ⟨100, _⟩ => ⟨S6x1x1, .f32⟩
  | .hbm, ⟨101, _⟩ => ⟨S1x6, .f32⟩
  | .hbm, ⟨102, _⟩ => ⟨S_, .f32⟩
  | .hbm, ⟨103, _⟩ => ⟨S6x1x1, .f32⟩
  | .hbm, ⟨104, _⟩ => ⟨S6x1x1, .f32⟩
  | .hbm, ⟨105, _⟩ => ⟨S6x1x1, .f32⟩
  | .hbm, ⟨106, _⟩ => ⟨S1x6, .f32⟩
  | .hbm, ⟨107, _⟩ => ⟨S2048x6x64x32, .f32⟩
  | .hbm, ⟨108, _⟩ => ⟨S2048x64x6x32, .f32⟩
  | .hbm, ⟨109, _⟩ => ⟨S2048x64x192, .f32⟩
  | .hbm, ⟨110, _⟩ => ⟨S2x32x32x8x8x192, .f32⟩
  | .hbm, ⟨111, _⟩ => ⟨S2x32x8x32x8x192, .f32⟩
  | .hbm, ⟨112, _⟩ => ⟨S2x256x256x192, .f32⟩
  | .hbm, ⟨113, _⟩ => ⟨S2x65536x192, .f32⟩
  | .local _ .vmem, ⟨0, _⟩ => ⟨S16x6x64x32, .f32⟩
  | .local _ .vmem, ⟨1, _⟩ => ⟨S16x6x64x32, .f32⟩
  | .local _ .vmem, ⟨2, _⟩ => ⟨S16x6x64x32, .f32⟩
  | .local _ .vmem, ⟨3, _⟩ => ⟨S16x6x64x32, .f32⟩
  | .local _ .vmem, ⟨4, _⟩ => ⟨S16x6x64x32, .f32⟩
  | .local _ .vmem, ⟨5, _⟩ => ⟨S16x6x64x32, .f32⟩
  | .local _ .vmem, ⟨6, _⟩ => ⟨S16x6x16x32, .f32⟩
  | .local _ .vmem, ⟨7, _⟩ => ⟨S16x6x16x32, .f32⟩
  | .local _ .vmem, ⟨8, _⟩ => ⟨S6x16x64, .f32⟩
  | .local _ .vmem, ⟨9, _⟩ => ⟨S6x64x16, .f32⟩
  | .local _ .vmem, ⟨10, _⟩ => ⟨S16x16x64, .f32⟩
  | .local _ .vmem, ⟨11, _⟩ => ⟨S16x16x64, .f32⟩
  | .local _ .vmem, ⟨12, _⟩ => ⟨S16x64x16, .f32⟩
  | .local _ .vmem, ⟨13, _⟩ => ⟨S16x64x16, .f32⟩
  | .local _ .vmem, ⟨14, _⟩ => ⟨S1x6, .f32⟩
  | .local _ .vmem, ⟨15, _⟩ => ⟨S1x6, .f32⟩
  | .local _ .vmem, ⟨16, _⟩ => ⟨S16x6x64x32, .f32⟩
  | .local _ .vmem, ⟨17, _⟩ => ⟨S16x6x64x32, .f32⟩
  | _, _ => ⟨S2x65536x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_v37 : Ref sig .tc := ⟨.hbm, 57, rfl⟩
abbrev main_v38 : Ref sig .tc := ⟨.hbm, 58, rfl⟩
abbrev main_cst_1 : Ref sig .tc := ⟨.hbm, 59, rfl⟩
abbrev main_v39 : Ref sig .tc := ⟨.hbm, 60, rfl⟩
abbrev main_v40 : Ref sig .tc := ⟨.hbm, 61, rfl⟩
abbrev main_cst_2 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_3 : Ref sig .tc := ⟨.hbm, 75, rfl⟩
abbrev main_v51 : Ref sig .tc := ⟨.hbm, 76, rfl⟩
abbrev main_v52 : Ref sig .tc := ⟨.hbm, 77, rfl⟩
abbrev main_c_4 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_5 : Ref sig .tc := ⟨.hbm, 88, rfl⟩
abbrev main_v62 : Ref sig .tc := ⟨.hbm, 89, rfl⟩
abbrev main_v63 : Ref sig .tc := ⟨.hbm, 90, rfl⟩
abbrev main_cst_6 : Ref sig .tc := ⟨.hbm, 91, rfl⟩
abbrev main_v64 : Ref sig .tc := ⟨.hbm, 92, rfl⟩
abbrev main_v65 : Ref sig .tc := ⟨.hbm, 93, rfl⟩
abbrev main_cst_7 : Ref sig .tc := ⟨.hbm, 94, rfl⟩
abbrev main_v66 : Ref sig .tc := ⟨.hbm, 95, rfl⟩
abbrev main_v67 : Ref sig .tc := ⟨.hbm, 96, rfl⟩
abbrev main_cst_8 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_7 (i : grid0.Coords) : Fin 3 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x6x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6x64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6x64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x6x16x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x64x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x6x64x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S2x65536x576_S2x256x256x576 : S2x65536x576.ShapeCasts S2x256x256x576
  shapeCasts_S2x256x256x576_S2x32x8x32x8x576 : S2x256x256x576.ShapeCasts S2x32x8x32x8x576
  transposes_S2x32x8x32x8x576_S2x32x32x8x8x576_0_1_3_2_4_5 : S2x32x8x32x8x576.Transposes [0, 1, 3, 2, 4, 5] S2x32x32x8x8x576
  shapeCasts_S2x32x32x8x8x576_S2048x64x576 : S2x32x32x8x8x576.ShapeCasts S2048x64x576
  shapeCasts_S2x128x128x192_S2x32x4x32x4x192 : S2x128x128x192.ShapeCasts S2x32x4x32x4x192
  transposes_S2x32x4x32x4x192_S2x32x32x4x4x192_0_1_3_2_4_5 : S2x32x4x32x4x192.Transposes [0, 1, 3, 2, 4, 5] S2x32x32x4x4x192
  shapeCasts_S2x32x32x4x4x192_S2048x16x192 : S2x32x32x4x4x192.ShapeCasts S2048x16x192
  slices_S2048x64x576_S2048x64x192_0_0_0 : S2048x64x576.Slices ![0, 0, 0] S2048x64x192
  shapeCasts_S2048x64x192_S2048x64x6x32 : S2048x64x192.ShapeCasts S2048x64x6x32
  transposes_S2048x64x6x32_S2048x6x64x32_0_2_1_3 : S2048x64x6x32.Transposes [0, 2, 1, 3] S2048x6x64x32
  slices_S2048x64x576_S2048x64x192_0_0_192 : S2048x64x576.Slices ![0, 0, 192] S2048x64x192
  slices_S2048x64x576_S2048x64x192_0_0_384 : S2048x64x576.Slices ![0, 0, 384] S2048x64x192
  shapeCasts_S2048x16x192_S2048x16x6x32 : S2048x16x192.ShapeCasts S2048x16x6x32
  transposes_S2048x16x6x32_S2048x6x16x32_0_2_1_3 : S2048x16x6x32.Transposes [0, 2, 1, 3] S2048x6x16x32
  shapeCasts_S1x11x11x2_S121x2 : S1x11x11x2.ShapeCasts S121x2
  bcast_S512_S1x512_1 : S512.BroadcastsInDim S1x512 (![1] : Fin 1 → Fin S1x512.rank)
  bcast_S1x512_S121x512_0_1 : S1x512.BroadcastsInDim S121x512 (![0, 1] : Fin 2 → Fin S121x512.rank)
  bcast_S_S121x512 : S_.BroadcastsInDim S121x512 (![] : Fin 0 → Fin S121x512.rank)
  shapeCasts_S16x64_S1024 : S16x64.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  shapeCasts_S1024x6_S16x64x6 : S1024x6.ShapeCasts S16x64x6
  transposes_S16x64x6_S6x16x64_2_0_1 : S16x64x6.Transposes [2, 0, 1] S6x16x64
  bcast_S_S6x16x64 : S_.BroadcastsInDim S6x16x64 (![] : Fin 0 → Fin S6x16x64.rank)
  shapeCasts_S64x16_S1024 : S64x16.ShapeCasts S1024
  shapeCasts_S1024x6_S64x16x6 : S1024x6.ShapeCasts S64x16x6
  transposes_S64x16x6_S6x64x16_2_0_1 : S64x16x6.Transposes [2, 0, 1] S6x64x16
  bcast_S_S6x64x16 : S_.BroadcastsInDim S6x64x16 (![] : Fin 0 → Fin S6x64x16.rank)
  bcast_S_S6x1x1 : S_.BroadcastsInDim S6x1x1 (![] : Fin 0 → Fin S6x1x1.rank)
  shapeCasts_S6x1x1_S1x6 : S6x1x1.ShapeCasts S1x6
  inb_S16x6x64x32_S16x6x64x32_0_0_0_0 : ∀ a, (![0, 0, 0, 0] : Fin 4 → Nat) a + S16x6x64x32.size a ≤ S16x6x64x32.size a
  h_S16x6x64x32 : 0 < S16x6x64x32.numel
  shapeCasts_S16x6x64x32_S16x6x64x32 : S16x6x64x32.ShapeCasts S16x6x64x32
  shapeCasts_S16x6x64x32_S96x64x32 : S16x6x64x32.ShapeCasts S96x64x32
  inb_S16x6x16x32_S16x6x16x32_0_0_0_0 : ∀ a, (![0, 0, 0, 0] : Fin 4 → Nat) a + S16x6x16x32.size a ≤ S16x6x16x32.size a
  h_S16x6x16x32 : 0 < S16x6x16x32.numel
  shapeCasts_S16x6x16x32_S16x6x16x32 : S16x6x16x32.ShapeCasts S16x6x16x32
  shapeCasts_S16x6x16x32_S96x16x32 : S16x6x16x32.ShapeCasts S96x16x32
  reduces_S96x64x32_S96x64 : S96x64x32.Reduces [2] S96x64
  shapeCasts_S96x64_S96x64x1 : S96x64.ShapeCasts S96x64x1
  broadcasts_S96x64x1_S96x64x32 : S96x64x1.Broadcasts S96x64x32
  bitsLt_bf16_f32 : FTy.bits .bf16 < FTy.bits .f32
  reduces_S96x16x32_S96x16 : S96x16x32.Reduces [2] S96x16
  shapeCasts_S96x16_S96x16x1 : S96x16.ShapeCasts S96x16x1
  broadcasts_S96x16x1_S96x16x32 : S96x16x1.Broadcasts S96x16x32
  shapeCasts_S96x16x64_S16x6x16x64 : S96x16x64.ShapeCasts S16x6x16x64
  inb_S1x6_S1x6_0_0 : ∀ a, (![0, 0] : Fin 2 → Nat) a + S1x6.size a ≤ S1x6.size a
  h_S1x6 : 0 < S1x6.numel
  shapeCasts_S1x6_S1x6 : S1x6.ShapeCasts S1x6
  shapeCasts_S1x6_S1x6x1x1 : S1x6.ShapeCasts S1x6x1x1
  inb_S6x16x64_S6x16x64_0_0_0 : ∀ a, (![0, 0, 0] : Fin 3 → Nat) a + S6x16x64.size a ≤ S6x16x64.size a
  h_S6x16x64 : 0 < S6x16x64.numel
  shapeCasts_S6x16x64_S6x16x64 : S6x16x64.ShapeCasts S6x16x64
  shapeCasts_S6x16x64_S1x6x16x64 : S6x16x64.ShapeCasts S1x6x16x64
  inb_S16x16x64_S16x16x64_0_0_0 : ∀ a, (![0, 0, 0] : Fin 3 → Nat) a + S16x16x64.size a ≤ S16x16x64.size a
  h_S16x16x64 : 0 < S16x16x64.numel
  shapeCasts_S16x16x64_S16x1x16x64 : S16x16x64.ShapeCasts S16x1x16x64
  broadcasts_S1x6x1x1_S16x6x16x64 : S1x6x1x1.Broadcasts S16x6x16x64
  broadcasts_S1x6x16x64_S16x6x16x64 : S1x6x16x64.Broadcasts S16x6x16x64
  broadcasts_S16x1x16x64_S16x6x16x64 : S16x1x16x64.Broadcasts S16x6x16x64
  reduces_S16x6x16x64_S16x6x16 : S16x6x16x64.Reduces [3] S16x6x16
  shapeCasts_S16x6x16_S16x6x16x1 : S16x6x16.ShapeCasts S16x6x16x1
  broadcasts_S16x6x16x1_S16x6x16x64 : S16x6x16x1.Broadcasts S16x6x16x64
  shapeCasts_S16x6x16x64_S96x16x64 : S16x6x16x64.ShapeCasts S96x16x64
  shapeCasts_S96x64x16_S16x6x64x16 : S96x64x16.ShapeCasts S16x6x64x16
  inb_S6x64x16_S6x64x16_0_0_0 : ∀ a, (![0, 0, 0] : Fin 3 → Nat) a + S6x64x16.size a ≤ S6x64x16.size a
  h_S6x64x16 : 0 < S6x64x16.numel
  shapeCasts_S6x64x16_S6x64x16 : S6x64x16.ShapeCasts S6x64x16
  shapeCasts_S6x64x16_S1x6x64x16 : S6x64x16.ShapeCasts S1x6x64x16
  inb_S16x64x16_S16x64x16_0_0_0 : ∀ a, (![0, 0, 0] : Fin 3 → Nat) a + S16x64x16.size a ≤ S16x64x16.size a
  h_S16x64x16 : 0 < S16x64x16.numel
  shapeCasts_S16x64x16_S16x1x64x16 : S16x64x16.ShapeCasts S16x1x64x16
  broadcasts_S1x6x1x1_S16x6x64x16 : S1x6x1x1.Broadcasts S16x6x64x16
  broadcasts_S1x6x64x16_S16x6x64x16 : S1x6x64x16.Broadcasts S16x6x64x16
  broadcasts_S16x1x64x16_S16x6x64x16 : S16x1x64x16.Broadcasts S16x6x64x16
  reduces_S16x6x64x16_S16x6x64 : S16x6x64x16.Reduces [3] S16x6x64
  shapeCasts_S16x6x64_S16x6x64x1 : S16x6x64.ShapeCasts S16x6x64x1
  broadcasts_S16x6x64x1_S16x6x64x16 : S16x6x64x1.Broadcasts S16x6x64x16
  shapeCasts_S16x6x64x16_S96x64x16 : S16x6x64x16.ShapeCasts S96x64x16
  shapeCasts_S96x64x32_S16x6x64x32 : S96x64x32.ShapeCasts S16x6x64x32
  transposes_S2048x6x64x32_S2048x64x6x32_0_2_1_3 : S2048x6x64x32.Transposes [0, 2, 1, 3] S2048x64x6x32
  shapeCasts_S2048x64x6x32_S2048x64x192 : S2048x64x6x32.ShapeCasts S2048x64x192
  shapeCasts_S2048x64x192_S2x32x32x8x8x192 : S2048x64x192.ShapeCasts S2x32x32x8x8x192
  transposes_S2x32x32x8x8x192_S2x32x8x32x8x192_0_1_3_2_4_5 : S2x32x32x8x8x192.Transposes [0, 1, 3, 2, 4, 5] S2x32x8x32x8x192
  shapeCasts_S2x32x8x32x8x192_S2x256x256x192 : S2x32x8x32x8x192.ShapeCasts S2x256x256x192
  shapeCasts_S2x256x256x192_S2x65536x192 : S2x256x256x192.ShapeCasts S2x65536x192
  dot_S121x2_S2x512_S121x512_1_0_0_1_n_n_wf : DotDims.WF S121x2 S2x512 S121x512 [1] [0] [0] [1] [] []
  dot_S121x512_S512x6_S121x6_1_0_0_1_n_n_wf : DotDims.WF S121x512 S512x6 S121x6 [1] [0] [0] [1] [] []
  gather_S121x6_S1024x1_S1024x6_1_0_n_n_0_1_16_wf : GatherDims.WF S121x6 S1024x1 S1024x6 [1] [0] [] [0] [] 1 ![1, 6]
  dot_S96x16x32_S96x64x32_S96x16x64_2_2_1_1_0_0_wf : DotDims.WF S96x16x32 S96x64x32 S96x16x64 [2] [2] [1] [1] [0] [0]
  dot_S96x16x64_S96x64x32_S96x16x32_2_1_1_2_0_0_wf : DotDims.WF S96x16x64 S96x64x32 S96x16x32 [2] [1] [1] [2] [0] [0]
  dot_S96x64x32_S96x16x32_S96x64x16_2_2_1_1_0_0_wf : DotDims.WF S96x64x32 S96x16x32 S96x64x16 [2] [2] [1] [1] [0] [0]
  dot_S96x64x16_S96x16x32_S96x64x32_2_1_1_2_0_0_wf : DotDims.WF S96x64x16 S96x16x32 S96x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x6x64x32.size a ≤ S2048x6x64x32.size a
  hwx0_0 : ∀ i : grid0.Coords, EltTy.bits .f32 = 32 ∨ (Rect.block (s := S2048x6x64x32) S16x6x64x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x6x64x32.size a ≤ S2048x6x64x32.size a
  hwx0_1 : ∀ i : grid0.Coords, EltTy.bits .f32 = 32 ∨ (Rect.block (s := S2048x6x64x32) S16x6x64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x6x64x32.size a ≤ S2048x6x64x32.size a
  hwx0_2 : ∀ i : grid0.Coords, EltTy.bits .f32 = 32 ∨ (Rect.block (s := S2048x6x64x32) S16x6x64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x6x16x32.size a ≤ S2048x6x16x32.size a
  hwx0_3 : ∀ i : grid0.Coords, EltTy.bits .f32 = 32 ∨ (Rect.block (s := S2048x6x16x32) S16x6x16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x16x64.size a ≤ S6x16x64.size a
  hwx0_4 : ∀ i : grid0.Coords, EltTy.bits .f32 = 32 ∨ (Rect.block (s := S6x16x64) S6x16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x64x16.size a ≤ S6x64x16.size a
  hwx0_5 : ∀ i : grid0.Coords, EltTy.bits .f32 = 32 ∨ (Rect.block (s := S6x64x16) S6x64x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x16x64.size a ≤ S1024x16x64.size a
  hwx0_6 : ∀ i : grid0.Coords, EltTy.bits .f32 = 32 ∨ (Rect.block (s := S1024x16x64) S16x16x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x64x16.size a ≤ S1024x64x16.size a
  hwx0_7 : ∀ i : grid0.Coords, EltTy.bits .f32 = 32 ∨ (Rect.block (s := S1024x64x16) S16x64x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x6.size a ≤ S1x6.size a
  hwx0_8 : ∀ i : grid0.Coords, EltTy.bits .f32 = 32 ∨ (Rect.block (s := S1x6) S1x6.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x6.size a ≤ S1x6.size a
  hwx0_9 : ∀ i : grid0.Coords, EltTy.bits .f32 = 32 ∨ (Rect.block (s := S1x6) S1x6.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x6x64x32.size a ≤ S2048x6x64x32.size a
  hwx0_10 : ∀ i : grid0.Coords, EltTy.bits .f32 = 32 ∨ (Rect.block (s := S2048x6x64x32) S16x6x64x32.size (cc0_transform_10 i) (hinb0_10 i)).WholeWords (EltTy.packing .f32)

variable [Facts₀]

def dot_S121x2_S2x512_S121x512_1_0_0_1_n_n : DotDims S121x2 S2x512 S121x512 where
  lhsContracting := [1]
  rhsContracting := [0]
  lhsNonContracting := [0]
  rhsNonContracting := [1]
  lhsBatch := []
  rhsBatch := []
  wf := dot_S121x2_S2x512_S121x512_1_0_0_1_n_n_wf
def dot_S121x512_S512x6_S121x6_1_0_0_1_n_n : DotDims S121x512 S512x6 S121x6 where
  lhsContracting := [1]
  rhsContracting := [0]
  lhsNonContracting := [0]
  rhsNonContracting := [1]
  lhsBatch := []
  rhsBatch := []
  wf := dot_S121x512_S512x6_S121x6_1_0_0_1_n_n_wf
def gather_S121x6_S1024x1_S1024x6_1_0_n_n_0_1_16 : GatherDims S121x6 S1024x1 S1024x6 where
  offsetDims := [1]
  collapsedSliceDims := [0]
  operandBatchingDims := []
  startIndicesBatchingDims := []
  startIndexMap := [0]
  indexVectorDim := 1
  sliceSizes := ![1, 6]
  wf := gather_S121x6_S1024x1_S1024x6_1_0_n_n_0_1_16_wf
def dot_S96x16x32_S96x64x32_S96x16x64_2_2_1_1_0_0 : DotDims S96x16x32 S96x64x32 S96x16x64 where
  lhsContracting := [2]
  rhsContracting := [2]
  lhsNonContracting := [1]
  rhsNonContracting := [1]
  lhsBatch := [0]
  rhsBatch := [0]
  wf := dot_S96x16x32_S96x64x32_S96x16x64_2_2_1_1_0_0_wf
def dot_S96x16x64_S96x64x32_S96x16x32_2_1_1_2_0_0 : DotDims S96x16x64 S96x64x32 S96x16x32 where
  lhsContracting := [2]
  rhsContracting := [1]
  lhsNonContracting := [1]
  rhsNonContracting := [2]
  lhsBatch := [0]
  rhsBatch := [0]
  wf := dot_S96x16x64_S96x64x32_S96x16x32_2_1_1_2_0_0_wf
def dot_S96x64x32_S96x16x32_S96x64x16_2_2_1_1_0_0 : DotDims S96x64x32 S96x16x32 S96x64x16 where
  lhsContracting := [2]
  rhsContracting := [2]
  lhsNonContracting := [1]
  rhsNonContracting := [1]
  lhsBatch := [0]
  rhsBatch := [0]
  wf := dot_S96x64x32_S96x16x32_S96x64x16_2_2_1_1_0_0_wf
def dot_S96x64x16_S96x16x32_S96x64x32_2_1_1_2_0_0 : DotDims S96x64x16 S96x16x32 S96x64x32 where
  lhsContracting := [2]
  rhsContracting := [1]
  lhsNonContracting := [1]
  rhsNonContracting := [2]
  lhsBatch := [0]
  rhsBatch := [0]
  wf := dot_S96x64x16_S96x16x32_S96x64x32_2_1_1_2_0_0_wf

abbrev win0_0 : Pipeline.Window sig grid0 :=
  Pipeline.Window.ofSpec (Memref.whole main_v9) S16x6x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S16x6x64x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S16x6x64x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S16x6x16x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S6x16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v67) S6x64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S16x16x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S16x64x16.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v71) S1x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v75) S1x6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v76) S16x6x64x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2x65536x576 : Shape := ⟨3, ![2, 65536, 576]⟩
abbrev S2x128x128x192 : Shape := ⟨4, ![2, 128, 128, 192]⟩
abbrev S1x11x11x2 : Shape := ⟨4, ![1, 11, 11, 2]⟩
abbrev S16x64 : Shape := ⟨2, ![16, 64]⟩
abbrev S64x16 : Shape := ⟨2, ![64, 16]⟩
abbrev S1024x16x64 : Shape := ⟨3, ![1024, 16, 64]⟩
abbrev S1024x64x16 : Shape := ⟨3, ![1024, 64, 16]⟩
abbrev S6x1x1 : Shape := ⟨3, ![6, 1, 1]⟩
abbrev S2x512 : Shape := ⟨2, ![2, 512]⟩
abbrev S512 : Shape := ⟨1, ![512]⟩
abbrev S512x6 : Shape := ⟨2, ![512, 6]⟩
abbrev S2x256x256x576 : Shape := ⟨4, ![2, 256, 256, 576]⟩
abbrev S2x32x8x32x8x576 : Shape := ⟨6, ![2, 32, 8, 32, 8, 576]⟩
abbrev S2x32x32x8x8x576 : Shape := ⟨6, ![2, 32, 32, 8, 8, 576]⟩
abbrev S2048x64x576 : Shape := ⟨3, ![2048, 64, 576]⟩
abbrev S2x32x4x32x4x192 : Shape := ⟨6, ![2, 32, 4, 32, 4, 192]⟩
abbrev S2x32x32x4x4x192 : Shape := ⟨6, ![2, 32, 32, 4, 4, 192]⟩
abbrev S2048x16x192 : Shape := ⟨3, ![2048, 16, 192]⟩
abbrev S2048x64x3x6x32 : Shape := ⟨5, ![2048, 64, 3, 6, 32]⟩
abbrev S3x2048x6x64x32 : Shape := ⟨5, ![3, 2048, 6, 64, 32]⟩
abbrev S1x2048x6x64x32 : Shape := ⟨5, ![1, 2048, 6, 64, 32]⟩
abbrev S2048x6x64x32 : Shape := ⟨4, ![2048, 6, 64, 32]⟩
abbrev S2048x16x6x32 : Shape := ⟨4, ![2048, 16, 6, 32]⟩
abbrev S2048x6x16x32 : Shape := ⟨4, ![2048, 6, 16, 32]⟩
abbrev S_ : Shape := ⟨0, ![]⟩
abbrev S2048x6x16 : Shape := ⟨3, ![2048, 6, 16]⟩
abbrev S2048x6x16x1 : Shape := ⟨4, ![2048, 6, 16, 1]⟩
abbrev S2048x6x64 : Shape := ⟨3, ![2048, 6, 64]⟩
abbrev S2048x6x64x1 : Shape := ⟨4, ![2048, 6, 64, 1]⟩
abbrev S2048x6x16x64 : Shape := ⟨4, ![2048, 6, 16, 64]⟩
abbrev S1x6x1x1 : Shape := ⟨4, ![1, 6, 1, 1]⟩
abbrev S121x2 : Shape := ⟨2, ![121, 2]⟩
abbrev S121x512 : Shape := ⟨2, ![121, 512]⟩
abbrev S1x512 : Shape := ⟨2, ![1, 512]⟩
abbrev S121x6 : Shape := ⟨2, ![121, 6]⟩
abbrev S1024 : Shape := ⟨1, ![1024]⟩
abbrev S1024x1 : Shape := ⟨2, ![1024, 1]⟩
abbrev S1024x6 : Shape := ⟨2, ![1024, 6]⟩
abbrev S16x64x6 : Shape := ⟨3, ![16, 64, 6]⟩
abbrev S6x16x64 : Shape := ⟨3, ![6, 16, 64]⟩
abbrev S1x6x16x64 : Shape := ⟨4, ![1, 6, 16, 64]⟩
abbrev S2x1024x6x16x64 : Shape := ⟨5, ![2, 1024, 6, 16, 64]⟩
abbrev S1x1024x1x16x64 : Shape := ⟨5, ![1, 1024, 1, 16, 64]⟩
abbrev S2048x6x64x16 : Shape := ⟨4, ![2048, 6, 64, 16]⟩
abbrev S64x16x6 : Shape := ⟨3, ![64, 16, 6]⟩
abbrev S6x64x16 : Shape := ⟨3, ![6, 64, 16]⟩
abbrev S1x6x64x16 : Shape := ⟨4, ![1, 6, 64, 16]⟩
abbrev S2x1024x6x64x16 : Shape := ⟨5, ![2, 1024, 6, 64, 16]⟩
abbrev S1x1024x1x64x16 : Shape := ⟨5, ![1, 1024, 1, 64, 16]⟩
abbrev S2048x64x6x32 : Shape := ⟨4, ![2048, 64, 6, 32]⟩
abbrev S2048x64x192 : Shape := ⟨3, ![2048, 64, 192]⟩
abbrev S2x32x32x8x8x192 : Shape := ⟨6, ![2, 32, 32, 8, 8, 192]⟩
abbrev S2x32x8x32x8x192 : Shape := ⟨6, ![2, 32, 8, 32, 8, 192]⟩
abbrev S2x256x256x192 : Shape := ⟨4, ![2, 256, 256, 192]⟩
abbrev S2x65536x192 : Shape := ⟨3, ![2, 65536, 192]⟩

abbrev nBuf : Space → Nat
  | .hbm => 204
  | .vmem => 0
  | .smem => 0
  | _ => 0

abbrev hbmTy0_0 (i : Nat) : BufTy := match i % 128 with
  | 0 => ⟨S2x65536x576, .f32⟩
  | 1 => ⟨S2x128x128x192, .f32⟩
  | 2 => ⟨S1x11x11x2, .f32⟩
  | 3 => ⟨S16x64, .i32⟩
  | 4 => ⟨S64x16, .i32⟩
  | 5 => ⟨S1024x16x64, .f32⟩
  | 6 => ⟨S1024x64x16, .f32⟩
  | 7 => ⟨S6x1x1, .f32⟩
  | 8 => ⟨S2x512, .f32⟩
  | 9 => ⟨S512, .f32⟩
  | 10 => ⟨S512x6, .f32⟩
  | 11 => ⟨S6x1x1, .f32⟩
  | 12 => ⟨S2x512, .f32⟩
  | 13 => ⟨S512, .f32⟩
  | 14 => ⟨S512x6, .f32⟩
  | 15 => ⟨S2x256x256x576, .f32⟩
  | 16 => ⟨S2x32x8x32x8x576, .f32⟩
  | 17 => ⟨S2x32x32x8x8x576, .f32⟩
  | 18 => ⟨S2048x64x576, .f32⟩
  | 19 => ⟨S2x32x4x32x4x192, .f32⟩
  | 20 => ⟨S2x32x32x4x4x192, .f32⟩
  | 21 => ⟨S2048x16x192, .f32⟩
  | 22 => ⟨S2048x64x3x6x32, .f32⟩
  | 23 => ⟨S3x2048x6x64x32, .f32⟩
  | 24 => ⟨S1x2048x6x64x32, .f32⟩
  | 25 => ⟨S2048x6x64x32, .f32⟩
  | 26 => ⟨S1x2048x6x64x32, .f32⟩
  | 27 => ⟨S2048x6x64x32, .f32⟩
  | 28 => ⟨S1x2048x6x64x32, .f32⟩
  | 29 => ⟨S2048x6x64x32, .f32⟩
  | 30 => ⟨S2048x16x6x32, .f32⟩
  | 31 => ⟨S2048x6x16x32, .f32⟩
  | 32 => ⟨S2048x6x16x32, .f32⟩
  | 33 => ⟨S_, .f32⟩
  | 34 => ⟨S2048x6x16, .f32⟩
  | 35 => ⟨S2048x6x16x1, .f32⟩
  | 36 => ⟨S2048x6x16x1, .f32⟩
  | 37 => ⟨S_, .f32⟩
  | 38 => ⟨S2048x6x16x1, .f32⟩
  | 39 => ⟨S2048x6x16x1, .f32⟩
  | 40 => ⟨S2048x6x16x32, .f32⟩
  | 41 => ⟨S2048x6x16x32, .f32⟩
  | 42 => ⟨S2048x6x64x32, .f32⟩
  | 43 => ⟨S_, .f32⟩
  | 44 => ⟨S2048x6x64, .f32⟩
  | 45 => ⟨S2048x6x64x1, .f32⟩
  | 46 => ⟨S2048x6x64x1, .f32⟩
  | 47 => ⟨S_, .f32⟩
  | 48 => ⟨S2048x6x64x1, .f32⟩
  | 49 => ⟨S2048x6x64x1, .f32⟩
  | 50 => ⟨S2048x6x64x32, .f32⟩
  | 51 => ⟨S2048x6x64x32, .f32⟩
  | 52 => ⟨S2048x6x16x64, .f32⟩
  | 53 => ⟨S_, .f32⟩
  | 54 => ⟨S6x1x1, .f32⟩
  | 55 => ⟨S6x1x1, .f32⟩
  | 56 => ⟨S6x1x1, .f32⟩
  | 57 => ⟨S1x6x1x1, .f32⟩
  | 58 => ⟨S2048x6x16x64, .f32⟩
  | 59 => ⟨S2048x6x16x64, .f32⟩
  | 60 => ⟨S121x2, .f32⟩
  | 61 => ⟨S121x512, .f32⟩
  | 62 => ⟨S1x512, .f32⟩
  | 63 => ⟨S121x512, .f32⟩
  | 64 => ⟨S121x512, .f32⟩
  | 65 => ⟨S_, .f32⟩
  | 66 => ⟨S121x512, .f32⟩
  | 67 => ⟨S121x512, .f32⟩
  | 68 => ⟨S121x6, .f32⟩
  | 69 => ⟨S1024, .i32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1024x6, .f32⟩
  | 79 => ⟨S16x64x6, .f32⟩
  | 80 => ⟨S6x16x64, .f32⟩
  | 81 => ⟨S6x16x64, .f32⟩
  | 82 => ⟨S6x16x64, .f32⟩
  | 83 => ⟨S_, .f32⟩
  | 84 => ⟨S6x16x64, .f32⟩
  | 85 => ⟨S6x16x64, .f32⟩
  | 86 => ⟨S_, .f32⟩
  | 87 => ⟨S6x16x64, .f32⟩
  | 88 => ⟨S6x16x64, .f32⟩
  | 89 => ⟨S_, .f32⟩
  | 90 => ⟨S6x16x64, .f32⟩
  | 91 => ⟨S6x16x64, .f32⟩
  | 92 => ⟨S1x6x16x64, .f32⟩
  | 93 => ⟨S2048x6x16x64, .f32⟩
  | 94 => ⟨S2048x6x16x64, .f32⟩
  | 95 => ⟨S2x1024x6x16x64, .f32⟩
  | 96 => ⟨S1x1024x1x16x64, .f32⟩
  | 97 => ⟨S2x1024x6x16x64, .f32⟩
  | 98 => ⟨S2x1024x6x16x64, .f32⟩
  | 99 => ⟨S2048x6x16x64, .f32⟩
  | 100 => ⟨S_, .f32⟩
  | 101 => ⟨S2048x6x16, .f32⟩
  | 102 => ⟨S_, .f32⟩
  | 103 => ⟨S2048x6x16, .f32⟩
  | 104 => ⟨S2048x6x16, .f32⟩
  | 105 => ⟨S2048x6x16x1, .f32⟩
  | 106 => ⟨S2048x6x16x64, .f32⟩
  | 107 => ⟨S2048x6x16x64, .f32⟩
  | 108 => ⟨S2048x6x16x64, .f32⟩
  | 109 => ⟨S_, .f32⟩
  | 110 => ⟨S2048x6x16, .f32⟩
  | 111 => ⟨S2048x6x16x1, .f32⟩
  | 112 => ⟨S2048x6x16x64, .f32⟩
  | 113 => ⟨S2048x6x16x64, .f32⟩
  | 114 => ⟨S2048x6x16x32, .f32⟩
  | 115 => ⟨S2048x6x64x32, .f32⟩
  | 116 => ⟨S_, .f32⟩
  | 117 => ⟨S2048x6x64, .f32⟩
  | 118 => ⟨S2048x6x64x1, .f32⟩
  | 119 => ⟨S2048x6x64x1, .f32⟩
  | 120 => ⟨S_, .f32⟩
  | 121 => ⟨S2048x6x64x1, .f32⟩
  | 122 => ⟨S2048x6x64x1, .f32⟩
  | 123 => ⟨S2048x6x64x32, .f32⟩
  | 124 => ⟨S2048x6x64x32, .f32⟩
  | 125 => ⟨S2048x6x16x32, .f32⟩
  | 126 => ⟨S_, .f32⟩
  | 127 => ⟨S2048x6x16, .f32⟩
  | _ => ⟨S2x65536x576, .f32⟩

abbrev hbmTy0_1 (i : Nat) : BufTy := match i % 128 with
  | 0 => ⟨S2048x6x16x1, .f32⟩
  | 1 => ⟨S2048x6x16x1, .f32⟩
  | 2 => ⟨S_, .f32⟩
  | 3 => ⟨S2048x6x16x1, .f32⟩
  | 4 => ⟨S2048x6x16x1, .f32⟩
  | 5 => ⟨S2048x6x16x32, .f32⟩
  | 6 => ⟨S2048x6x16x32, .f32⟩
  | 7 => ⟨S2048x6x64x16, .f32⟩
  | 8 => ⟨S_, .f32⟩
  | 9 => ⟨S6x1x1, .f32⟩
  | 10 => ⟨S6x1x1, .f32⟩
  | 11 => ⟨S6x1x1, .f32⟩
  | 12 => ⟨S1x6x1x1, .f32⟩
  | 13 => ⟨S2048x6x64x16, .f32⟩
  | 14 => ⟨S2048x6x64x16, .f32⟩
  | 15 => ⟨S121x2, .f32⟩
  | 16 => ⟨S121x512, .f32⟩
  | 17 => ⟨S1x512, .f32⟩
  | 18 => ⟨S121x512, .f32⟩
  | 19 => ⟨S121x512, .f32⟩
  | 20 => ⟨S_, .f32⟩
  | 21 => ⟨S121x512, .f32⟩
  | 22 => ⟨S121x512, .f32⟩
  | 23 => ⟨S121x6, .f32⟩
  | 24 => ⟨S1024, .i32⟩
  | 25 => ⟨S_, .i32⟩
  | 26 => ⟨S1024, .i32⟩
  | 27 => ⟨S1024, .i1⟩
  | 28 => ⟨S_, .i32⟩
  | 29 => ⟨S1024, .i32⟩
  | 30 => ⟨S1024, .i32⟩
  | 31 => ⟨S1024, .i32⟩
  | 32 => ⟨S1024x1, .i32⟩
  | 33 => ⟨S1024x6, .f32⟩
  | 34 => ⟨S64x16x6, .f32⟩
  | 35 => ⟨S6x64x16, .f32⟩
  | 36 => ⟨S6x64x16, .f32⟩
  | 37 => ⟨S6x64x16, .f32⟩
  | 38 => ⟨S_, .f32⟩
  | 39 => ⟨S6x64x16, .f32⟩
  | 40 => ⟨S6x64x16, .f32⟩
  | 41 => ⟨S_, .f32⟩
  | 42 => ⟨S6x64x16, .f32⟩
  | 43 => ⟨S6x64x16, .f32⟩
  | 44 => ⟨S_, .f32⟩
  | 45 => ⟨S6x64x16, .f32⟩
  | 46 => ⟨S6x64x16, .f32⟩
  | 47 => ⟨S1x6x64x16, .f32⟩
  | 48 => ⟨S2048x6x64x16, .f32⟩
  | 49 => ⟨S2048x6x64x16, .f32⟩
  | 50 => ⟨S2x1024x6x64x16, .f32⟩
  | 51 => ⟨S1x1024x1x64x16, .f32⟩
  | 52 => ⟨S2x1024x6x64x16, .f32⟩
  | 53 => ⟨S2x1024x6x64x16, .f32⟩
  | 54 => ⟨S2048x6x64x16, .f32⟩
  | 55 => ⟨S_, .f32⟩
  | 56 => ⟨S2048x6x64, .f32⟩
  | 57 => ⟨S_, .f32⟩
  | 58 => ⟨S2048x6x64, .f32⟩
  | 59 => ⟨S2048x6x64, .f32⟩
  | 60 => ⟨S2048x6x64x1, .f32⟩
  | 61 => ⟨S2048x6x64x16, .f32⟩
  | 62 => ⟨S2048x6x64x16, .f32⟩
  | 63 => ⟨S2048x6x64x16, .f32⟩
  | 64 => ⟨S_, .f32⟩
  | 65 => ⟨S2048x6x64, .f32⟩
  | 66 => ⟨S2048x6x64x1, .f32⟩
  | 67 => ⟨S2048x6x64x16, .f32⟩
  | 68 => ⟨S2048x6x64x16, .f32⟩
  | 69 => ⟨S2048x6x64x32, .f32⟩
  | 70 => ⟨S2048x64x6x32, .f32⟩
  | 71 => ⟨S2048x64x192, .f32⟩
  | 72 => ⟨S2x32x32x8x8x192, .f32⟩
  | 73 => ⟨S2x32x8x32x8x192, .f32⟩
  | 74 => ⟨S2x256x256x192, .f32⟩
  | 75 => ⟨S2x65536x192, .f32⟩
  | _ => ⟨S2x65536x576, .f32⟩

abbrev hbmTy (i : Nat) : BufTy := match i / 128 with
  | 0 => hbmTy0_0 i
  | 1 => hbmTy0_1 i
  | _ => ⟨S2x65536x576, .f32⟩

abbrev bufTy : (tb : Table) → Fin (tcTables nBuf tb) → BufTy
  | .hbm, ⟨i, _⟩ => hbmTy i
  | _, _ => ⟨S2x65536x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_cst_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call2_cst : Ref sig .tc := ⟨.hbm, 65, rfl⟩
abbrev main_call2_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c : Ref sig .tc := ⟨.hbm, 70, rfl⟩
abbrev main_v42 : Ref sig .tc := ⟨.hbm, 71, rfl⟩
abbrev main_v43 : Ref sig .tc := ⟨.hbm, 72, rfl⟩
abbrev main_c_2 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_3 : Ref sig .tc := ⟨.hbm, 83, rfl⟩
abbrev main_v53 : Ref sig .tc := ⟨.hbm, 84, rfl⟩
abbrev main_v54 : Ref sig .tc := ⟨.hbm, 85, rfl⟩
abbrev main_cst_4 : Ref sig .tc := ⟨.hbm, 86, rfl⟩
abbrev main_v55 : Ref sig .tc := ⟨.hbm, 87, rfl⟩
abbrev main_v56 : Ref sig .tc := ⟨.hbm, 88, rfl⟩
abbrev main_cst_5 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_6 : Ref sig .tc := ⟨.hbm, 100, rfl⟩
abbrev main_v67 : Ref sig .tc := ⟨.hbm, 101, rfl⟩
abbrev main_cst_7 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_8 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call3_v0 : Ref sig .tc := ⟨.hbm, 115, rfl⟩
abbrev main_call3_cst : Ref sig .tc := ⟨.hbm, 116, rfl⟩
abbrev main_call3_v1 : Ref sig .tc := ⟨.hbm, 117, rfl⟩
abbrev main_call3_v2 : Ref sig .tc := ⟨.hbm, 118, rfl⟩
abbrev main_v79 : Ref sig .tc := ⟨.hbm, 119, rfl⟩
abbrev main_cst_9 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_call4_v0 : Ref sig .tc := ⟨.hbm, 125, rfl⟩
abbrev main_call4_cst : Ref sig .tc := ⟨.hbm, 126, rfl⟩
abbrev main_call4_v1 : Ref sig .tc := ⟨.hbm, 127, rfl⟩
abbrev main_call4_v2 : Ref sig .tc := ⟨.hbm, 128, rfl⟩
abbrev main_v84 : Ref sig .tc := ⟨.hbm, 129, rfl⟩
abbrev main_cst_10 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_11 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_call5_cst : Ref sig .tc := ⟨.hbm, 148, rfl⟩
abbrev main_call5_v0 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_c_12 : Ref sig .tc := ⟨.hbm, 153, rfl⟩
abbrev main_v104 : Ref sig .tc := ⟨.hbm, 154, rfl⟩
abbrev main_v105 : Ref sig .tc := ⟨.hbm, 155, rfl⟩
abbrev main_c_13 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_14 : Ref sig .tc := ⟨.hbm, 166, rfl⟩
abbrev main_v115 : Ref sig .tc := ⟨.hbm, 167, rfl⟩
abbrev main_v116 : Ref sig .tc := ⟨.hbm, 168, rfl⟩
abbrev main_cst_15 : Ref sig .tc := ⟨.hbm, 169, rfl⟩
abbrev main_v117 : Ref sig .tc := ⟨.hbm, 170, rfl⟩
abbrev main_v118 : Ref sig .tc := ⟨.hbm, 171, rfl⟩
abbrev main_cst_16 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_17 : Ref sig .tc := ⟨.hbm, 183, rfl⟩
abbrev main_v129 : Ref sig .tc := ⟨.hbm, 184, rfl⟩
abbrev main_cst_18 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_19 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩

abbrev nD : Nat := 1
abbrev τ : Topo := Topo.v7x

variable {F : FTy → Type} [FloatOps F]

class Facts₀ : Prop where
  shapeCasts_S2x65536x576_S2x256x256x576 : S2x65536x576.ShapeCasts S2x256x256x576
  shapeCasts_S2x256x256x576_S2x32x8x32x8x576 : S2x256x256x576.ShapeCasts S2x32x8x32x8x576
  transposes_S2x32x8x32x8x576_S2x32x32x8x8x576_0_1_3_2_4_5 : S2x32x8x32x8x576.Transposes [0, 1, 3, 2, 4, 5] S2x32x32x8x8x576
  shapeCasts_S2x32x32x8x8x576_S2048x64x576 : S2x32x32x8x8x576.ShapeCasts S2048x64x576
  shapeCasts_S2x128x128x192_S2x32x4x32x4x192 : S2x128x128x192.ShapeCasts S2x32x4x32x4x192
  transposes_S2x32x4x32x4x192_S2x32x32x4x4x192_0_1_3_2_4_5 : S2x32x4x32x4x192.Transposes [0, 1, 3, 2, 4, 5] S2x32x32x4x4x192
  shapeCasts_S2x32x32x4x4x192_S2048x16x192 : S2x32x32x4x4x192.ShapeCasts S2048x16x192
  shapeCasts_S2048x64x576_S2048x64x3x6x32 : S2048x64x576.ShapeCasts S2048x64x3x6x32
  transposes_S2048x64x3x6x32_S3x2048x6x64x32_2_0_3_1_4 : S2048x64x3x6x32.Transposes [2, 0, 3, 1, 4] S3x2048x6x64x32
  slices_S3x2048x6x64x32_S1x2048x6x64x32_0_0_0_0_0 : S3x2048x6x64x32.Slices ![0, 0, 0, 0, 0] S1x2048x6x64x32
  shapeCasts_S1x2048x6x64x32_S2048x6x64x32 : S1x2048x6x64x32.ShapeCasts S2048x6x64x32
  slices_S3x2048x6x64x32_S1x2048x6x64x32_1_0_0_0_0 : S3x2048x6x64x32.Slices ![1, 0, 0, 0, 0] S1x2048x6x64x32
  slices_S3x2048x6x64x32_S1x2048x6x64x32_2_0_0_0_0 : S3x2048x6x64x32.Slices ![2, 0, 0, 0, 0] S1x2048x6x64x32
  shapeCasts_S2048x16x192_S2048x16x6x32 : S2048x16x192.ShapeCasts S2048x16x6x32
  transposes_S2048x16x6x32_S2048x6x16x32_0_2_1_3 : S2048x16x6x32.Transposes [0, 2, 1, 3] S2048x6x16x32
  reducesTo_S2048x6x16x32_S2048x6x16_d3 : S2048x6x16x32.ReducesTo [3] S2048x6x16
  h_S_ : 0 < S_.numel
  bcast_S2048x6x16_S2048x6x16x1_0_1_2 : S2048x6x16.BroadcastsInDim S2048x6x16x1 (![0, 1, 2] : Fin 3 → Fin S2048x6x16x1.rank)
  bcast_S_S2048x6x16x1 : S_.BroadcastsInDim S2048x6x16x1 (![] : Fin 0 → Fin S2048x6x16x1.rank)
  bcast_S2048x6x16x1_S2048x6x16x32_0_1_2_3 : S2048x6x16x1.BroadcastsInDim S2048x6x16x32 (![0, 1, 2, 3] : Fin 4 → Fin S2048x6x16x32.rank)
  reducesTo_S2048x6x64x32_S2048x6x64_d3 : S2048x6x64x32.ReducesTo [3] S2048x6x64
  bcast_S2048x6x64_S2048x6x64x1_0_1_2 : S2048x6x64.BroadcastsInDim S2048x6x64x1 (![0, 1, 2] : Fin 3 → Fin S2048x6x64x1.rank)
  bcast_S_S2048x6x64x1 : S_.BroadcastsInDim S2048x6x64x1 (![] : Fin 0 → Fin S2048x6x64x1.rank)
  bcast_S2048x6x64x1_S2048x6x64x32_0_1_2_3 : S2048x6x64x1.BroadcastsInDim S2048x6x64x32 (![0, 1, 2, 3] : Fin 4 → Fin S2048x6x64x32.rank)
  bcast_S_S6x1x1 : S_.BroadcastsInDim S6x1x1 (![] : Fin 0 → Fin S6x1x1.rank)
  bcast_S6x1x1_S1x6x1x1_1_2_3 : S6x1x1.BroadcastsInDim S1x6x1x1 (![1, 2, 3] : Fin 3 → Fin S1x6x1x1.rank)
  bcast_S1x6x1x1_S2048x6x16x64_0_1_2_3 : S1x6x1x1.BroadcastsInDim S2048x6x16x64 (![0, 1, 2, 3] : Fin 4 → Fin S2048x6x16x64.rank)
  shapeCasts_S1x11x11x2_S121x2 : S1x11x11x2.ShapeCasts S121x2
  bcast_S512_S1x512_1 : S512.BroadcastsInDim S1x512 (![1] : Fin 1 → Fin S1x512.rank)
  bcast_S1x512_S121x512_0_1 : S1x512.BroadcastsInDim S121x512 (![0, 1] : Fin 2 → Fin S121x512.rank)
  bcast_S_S121x512 : S_.BroadcastsInDim S121x512 (![] : Fin 0 → Fin S121x512.rank)
  shapeCasts_S16x64_S1024 : S16x64.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  shapeCasts_S1024x6_S16x64x6 : S1024x6.ShapeCasts S16x64x6
  transposes_S16x64x6_S6x16x64_2_0_1 : S16x64x6.Transposes [2, 0, 1] S6x16x64
  bcast_S_S6x16x64 : S_.BroadcastsInDim S6x16x64 (![] : Fin 0 → Fin S6x16x64.rank)
  bcast_S6x16x64_S1x6x16x64_1_2_3 : S6x16x64.BroadcastsInDim S1x6x16x64 (![1, 2, 3] : Fin 3 → Fin S1x6x16x64.rank)
  bcast_S1x6x16x64_S2048x6x16x64_0_1_2_3 : S1x6x16x64.BroadcastsInDim S2048x6x16x64 (![0, 1, 2, 3] : Fin 4 → Fin S2048x6x16x64.rank)
  shapeCasts_S2048x6x16x64_S2x1024x6x16x64 : S2048x6x16x64.ShapeCasts S2x1024x6x16x64
  bcast_S1024x16x64_S1x1024x1x16x64_1_3_4 : S1024x16x64.BroadcastsInDim S1x1024x1x16x64 (![1, 3, 4] : Fin 3 → Fin S1x1024x1x16x64.rank)
  bcast_S1x1024x1x16x64_S2x1024x6x16x64_0_1_2_3_4 : S1x1024x1x16x64.BroadcastsInDim S2x1024x6x16x64 (![0, 1, 2, 3, 4] : Fin 5 → Fin S2x1024x6x16x64.rank)
  shapeCasts_S2x1024x6x16x64_S2048x6x16x64 : S2x1024x6x16x64.ShapeCasts S2048x6x16x64
  reducesTo_S2048x6x16x64_S2048x6x16_d3 : S2048x6x16x64.ReducesTo [3] S2048x6x16
  bcast_S_S2048x6x16 : S_.BroadcastsInDim S2048x6x16 (![] : Fin 0 → Fin S2048x6x16.rank)
  bcast_S2048x6x16x1_S2048x6x16x64_0_1_2_3 : S2048x6x16x1.BroadcastsInDim S2048x6x16x64 (![0, 1, 2, 3] : Fin 4 → Fin S2048x6x16x64.rank)
  bcast_S1x6x1x1_S2048x6x64x16_0_1_2_3 : S1x6x1x1.BroadcastsInDim S2048x6x64x16 (![0, 1, 2, 3] : Fin 4 → Fin S2048x6x64x16.rank)
  shapeCasts_S64x16_S1024 : S64x16.ShapeCasts S1024
  shapeCasts_S1024x6_S64x16x6 : S1024x6.ShapeCasts S64x16x6
  transposes_S64x16x6_S6x64x16_2_0_1 : S64x16x6.Transposes [2, 0, 1] S6x64x16
  bcast_S_S6x64x16 : S_.BroadcastsInDim S6x64x16 (![] : Fin 0 → Fin S6x64x16.rank)
  bcast_S6x64x16_S1x6x64x16_1_2_3 : S6x64x16.BroadcastsInDim S1x6x64x16 (![1, 2, 3] : Fin 3 → Fin S1x6x64x16.rank)
  bcast_S1x6x64x16_S2048x6x64x16_0_1_2_3 : S1x6x64x16.BroadcastsInDim S2048x6x64x16 (![0, 1, 2, 3] : Fin 4 → Fin S2048x6x64x16.rank)
  shapeCasts_S2048x6x64x16_S2x1024x6x64x16 : S2048x6x64x16.ShapeCasts S2x1024x6x64x16
  bcast_S1024x64x16_S1x1024x1x64x16_1_3_4 : S1024x64x16.BroadcastsInDim S1x1024x1x64x16 (![1, 3, 4] : Fin 3 → Fin S1x1024x1x64x16.rank)
  bcast_S1x1024x1x64x16_S2x1024x6x64x16_0_1_2_3_4 : S1x1024x1x64x16.BroadcastsInDim S2x1024x6x64x16 (![0, 1, 2, 3, 4] : Fin 5 → Fin S2x1024x6x64x16.rank)
  shapeCasts_S2x1024x6x64x16_S2048x6x64x16 : S2x1024x6x64x16.ShapeCasts S2048x6x64x16
  reducesTo_S2048x6x64x16_S2048x6x64_d3 : S2048x6x64x16.ReducesTo [3] S2048x6x64
  bcast_S_S2048x6x64 : S_.BroadcastsInDim S2048x6x64 (![] : Fin 0 → Fin S2048x6x64.rank)
  bcast_S2048x6x64x1_S2048x6x64x16_0_1_2_3 : S2048x6x64x1.BroadcastsInDim S2048x6x64x16 (![0, 1, 2, 3] : Fin 4 → Fin S2048x6x64x16.rank)
  transposes_S2048x6x64x32_S2048x64x6x32_0_2_1_3 : S2048x6x64x32.Transposes [0, 2, 1, 3] S2048x64x6x32
  shapeCasts_S2048x64x6x32_S2048x64x192 : S2048x64x6x32.ShapeCasts S2048x64x192
  shapeCasts_S2048x64x192_S2x32x32x8x8x192 : S2048x64x192.ShapeCasts S2x32x32x8x8x192
  transposes_S2x32x32x8x8x192_S2x32x8x32x8x192_0_1_3_2_4_5 : S2x32x32x8x8x192.Transposes [0, 1, 3, 2, 4, 5] S2x32x8x32x8x192
  shapeCasts_S2x32x8x32x8x192_S2x256x256x192 : S2x32x8x32x8x192.ShapeCasts S2x256x256x192
  shapeCasts_S2x256x256x192_S2x65536x192 : S2x256x256x192.ShapeCasts S2x65536x192
  dot_S2048x6x16x32_S2048x6x64x32_S2048x6x16x64_3_3_2_2_01_01_wf : DotDims.WF S2048x6x16x32 S2048x6x64x32 S2048x6x16x64 [3] [3] [2] [2] [0, 1] [0, 1]
  dot_S121x2_S2x512_S121x512_1_0_0_1_n_n_wf : DotDims.WF S121x2 S2x512 S121x512 [1] [0] [0] [1] [] []
  dot_S121x512_S512x6_S121x6_1_0_0_1_n_n_wf : DotDims.WF S121x512 S512x6 S121x6 [1] [0] [0] [1] [] []
  gather_S121x6_S1024x1_S1024x6_1_0_n_n_0_1_16_wf : GatherDims.WF S121x6 S1024x1 S1024x6 [1] [0] [] [0] [] 1 ![1, 6]
  dot_S2048x6x16x64_S2048x6x64x32_S2048x6x16x32_3_2_2_3_01_01_wf : DotDims.WF S2048x6x16x64 S2048x6x64x32 S2048x6x16x32 [3] [2] [2] [3] [0, 1] [0, 1]
  dot_S2048x6x64x32_S2048x6x16x32_S2048x6x64x16_3_3_2_2_01_01_wf : DotDims.WF S2048x6x64x32 S2048x6x16x32 S2048x6x64x16 [3] [3] [2] [2] [0, 1] [0, 1]
  dot_S2048x6x64x16_S2048x6x16x32_S2048x6x64x32_3_2_2_3_01_01_wf : DotDims.WF S2048x6x64x16 S2048x6x16x32 S2048x6x64x32 [3] [2] [2] [3] [0, 1] [0, 1]

variable [Facts₀]

def dot_S2048x6x16x32_S2048x6x64x32_S2048x6x16x64_3_3_2_2_01_01 : DotDims S2048x6x16x32 S2048x6x64x32 S2048x6x16x64 where
  lhsContracting := [3]
  rhsContracting := [3]
  lhsNonContracting := [2]
  rhsNonContracting := [2]
  lhsBatch := [0, 1]
  rhsBatch := [0, 1]
  wf := dot_S2048x6x16x32_S2048x6x64x32_S2048x6x16x64_3_3_2_2_01_01_wf
def dot_S121x2_S2x512_S121x512_1_0_0_1_n_n : DotDims S121x2 S2x512 S121x512 where
  lhsContracting := [1]
  rhsContracting := [0]
  lhsNonContracting := [0]
  rhsNonContracting := [1]
  lhsBatch := []
  rhsBatch := []
  wf := dot_S121x2_S2x512_S121x512_1_0_0_1_n_n_wf
def dot_S121x512_S512x6_S121x6_1_0_0_1_n_n : DotDims S121x512 S512x6 S121x6 where
  lhsContracting := [1]
  rhsContracting := [0]
  lhsNonContracting := [0]
  rhsNonContracting := [1]
  lhsBatch := []
  rhsBatch := []
  wf := dot_S121x512_S512x6_S121x6_1_0_0_1_n_n_wf
def gather_S121x6_S1024x1_S1024x6_1_0_n_n_0_1_16 : GatherDims S121x6 S1024x1 S1024x6 where
  offsetDims := [1]
  collapsedSliceDims := [0]
  operandBatchingDims := []
  startIndicesBatchingDims := []
  startIndexMap := [0]
  indexVectorDim := 1
  sliceSizes := ![1, 6]
  wf := gather_S121x6_S1024x1_S1024x6_1_0_n_n_0_1_16_wf
def dot_S2048x6x16x64_S2048x6x64x32_S2048x6x16x32_3_2_2_3_01_01 : DotDims S2048x6x16x64 S2048x6x64x32 S2048x6x16x32 where
  lhsContracting := [3]
  rhsContracting := [2]
  lhsNonContracting := [2]
  rhsNonContracting := [3]
  lhsBatch := [0, 1]
  rhsBatch := [0, 1]
  wf := dot_S2048x6x16x64_S2048x6x64x32_S2048x6x16x32_3_2_2_3_01_01_wf
def dot_S2048x6x64x32_S2048x6x16x32_S2048x6x64x16_3_3_2_2_01_01 : DotDims S2048x6x64x32 S2048x6x16x32 S2048x6x64x16 where
  lhsContracting := [3]
  rhsContracting := [3]
  lhsNonContracting := [2]
  rhsNonContracting := [2]
  lhsBatch := [0, 1]
  rhsBatch := [0, 1]
  wf := dot_S2048x6x64x32_S2048x6x16x32_S2048x6x64x16_3_3_2_2_01_01_wf
def dot_S2048x6x64x16_S2048x6x16x32_S2048x6x64x32_3_2_2_3_01_01 : DotDims S2048x6x64x16 S2048x6x16x32 S2048x6x64x32 where
  lhsContracting := [3]
  rhsContracting := [2]
  lhsNonContracting := [2]
  rhsNonContracting := [3]
  lhsBatch := [0, 1]
  rhsBatch := [0, 1]
  wf := dot_S2048x6x64x16_S2048x6x16x32_S2048x6x64x32_3_2_2_3_01_01_wf

class Facts : Prop extends Facts₀ where

variable [Facts]
-- ==== Proof.Spec.lean ====
/-
  Anchor-stripe attention for ONE window and ONE head, as a function of that window-head's rows, on the extended reals.

  A window holds 64 tokens and 16 anchors, each a row of 32 numbers per head. Every row is first divided by its
  Euclidean length (the length clamped below by a small positive constant). Stage one: each anchor scores every token by
  the inner product of the two unit rows, times the head's scale, plus a bias and a mask entry; the scores of one anchor
  are turned into weights by a softmax over the tokens, and the anchor's value is the weighted sum of the tokens'
  value rows. Stage two: each token scores every anchor in the same way (its own scale, bias and mask), the softmax runs
  over the anchors, and the token's output is the weighted sum of the anchors' stage-one values.

  The softmax is written as both programs compute it: the row maximum is a fold of `max` from minus infinity, taken once
  more against minus infinity, subtracted before the exponential, and the exponentials are divided by their sum.
-/
import Idealize.ShloMosaic.PureOps.Ideal

noncomputable section

namespace AnchorStripe

open Idealize.ShloMosaic

/-- The lower clamp of a row's length. -/
abbrev tiny : EReal := Ideal.ofBits .f32 0x2B8CBCCC#32
/-- Minus infinity, the value a row maximum starts from. -/
abbrev bottom : EReal := Ideal.ofBits .f32 0xFF800000#32

/-- A row divided by its Euclidean length, the length clamped below by `tiny`. -/
def unitRow {D : Type} [Fintype D] (x : D → EReal) (d : D) : EReal :=
  Ideal.div (x d) (max (Ideal.sqrt (∑ e, x e * x e)) tiny)

/-- The largest entry of a row, folded from minus infinity. -/
def rowMax {M : Type} [Fintype M] (l : M → EReal) : EReal :=
  (Finset.univ : Finset M).fold max bottom l

/-- The softmax weights of a row of scores. -/
def softRow {M : Type} [Fintype M] (l : M → EReal) (j : M) : EReal :=
  Ideal.div (Ideal.exp (l j - max bottom (rowMax l))) (∑ j', Ideal.exp (l j' - max bottom (rowMax l)))

/-- Row `i` of `a` against row `j` of `b`: the inner product of the unit rows, scaled, plus a bias and a mask entry. -/
def score {N M D : Type} [Fintype D] (a : N → D → EReal) (b : M → D → EReal) (s : EReal) (bias mask : N → M → EReal)
    (i : N) (j : M) : EReal :=
  (∑ d, unitRow (a i) d * unitRow (b j) d) * s + bias i j + mask i j

/-- Stage one: anchor `m`'s value, the softmax-weighted sum of the tokens' value rows. -/
def anchorValue (k v : Fin 64 → Fin 32 → EReal) (a : Fin 16 → Fin 32 → EReal) (b1 m1 : Fin 16 → Fin 64 → EReal) (s1 : EReal)
    (m : Fin 16) (d : Fin 32) : EReal :=
  ∑ n : Fin 64, softRow (score a k s1 b1 m1 m) n * v n d

/-- Stage two over given anchor values `x`: token `n`'s output, the softmax-weighted sum of the anchors' values. -/
def tokenOut (q : Fin 64 → Fin 32 → EReal) (a x : Fin 16 → Fin 32 → EReal) (b2 m2 : Fin 64 → Fin 16 → EReal) (s2 : EReal)
    (n : Fin 64) (d : Fin 32) : EReal :=
  ∑ m : Fin 16, softRow (score q a s2 b2 m2 n) m * x m d

/-- A block of 16 windows lists its window-head pairs as 96 rows: window `j`, head `h` is row `6 j + h`. -/
abbrev wh (j : Fin 16) (h : Fin 6) : Fin 96 := ⟨j.val * 6 + h.val, by have := j.isLt; have := h.isLt; omega⟩

/-- The masks repeat from image to image: window `w` of the 2048 uses mask row `w mod 1024`. -/
abbrev wm (w : Fin 2048) : Fin 1024 := ⟨w.val % 1024, Nat.mod_lt _ (by decide)⟩

/-- The window-head's output: stage two over stage one. -/
def headOut (q k v : Fin 64 → Fin 32 → EReal) (a : Fin 16 → Fin 32 → EReal) (b1 m1 : Fin 16 → Fin 64 → EReal)
    (b2 m2 : Fin 64 → Fin 16 → EReal) (s1 s2 : EReal) (n : Fin 64) (d : Fin 32) : EReal :=
  tokenOut q a (anchorValue k v a b1 m1 s1) b2 m2 s2 n d

end AnchorStripe

end
-- ==== Proof.KernelArray.lean ====
/-
  The kernel's output array after the launch, as one function of the arrays the launch is given.

  The launch runs 128 grid points; point `t` stages windows 16 t … 16 t + 15 of the query, key, value and anchor
  arrays (all six heads of each), the two bias arrays and the two scale rows whole, and rows 16 (t mod 64) … of the two
  mask arrays, and writes back windows 16 t … 16 t + 15 of the output. Every window-head of the output is computed from
  that window-head's rows alone, so the entry (w, h, n, d) of the final array is the window-head function of
  `Spec.lean` applied to window `w`'s rows: the blocks are restrictions of one whole-array function, and the 128 blocks
  tile the output.
-/
import proofs.«169394_j3865470566918_2_alg».proof.Proof.Gen.KernelIdeal.Frame
import proofs.«169394_j3865470566918_2_alg».proof.Proof.Spec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open AnchorStripe (wh wm headOut)

variable (m : (ℓ : Loc nD τ sig) → Buf (Elt Ideal) ℓ) (ρ : Dev nD → PrngReg)

/-- What the body leaves in the output block, entry by entry: the window-head function of the staged blocks' rows. -/
def BodyReads : Prop :=
  ∀ (x0 x1 x2 : Vec Ideal S16x6x64x32 .f32) (x3 : Vec Ideal S16x6x16x32 .f32) (x4 : Vec Ideal S6x16x64 .f32)
    (x5 : Vec Ideal S6x64x16 .f32) (x6 : Vec Ideal S16x16x64 .f32) (x7 : Vec Ideal S16x64x16 .f32) (x8 x9 : Vec Ideal S1x6 .f32)
    (j : Fin 16) (h : Fin 6) (n : Fin 64) (d : Fin 32),
    out0_10 (F := Ideal) x0 x1 x2 x3 x4 x5 x6 x7 x8 x9 (ix4 j h n d)
      = headOut (fun n d => x0 (ix4 j h n d)) (fun n d => x1 (ix4 j h n d)) (fun n d => x2 (ix4 j h n d))
          (fun mm d => x3 (ix4 j h mm d)) (fun mm n => x4 (ix3 h mm n)) (fun mm n => x6 (ix3 j mm n))
          (fun n mm => x5 (ix3 h n mm)) (fun n mm => x7 (ix3 j n mm)) (x8 (ix2 (0 : Fin 1) h)) (x9 (ix2 (0 : Fin 1) h)) n d

/-- Entry (w, h, n, d) of the output from the whole operand arrays: window `w`'s rows, head `h`'s bias and scale, mask
    row `w mod 1024`. -/
def entry (Q K Vv : S2048x6x64x32.Idx → Elt Ideal .f32) (A : S2048x6x16x32.Idx → Elt Ideal .f32)
    (B1 : S6x16x64.Idx → Elt Ideal .f32) (B2 : S6x64x16.Idx → Elt Ideal .f32)
    (M1 : S1024x16x64.Idx → Elt Ideal .f32) (M2 : S1024x64x16.Idx → Elt Ideal .f32) (S1 S2 : S1x6.Idx → Elt Ideal .f32)
    (w : Fin 2048) (h : Fin 6) (n : Fin 64) (d : Fin 32) : EReal :=
  headOut (fun n d => Q (ix4 w h n d)) (fun n d => K (ix4 w h n d)) (fun n d => Vv (ix4 w h n d))
    (fun mm d => A (ix4 w h mm d)) (fun mm n => B1 (ix3 h mm n)) (fun mm n => M1 (ix3 (wm w) mm n))
    (fun n mm => B2 (ix3 h n mm)) (fun n mm => M2 (ix3 (wm w) n mm)) (S1 (ix2 (0 : Fin 1) h)) (S2 (ix2 (0 : Fin 1) h)) n d

/-- The whole output array. -/
def whole (Q K Vv : S2048x6x64x32.Idx → Elt Ideal .f32) (A : S2048x6x16x32.Idx → Elt Ideal .f32)
    (B1 : S6x16x64.Idx → Elt Ideal .f32) (B2 : S6x64x16.Idx → Elt Ideal .f32)
    (M1 : S1024x16x64.Idx → Elt Ideal .f32) (M2 : S1024x64x16.Idx → Elt Ideal .f32) (S1 S2 : S1x6.Idx → Elt Ideal .f32) :
    S2048x6x64x32.Idx → Elt Ideal .f32 :=
  fun i => entry Q K Vv A B1 B2 M1 M2 S1 S2 ⟨(i 0).val, (i 0).isLt⟩ ⟨(i 1).val, (i 1).isLt⟩ ⟨(i 2).val, (i 2).isLt⟩ ⟨(i 3).val, (i 3).isLt⟩

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 128 grid points: the four row windows and the output move with the point, the mask
    windows with the point modulo 64, the bias and scale windows stay. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = t.val % 64 ∧ win0_6.index t (1 : Fin 3) = 0 ∧ win0_6.index t (2 : Fin 3) = 0)
    ∧ (win0_7.index t (0 : Fin 3) = t.val % 64 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 4) = t.val ∧ win0_10.index t (1 : Fin 4) = 0 ∧ win0_10.index t (2 : Fin 4) = 0 ∧ win0_10.index t (3 : Fin 4) = 0) :=
  (by decide +kernel : ∀ t : Fin grid0.N, _)

theorem t_lt (t : Fin cfg0.N) : t.val < 128 := N_0 ▸ t.isLt

/-- Window `j` of point `t`'s block is window `16 t + j` of the array. -/
abbrev wq (t : Fin cfg0.N) (j : Fin 16) : Fin 2048 := ⟨t.val * 16 + j.val, by have := t_lt t; have := j.isLt; omega⟩
/-- Mask row `j` of point `t`'s block is row `16 (t mod 64) + j` of the mask array. -/
abbrev mq (t : Fin cfg0.N) (j : Fin 16) : Fin 1024 := ⟨t.val % 64 * 16 + j.val, by have := j.isLt; omega⟩

theorem wm_wq (t : Fin cfg0.N) (j : Fin 16) : wm (wq t j) = mq t j := Fin.ext (by
  show (t.val * 16 + j.val) % 1024 = t.val % 64 * 16 + j.val
  have := j.isLt; omega)

/-! ## Each staged block, read at an entry, is the array at the matching entry -/

theorem read0 (c : Dev nD) (t : Fin cfg0.N) (j : Fin 16) (h : Fin 6) (n : Fin 64) (d : Fin 32) :
    iblk m c 0 t (ix4 j h n d) = V m c main_v9 (ix4 (wq t j) h n d) := by
  obtain ⟨e0, e1, e2, e3⟩ := (idx_facts t).1
  show V m c main_v9 (((cfg0.win 0).blk t).view.emb (ix4 j h n d)) = V m c main_v9 (ix4 (wq t j) h n d)
  refine congrArg _ (funext fun a => Fin.ext ?_)
  match a with
  | ⟨0, _⟩ => show win0_0.index t (0 : Fin 4) * 16 + 1 * j.val = t.val * 16 + j.val; rw [e0]; omega
  | ⟨1, _⟩ => show win0_0.index t (1 : Fin 4) * 6 + 1 * h.val = h.val; rw [e1]; omega
  | ⟨2, _⟩ => show win0_0.index t (2 : Fin 4) * 64 + 1 * n.val = n.val; rw [e2]; omega
  | ⟨3, _⟩ => show win0_0.index t (3 : Fin 4) * 32 + 1 * d.val = d.val; rw [e3]; omega

theorem read1 (c : Dev nD) (t : Fin cfg0.N) (j : Fin 16) (h : Fin 6) (n : Fin 64) (d : Fin 32) :
    iblk m c 1 t (ix4 j h n d) = V m c main_v12 (ix4 (wq t j) h n d) := by
  obtain ⟨e0, e1, e2, e3⟩ := (idx_facts t).2.1
  show V m c main_v12 (((cfg0.win 1).blk t).view.emb (ix4 j h n d)) = V m c main_v12 (ix4 (wq t j) h n d)
  refine congrArg _ (funext fun a => Fin.ext ?_)
  match a with
  | ⟨0, _⟩ => show win0_1.index t (0 : Fin 4) * 16 + 1 * j.val = t.val * 16 + j.val; rw [e0]; omega
  | ⟨1, _⟩ => show win0_1.index t (1 : Fin 4) * 6 + 1 * h.val = h.val; rw [e1]; omega
  | ⟨2, _⟩ => show win0_1.index t (2 : Fin 4) * 64 + 1 * n.val = n.val; rw [e2]; omega
  | ⟨3, _⟩ => show win0_1.index t (3 : Fin 4) * 32 + 1 * d.val = d.val; rw [e3]; omega

theorem read2 (c : Dev nD) (t : Fin cfg0.N) (j : Fin 16) (h : Fin 6) (n : Fin 64) (d : Fin 32) :
    iblk m c 2 t (ix4 j h n d) = V m c main_v15 (ix4 (wq t j) h n d) := by
  obtain ⟨e0, e1, e2, e3⟩ := (idx_facts t).2.2.1
  show V m c main_v15 (((cfg0.win 2).blk t).view.emb (ix4 j h n d)) = V m c main_v15 (ix4 (wq t j) h n d)
  refine congrArg _ (funext fun a => Fin.ext ?_)
  match a with
  | ⟨0, _⟩ => show win0_2.index t (0 : Fin 4) * 16 + 1 * j.val = t.val * 16 + j.val; rw [e0]; omega
  | ⟨1, _⟩ => show win0_2.index t (1 : Fin 4) * 6 + 1 * h.val = h.val; rw [e1]; omega
  | ⟨2, _⟩ => show win0_2.index t (2 : Fin 4) * 64 + 1 * n.val = n.val; rw [e2]; omega
  | ⟨3, _⟩ => show win0_2.index t (3 : Fin 4) * 32 + 1 * d.val = d.val; rw [e3]; omega

theorem read3 (c : Dev nD) (t : Fin cfg0.N) (j : Fin 16) (h : Fin 6) (n : Fin 16) (d : Fin 32) :
    iblk m c 3 t (ix4 j h n d) = V m c main_v17 (ix4 (wq t j) h n d) := by
  obtain ⟨e0, e1, e2, e3⟩ := (idx_facts t).2.2.2.1
  show V m c main_v17 (((cfg0.win 3).blk t).view.emb (ix4 j h n d)) = V m c main_v17 (ix4 (wq t j) h n d)
  refine congrArg _ (funext fun a => Fin.ext ?_)
  match a with
  | ⟨0, _⟩ => show win0_3.index t (0 : Fin 4) * 16 + 1 * j.val = t.val * 16 + j.val; rw [e0]; omega
  | ⟨1, _⟩ => show win0_3.index t (1 : Fin 4) * 6 + 1 * h.val = h.val; rw [e1]; omega
  | ⟨2, _⟩ => show win0_3.index t (2 : Fin 4) * 16 + 1 * n.val = n.val; rw [e2]; omega
  | ⟨3, _⟩ => show win0_3.index t (3 : Fin 4) * 32 + 1 * d.val = d.val; rw [e3]; omega

theorem read4 (c : Dev nD) (t : Fin cfg0.N) (h : Fin 6) (mm : Fin 16) (n : Fin 64) :
    iblk m c 4 t (ix3 h mm n) = V m c main_v42 (ix3 h mm n) := by
  obtain ⟨e0, e1, e2⟩ := (idx_facts t).2.2.2.2.1
  show V m c main_v42 (((cfg0.win 4).blk t).view.emb (ix3 h mm n)) = V m c main_v42 (ix3 h mm n)
  refine congrArg _ (funext fun a => Fin.ext ?_)
  match a with
  | ⟨0, _⟩ => show win0_4.index t (0 : Fin 3) * 6 + 1 * h.val = h.val; rw [e0]; omega
  | ⟨1, _⟩ => show win0_4.index t (1 : Fin 3) * 16 + 1 * mm.val = mm.val; rw [e1]; omega
  | ⟨2, _⟩ => show win0_4.index t (2 : Fin 3) * 64 + 1 * n.val = n.val; rw [e2]; omega

theorem read5 (c : Dev nD) (t : Fin cfg0.N) (h : Fin 6) (n : Fin 64) (mm : Fin 16) :
    iblk m c 5 t (ix3 h n mm) = V m c main_v67 (ix3 h n mm) := by
  obtain ⟨e0, e1, e2⟩ := (idx_facts t).2.2.2.2.2.1
  show V m c main_v67 (((cfg0.win 5).blk t).view.emb (ix3 h n mm)) = V m c main_v67 (ix3 h n mm)
  refine congrArg _ (funext fun a => Fin.ext ?_)
  match a with
  | ⟨0, _⟩ => show win0_5.index t (0 : Fin 3) * 6 + 1 * h.val = h.val; rw [e0]; omega
  | ⟨1, _⟩ => show win0_5.index t (1 : Fin 3) * 64 + 1 * n.val = n.val; rw [e1]; omega
  | ⟨2, _⟩ => show win0_5.index t (2 : Fin 3) * 16 + 1 * mm.val = mm.val; rw [e2]; omega

theorem read6 (c : Dev nD) (t : Fin cfg0.N) (j : Fin 16) (mm : Fin 16) (n : Fin 64) :
    iblk m c 6 t (ix3 j mm n) = V m c main_arg5 (ix3 (mq t j) mm n) := by
  obtain ⟨e0, e1, e2⟩ := (idx_facts t).2.2.2.2.2.2.1
  show V m c main_arg5 (((cfg0.win 6).blk t).view.emb (ix3 j mm n)) = V m c main_arg5 (ix3 (mq t j) mm n)
  refine congrArg _ (funext fun a => Fin.ext ?_)
  match a with
  | ⟨0, _⟩ => show win0_6.index t (0 : Fin 3) * 16 + 1 * j.val = t.val % 64 * 16 + j.val; rw [e0]; omega
  | ⟨1, _⟩ => show win0_6.index t (1 : Fin 3) * 16 + 1 * mm.val = mm.val; rw [e1]; omega
  | ⟨2, _⟩ => show win0_6.index t (2 : Fin 3) * 64 + 1 * n.val = n.val; rw [e2]; omega

theorem read7 (c : Dev nD) (t : Fin cfg0.N) (j : Fin 16) (n : Fin 64) (mm : Fin 16) :
    iblk m c 7 t (ix3 j n mm) = V m c main_arg6 (ix3 (mq t j) n mm) := by
  obtain ⟨e0, e1, e2⟩ := (idx_facts t).2.2.2.2.2.2.2.1
  show V m c main_arg6 (((cfg0.win 7).blk t).view.emb (ix3 j n mm)) = V m c main_arg6 (ix3 (mq t j) n mm)
  refine congrArg _ (funext fun a => Fin.ext ?_)
  match a with
  | ⟨0, _⟩ => show win0_7.index t (0 : Fin 3) * 16 + 1 * j.val = t.val % 64 * 16 + j.val; rw [e0]; omega
  | ⟨1, _⟩ => show win0_7.index t (1 : Fin 3) * 64 + 1 * n.val = n.val; rw [e1]; omega
  | ⟨2, _⟩ => show win0_7.index t (2 : Fin 3) * 16 + 1 * mm.val = mm.val; rw [e2]; omega

theorem read8 (c : Dev nD) (t : Fin cfg0.N) (h : Fin 6) :
    iblk m c 8 t (ix2 (0 : Fin 1) h) = V m c main_v71 (ix2 (0 : Fin 1) h) := by
  obtain ⟨e0, e1⟩ := (idx_facts t).2.2.2.2.2.2.2.2.1
  show V m c main_v71 (((cfg0.win 8).blk t).view.emb (ix2 (0 : Fin 1) h)) = V m c main_v71 (ix2 (0 : Fin 1) h)
  refine congrArg _ (funext fun a => Fin.ext ?_)
  match a with
  | ⟨0, _⟩ => show win0_8.index t (0 : Fin 2) * 1 + 1 * 0 = 0; rw [e0]
  | ⟨1, _⟩ => show win0_8.index t (1 : Fin 2) * 6 + 1 * h.val = h.val; rw [e1]; omega

theorem read9 (c : Dev nD) (t : Fin cfg0.N) (h : Fin 6) :
    iblk m c 9 t (ix2 (0 : Fin 1) h) = V m c main_v75 (ix2 (0 : Fin 1) h) := by
  obtain ⟨e0, e1⟩ := (idx_facts t).2.2.2.2.2.2.2.2.2.1
  show V m c main_v75 (((cfg0.win 9).blk t).view.emb (ix2 (0 : Fin 1) h)) = V m c main_v75 (ix2 (0 : Fin 1) h)
  refine congrArg _ (funext fun a => Fin.ext ?_)
  match a with
  | ⟨0, _⟩ => show win0_9.index t (0 : Fin 2) * 1 + 1 * 0 = 0; rw [e0]
  | ⟨1, _⟩ => show win0_9.index t (1 : Fin 2) * 6 + 1 * h.val = h.val; rw [e1]; omega

/-! ## What a point writes back, the cover, and the array after the launch -/

/-- Point `t` writes back block `t` of the whole output array. -/
theorem flushed_eq (hb : BodyReads) (c : Dev nD) (t : Fin cfg0.N) :
    (dats m 0 c).flushed 10 t = ((cfg0.win 10).blk t).view.read (Elt Ideal)
      (whole (V m c main_v9) (V m c main_v12) (V m c main_v15) (V m c main_v17) (V m c main_v42) (V m c main_v67)
        (V m c main_arg5) (V m c main_arg6) (V m c main_v71) (V m c main_v75)) := by
  show (cfg0.win 10).cut (grid0.coords t) ((dats m 0 c).after 10 t) = _
  rw [after0_10]
  have key : ∀ (j : Fin 16) (h : Fin 6) (n : Fin 64) (d : Fin 32),
      out0_10 (iblk m c 0 t) (iblk m c 1 t) (iblk m c 2 t) (iblk m c 3 t) (iblk m c 4 t) (iblk m c 5 t) (iblk m c 6 t)
          (iblk m c 7 t) (iblk m c 8 t) (iblk m c 9 t) (ix4 j h n d)
        = whole (V m c main_v9) (V m c main_v12) (V m c main_v15) (V m c main_v17) (V m c main_v42) (V m c main_v67)
            (V m c main_arg5) (V m c main_arg6) (V m c main_v71) (V m c main_v75) (((cfg0.win 10).blk t).view.emb (ix4 j h n d)) := by
    intro j h n d
    refine (hb (iblk m c 0 t) (iblk m c 1 t) (iblk m c 2 t) (iblk m c 3 t) (iblk m c 4 t) (iblk m c 5 t) (iblk m c 6 t)
      (iblk m c 7 t) (iblk m c 8 t) (iblk m c 9 t) j h n d).trans ?_
    obtain ⟨e0, e1, e2, e3⟩ := (idx_facts t).2.2.2.2.2.2.2.2.2.2
    have hemb : ((cfg0.win 10).blk t).view.emb (ix4 j h n d) = ix4 (wq t j) h n d := by
      funext a; apply Fin.ext
      match a with
      | ⟨0, _⟩ => show win0_10.index t (0 : Fin 4) * 16 + 1 * j.val = t.val * 16 + j.val; rw [e0]; omega
      | ⟨1, _⟩ => show win0_10.index t (1 : Fin 4) * 6 + 1 * h.val = h.val; rw [e1]; omega
      | ⟨2, _⟩ => show win0_10.index t (2 : Fin 4) * 64 + 1 * n.val = n.val; rw [e2]; omega
      | ⟨3, _⟩ => show win0_10.index t (3 : Fin 4) * 32 + 1 * d.val = d.val; rw [e3]; omega
    rw [hemb]
    show _ = entry _ _ _ _ _ _ _ _ _ _ (wq t j) h n d
    unfold entry
    simp only [read0 m c t, read1 m c t, read2 m c t, read3 m c t, read4 m c t, read5 m c t, read6 m c t, read7 m c t,
      read8 m c t, read9 m c t, wm_wq]
  funext y
  have hy : y = ix4 (n0 := 16) (n1 := 6) (n2 := 64) (n3 := 32) (y 0) (y 1) (y 2) (y 3) :=
    eq_ix4 (n0 := 16) (n1 := 6) (n2 := 64) (n3 := 32) y
  have := key (y 0) (y 1) (y 2) (y 3)
  rw [← hy] at this
  exact this

/-- An entry of the output array lies in point `t`'s block iff each coordinate lies in the block's range on its axis. -/
theorem mem_blk (t : Fin cfg0.N) (i : S2048x6x64x32.Idx) :
    i ∈ ((cfg0.win 10).blk t).view.set ↔ ∀ a : Fin 4, win0_10.index t a * S16x6x64x32.size a ≤ (i a).val
      ∧ (i a).val < win0_10.index t a * S16x6x64x32.size a + S16x6x64x32.size a := by
  show i ∈ ((View.whole main_v76).slice (win0_10.rect t)).set ↔ _
  rw [View.set_slice_whole, Rect.mem_set_unit]
  exact Iff.rfl

/-- The 128 blocks tile the output: window `w` is written by point `w / 16`. -/
theorem cover (i : S2048x6x64x32.Idx) :
    ∃ t : Fin cfg0.N, (cfg0.win 10).flush t = true ∧ i ∈ ((cfg0.win 10).blk t).view.set := by
  have h0 : (i 0).val < 2048 := (i 0).isLt
  have h1 : (i 1).val < 6 := (i 1).isLt
  have h2 : (i 2).val < 64 := (i 2).isLt
  have h3 : (i 3).val < 32 := (i 3).isLt
  let t : Fin cfg0.N := ⟨(i 0).val / 16, by rw [show cfg0.N = 128 from N_0]; omega⟩
  refine ⟨t, flush0_10 t, ?_⟩
  obtain ⟨e0, e1, e2, e3⟩ := (idx_facts t).2.2.2.2.2.2.2.2.2.2
  have ht : t.val = (i 0).val / 16 := rfl
  rw [mem_blk]
  intro a
  match a with
  | ⟨0, _⟩ => show win0_10.index t (0 : Fin 4) * 16 ≤ (i 0).val ∧ (i 0).val < win0_10.index t (0 : Fin 4) * 16 + 16; rw [e0]; omega
  | ⟨1, _⟩ => show win0_10.index t (1 : Fin 4) * 6 ≤ (i 1).val ∧ (i 1).val < win0_10.index t (1 : Fin 4) * 6 + 6; rw [e1]; omega
  | ⟨2, _⟩ => show win0_10.index t (2 : Fin 4) * 64 ≤ (i 2).val ∧ (i 2).val < win0_10.index t (2 : Fin 4) * 64 + 64; rw [e2]; omega
  | ⟨3, _⟩ => show win0_10.index t (3 : Fin 4) * 32 ≤ (i 3).val ∧ (i 3).val < win0_10.index t (3 : Fin 4) * 32 + 32; rw [e3]; omega

/-- THE ARRAY after the launch: the whole-array function of the operand arrays as the launch finds them. -/
theorem final (hb : BodyReads) (c : Dev nD) :
    (dats m 0 c).arrAt 10 cfg0.N
      = whole (V m c main_v9) (V m c main_v12) (V m c main_v15) (V m c main_v17) (V m c main_v42) (V m c main_v67)
          (V m c main_arg5) (V m c main_arg6) (V m c main_v71) (V m c main_v75) :=
  (dats m 0 c).arrAt_eq_of_cover 10 _ (fun t _ => flushed_eq m hb c t) cover

end Cert.KernelIdeal.Whole

end
-- ==== Proof.KernelRun.lean ====
/-
  The kernel's run with its result named. After the launch the program re-lays the output array — heads back beside the
  channels, windows back into the image, rows of the image back into one axis — by six transposes and reshapes that move
  entries and compute nothing. So the result is that re-layout of the whole-array function of `KernelArray.lean`, and
  every argument array ends as it began.
-/
import proofs.«169394_j3865470566918_2_alg».proof.Proof.KernelArray
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The six re-layouts after the launch, as one function of the output array. -/
def tail (x : S2048x6x64x32.Idx → Elt Ideal .f32) : S2x65536x192.Idx → Elt Ideal .f32 :=
  shapeCast S2x65536x192
    (shapeCast S2x256x256x192
      (transpose S2x32x8x32x8x192 [0, 1, 3, 2, 4, 5]
        (shapeCast S2x32x32x8x8x192
          (shapeCast S2048x64x192
            (transpose S2048x64x6x32 [0, 2, 1, 3] x transposes_S2048x6x64x32_S2048x64x6x32_0_2_1_3)
            shapeCasts_S2048x64x6x32_S2048x64x192)
          shapeCasts_S2048x64x192_S2x32x32x8x8x192)
        transposes_S2x32x32x8x8x192_S2x32x8x32x8x192_0_1_3_2_4_5)
      shapeCasts_S2x32x8x32x8x192_S2x256x256x192)
    shapeCasts_S2x256x256x192_S2x65536x192

/-- What the lines after the launch leave in the result buffer: the re-layout of the output array. -/
theorem after_tail (c : Dev nD) :
    Pipeline.afterTail₀ cfgs (dats m) 0 (V0 m) [hostOps1] c main_v82 = tail ((dats m 0 c).arrAt 10 cfg0.N) := by
  unfold Pipeline.afterTail₀
  show StableHlo.after hostOps1 _ (Proc.devRef .tc main_v82) = _
  after_results
  rw [Pipeline.withArrays_arr spec0 launch0.win.arr_inj c _ _ 10]
  rfl

/-- THE RUN: every weakly fair execution of the kernel's program ends with the result buffer at the re-layout of the
    whole-array function of the operand arrays as the launch finds them, and every argument array as it began. -/
theorem run (hb : BodyReads) :
    θ_run defs (onTc (τ := τ) (main (F := Ideal))) ⟨m, fun _ => 0, ρ⟩ (fun r => ∀ c : Dev nD,
      r.2.mem ((c.tc : Thread nD τ).loc main_v82) = tail (whole (V m c main_v9) (V m c main_v12) (V m c main_v15) (V m c main_v17) (V m c main_v42) (V m c main_v67)
          (V m c main_arg5) (V m c main_arg6) (V m c main_v71) (V m c main_v75))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).2 main_v82 (Pipeline.mem_restRefs_of main_v82 (by decide) (by decide))).trans
        ((after_tail m c).trans (congrArg tail (final m hb c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩) (run_main m ρ)

end Cert.KernelIdeal.Whole

end
-- ==== Proof.BodyValue.lean ====
/-
  The body's output block, entry by entry, from its two stages. The body's one store writes the whole output block, and
  its value is stage two applied to stage one's anchor values; each stage read at an entry is the matching function of
  `Spec.lean` of the staged blocks' rows, so the block's entry (j, h, n, d) is the window-head function of window `j`'s
  rows at head `h`.
-/
import proofs.«169394_j3865470566918_2_alg».proof.Proof.KernelArray

noncomputable section

namespace Cert.KernelIdeal.Whole

open Cert.KernelIdeal Cert.KernelIdeal.Gen Idealize.ShloMosaic Idealize.ShloMosaic.TcCoe
open Idealize.ShloMosaic.ValueIdx
open AnchorStripe (wh wm headOut)

/-- Stage one of the body read at an entry: the anchor's value from the window-head's key, value and anchor rows. -/
def Stage1Reads : Prop :=
  ∀ (v : Vec Ideal S16x6x64x32 .f32) (a : Vec Ideal S16x6x16x32 .f32) (k : Vec Ideal S16x6x64x32 .f32)
    (s1 : Vec Ideal S1x6 .f32) (b1 : Vec Ideal S6x16x64 .f32) (m1 : Vec Ideal S16x16x64 .f32)
    (j : Fin 16) (h : Fin 6) (mm : Fin 16) (d : Fin 32),
    k0_pay8 (F := Ideal) (k0_pay2 v) (k0_pay3 a) (k0_pay5 k) (k0_pay6 a) s1 b1 m1 (ix3 (wh j h) mm d)
      = AnchorStripe.anchorValue (fun n d => k (ix4 j h n d)) (fun n d => v (ix4 j h n d)) (fun m d => a (ix4 j h m d))
          (fun m n => b1 (ix3 h m n)) (fun m n => m1 (ix3 j m n)) (s1 (ix2 (0 : Fin 1) h)) mm d

/-- Stage two of the body read at an entry, over any anchor values `x1`. -/
def Stage2Reads : Prop :=
  ∀ (x1 : FVec Ideal S96x16x32 .bf16) (a : Vec Ideal S16x6x16x32 .f32) (q : Vec Ideal S16x6x64x32 .f32)
    (s2 : Vec Ideal S1x6 .f32) (b2 : Vec Ideal S6x64x16 .f32) (m2 : Vec Ideal S16x64x16 .f32)
    (j : Fin 16) (h : Fin 6) (n : Fin 64) (d : Fin 32),
    k0_pay1 (F := Ideal) x1 (k0_pay9 (k0_pay3 a) (k0_pay4 q) (k0_pay6 a)) (k0_pay10 s2) (k0_pay11 b2) m2 (ix4 j h n d)
      = AnchorStripe.tokenOut (fun n d => q (ix4 j h n d)) (fun m d => a (ix4 j h m d)) (fun m d => x1 (ix3 (wh j h) m d))
          (fun n m => b2 (ix3 h n m)) (fun n m => m2 (ix3 j n m)) (s2 (ix2 (0 : Fin 1) h)) n d

/-- The two stages together give the block. -/
theorem body_reads_of (h1 : Stage1Reads) (h2 : Stage2Reads) : BodyReads := by
  intro x0 x1 x2 x3 x4 x5 x6 x7 x8 x9 j h n d
  unfold out0_10
  rw [View.canon_unit_zero hz4]
  simp only [View.ld_unit_zero (S := S16x6x64x32) hz4, View.ld_unit_zero (S := S16x6x16x32) hz4,
    View.ld_unit_zero (S := S1x6) hz2, View.ld_unit_zero (S := S6x16x64) hz3, View.ld_unit_zero (S := S6x64x16) hz3,
    View.ld_unit_zero (S := S16x16x64) hz3, View.ld_unit_zero (S := S16x64x16) hz3]
  refine (h2 _ x3 x0 x9 x5 x7 j h n d).trans ?_
  unfold AnchorStripe.headOut
  have e : (fun (mm : Fin 16) (d : Fin 32) =>
        k0_pay8 (F := Ideal) (k0_pay2 x2) (k0_pay3 x3) (k0_pay5 x1) (k0_pay6 x3) x8 x4 x6 (ix3 (wh j h) mm d))
      = AnchorStripe.anchorValue (fun n d => x1 (ix4 j h n d)) (fun n d => x2 (ix4 j h n d)) (fun mm d => x3 (ix4 j h mm d))
          (fun mm n => x4 (ix3 h mm n)) (fun mm n => x6 (ix3 j mm n)) (x8 (ix2 (0 : Fin 1) h)) :=
    funext fun mm => funext fun d => h1 x2 x3 x1 x8 x4 x6 j h mm d
  rw [e]

end Cert.KernelIdeal.Whole

end
-- ==== Proof.BodyStage1.lean ====
/-
  Stage one of windowed anchor attention, read at one entry of the kernel body's pure term.

  A block holds 16 windows of 6 heads; the body lists the 96 window-head pairs as rows, row `6 j + h` for window `j` and
  head `h`. For each row it divides every anchor row and every key row by its Euclidean length (clamped below), takes the
  inner products of anchor rows with key rows, scales them by the head's scale, adds the head's bias table and the window's
  mask table, turns each anchor's row of scores into weights by a softmax along the tokens, and sums the value rows with
  those weights. This module reads each of these steps at an index and concludes that the result, at window `j`, head `h`,
  anchor `m` and coordinate `d`, is the specification's anchor value of that window-head's rows. Nothing is used beyond
  re-indexing of finite sums and the fact that a sum started from zero is the sum.
-/
import proofs.«169394_j3865470566918_2_alg».proof.Proof.Gen.KernelIdeal.Skeleton
import proofs.«169394_j3865470566918_2_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Body
open Cert.KernelIdeal Cert.KernelIdeal.Gen

open AnchorStripe (wh wm)

namespace Stage1

/-! ### Window-head rows: a block of 16 windows by 6 heads, listed as 96 rows -/

/-- The 96-row listing of a [16, 6, c, e] block reads, at row `6 j + h`, the block at window `j`, head `h`. -/
theorem cast_rows {α : Type} {c e : ℕ} (x : (⟨4, ![16, 6, c, e]⟩ : Shape).Idx → α)
    (hc : (⟨4, ![16, 6, c, e]⟩ : Shape).ShapeCasts ⟨3, ![96, c, e]⟩) (j : Fin 16) (h : Fin 6) (n : Fin c) (d : Fin e) :
    shapeCast ⟨3, ![96, c, e]⟩ x hc (ix3 (wh j h) n d) = x (ix4 j h n d) :=
  shapeCast_apply x hc _ _ (by
    rw [Shape.rowMajor_val_four, Shape.rowMajor_val_three]
    rfl)

/-- And back: the [16, 6, c, e] view of 96 rows reads, at window `j`, head `h`, row `6 j + h`. -/
theorem cast_blocks {α : Type} {c e : ℕ} (x : (⟨3, ![96, c, e]⟩ : Shape).Idx → α)
    (hc : (⟨3, ![96, c, e]⟩ : Shape).ShapeCasts ⟨4, ![16, 6, c, e]⟩) (j : Fin 16) (h : Fin 6) (n : Fin c) (d : Fin e) :
    shapeCast ⟨4, ![16, 6, c, e]⟩ x hc (ix4 j h n d) = x (ix3 (wh j h) n d) :=
  shapeCast_apply x hc _ _ (by
    rw [Shape.rowMajor_val_four, Shape.rowMajor_val_three]
    rfl)

/-! ### A row divided by its clamped Euclidean length -/

/-- The sum of squares along the last axis of a [96, c, 32] stack, kept as a unit axis, clamped below after the square
    root and spread back along the axis: at every entry of row `(r, n)` it is that row's clamped length. -/
theorem length_apply {c : ℕ} (X : FVec Ideal ⟨3, ![96, c, 32]⟩ .f32)
    (hr : (⟨3, ![96, c, 32]⟩ : Shape).Reduces [2] ⟨2, ![96, c]⟩) (hφ : FKind.Formats .f32)
    (hacc : (0x00000000#32 : BitVec 32) = FKind.add.neutral .f32 hφ)
    (hs : (⟨2, ![96, c]⟩ : Shape).ShapeCasts ⟨3, ![96, c, 1]⟩)
    (hb : (⟨3, ![96, c, 1]⟩ : Shape).Broadcasts ⟨3, ![96, c, 32]⟩) (r : Fin 96) (n : Fin c) (d : Fin 32) :
    broadcastTo ⟨3, ![96, c, 32]⟩
        (maximumf (sqrt (shapeCast ⟨3, ![96, c, 1]⟩ (multiReduction .add [2] ⟨2, ![96, c]⟩ (mulf X X) 0x00000000#32 hr hφ hacc) hs))
          (broadcast ⟨3, ![96, c, 1]⟩ (Scalar.ofBits .f32 0x2B8CBCCC#32))) hb (ix3 r n d)
      = max (Ideal.sqrt (∑ e : Fin 32, X (ix3 r n e) * X (ix3 r n e))) AnchorStripe.tiny := by
  refine (broadcastTo_apply _ hb (ix3 r n d) (ix3 r n (0 : Fin 1)) fun a => ?_).trans ?_
  · match a with
    | ⟨0, _⟩ => rfl
    | ⟨1, _⟩ =>
      show n.val = if c = 1 then 0 else n.val
      split
      · have := n.isLt; omega
      · rfl
    | ⟨2, _⟩ => rfl
  show max (Ideal.sqrt (shapeCast ⟨3, ![96, c, 1]⟩ (multiReduction .add [2] ⟨2, ![96, c]⟩ (mulf X X) 0x00000000#32 hr hφ hacc) hs
      (ix3 r n (0 : Fin 1)))) AnchorStripe.tiny = _
  refine congrArg (fun t => max (Ideal.sqrt t) AnchorStripe.tiny) ?_
  refine (shapeCast_apply _ hs (ix3 r n (0 : Fin 1)) (ix2 r n) (by
    rw [Shape.rowMajor_val_three, Shape.rowMajor_val_two]
    show r.val * c + n.val = (r.val * c + n.val) * 1 + 0
    omega)).trans ?_
  refine (Ideal.multiReduction_add_single (mulf X X) 0x00000000#32 hr hφ hacc (ix2 r n)).trans ?_
  refine Finset.sum_congr rfl fun e _ => ?_
  have he : hr.lift (ix2 r n) e = ix3 r n e := funext fun a => Fin.ext (by
    match a with
    | ⟨0, _⟩ => rfl
    | ⟨1, _⟩ => rfl
    | ⟨2, _⟩ => rfl)
  rw [he]
  rfl

end Stage1

namespace Stage1

/-- So the row divided entrywise by that spread length (and kept at the narrower format, which changes nothing on the
    extended reals) is the unit row of the specification. -/
theorem unit_apply {c : ℕ} (X : FVec Ideal ⟨3, ![96, c, 32]⟩ .f32)
    (hr : (⟨3, ![96, c, 32]⟩ : Shape).Reduces [2] ⟨2, ![96, c]⟩) (hφ : FKind.Formats .f32)
    (hacc : (0x00000000#32 : BitVec 32) = FKind.add.neutral .f32 hφ)
    (hs : (⟨2, ![96, c]⟩ : Shape).ShapeCasts ⟨3, ![96, c, 1]⟩)
    (hb : (⟨3, ![96, c, 1]⟩ : Shape).Broadcasts ⟨3, ![96, c, 32]⟩) (hlt : FTy.bits .bf16 < FTy.bits .f32)
    (r : Fin 96) (n : Fin c) (d : Fin 32) :
    truncf .bf16 (divf X (broadcastTo ⟨3, ![96, c, 32]⟩
        (maximumf (sqrt (shapeCast ⟨3, ![96, c, 1]⟩ (multiReduction .add [2] ⟨2, ![96, c]⟩ (mulf X X) 0x00000000#32 hr hφ hacc) hs))
          (broadcast ⟨3, ![96, c, 1]⟩ (Scalar.ofBits .f32 0x2B8CBCCC#32))) hb)) hlt (ix3 r n d)
      = AnchorStripe.unitRow (fun e => X (ix3 r n e)) d :=
  congrArg (Ideal.div (X (ix3 r n d))) (length_apply X hr hφ hacc hs hb r n d)

/-- The value block listed as 96 rows. -/
theorem values_apply (v : Vec Ideal S16x6x64x32 .f32) (j : Fin 16) (h : Fin 6) (n : Fin 64) (d : Fin 32) :
    k0_pay2 (F := Ideal) v (ix3 (wh j h) n d) = v (ix4 j h n d) := by
  unfold k0_pay2
  refine (cast_rows _ _ j h n d).trans ?_
  rw [shapeCast_self]

/-- The anchor block listed as 96 rows. -/
theorem anchors_apply (a : Vec Ideal S16x6x16x32 .f32) (j : Fin 16) (h : Fin 6) (m : Fin 16) (d : Fin 32) :
    k0_pay3 (F := Ideal) a (ix3 (wh j h) m d) = a (ix4 j h m d) := by
  unfold k0_pay3
  refine (cast_rows _ _ j h m d).trans ?_
  rw [shapeCast_self]

/-- The key rows the body feeds the first product: each key row of window `j`, head `h` as a unit row. -/
theorem keyUnit_apply (k : Vec Ideal S16x6x64x32 .f32) (j : Fin 16) (h : Fin 6) (n : Fin 64) (d : Fin 32) :
    k0_pay5 (F := Ideal) k (ix3 (wh j h) n d) = AnchorStripe.unitRow (fun e => k (ix4 j h n e)) d := by
  unfold k0_pay5
  refine (unit_apply _ _ _ _ _ _ _ (wh j h) n d).trans ?_
  refine congrArg (fun f => AnchorStripe.unitRow f d) (funext fun e => ?_)
  refine (cast_rows _ _ j h n e).trans ?_
  rw [shapeCast_self]

/-- The anchor rows the body feeds both products: each anchor row of window `j`, head `h` as a unit row. -/
theorem anchorUnit_apply (a : Vec Ideal S16x6x16x32 .f32) (j : Fin 16) (h : Fin 6) (m : Fin 16) (d : Fin 32) :
    k0_pay7 (F := Ideal) (k0_pay3 a) (k0_pay6 a) (ix3 (wh j h) m d) = AnchorStripe.unitRow (fun e => a (ix4 j h m e)) d := by
  unfold k0_pay7 k0_pay6
  refine (unit_apply _ _ _ _ _ _ _ (wh j h) m d).trans ?_
  exact congrArg (fun f => AnchorStripe.unitRow f d) (funext fun e => anchors_apply a j h m e)

end Stage1

namespace Stage1

/-! ### The score tensor: unit rows against unit rows, scaled, plus a bias and a mask -/

/-- The first product: every anchor row against every key row of the same window and head, seen per window and head. -/
def dots (an : FVec Ideal S96x16x32 .bf16) (kn : FVec Ideal S96x64x32 .bf16) : FVec Ideal S16x6x16x64 .f32 :=
  shapeCast S16x6x16x64
    (matmul dot_S96x16x32_S96x64x32_S96x16x64_2_2_1_1_0_0 none an kn (constant S96x16x64 .f32 0x00000000#32))
    shapeCasts_S96x16x64_S16x6x16x64

/-- The heads' scales spread over windows, anchors and tokens. -/
def scaleT (s1 : Vec Ideal S1x6 .f32) : FVec Ideal S16x6x16x64 .f32 :=
  broadcastTo S16x6x16x64 (shapeCast S1x6x1x1 (shapeCast S1x6 s1 shapeCasts_S1x6_S1x6) shapeCasts_S1x6_S1x6x1x1)
    broadcasts_S1x6x1x1_S16x6x16x64

/-- The bias, one table per head, spread over the windows. -/
def biasT (b1 : Vec Ideal S6x16x64 .f32) : FVec Ideal S16x6x16x64 .f32 :=
  broadcastTo S16x6x16x64 (shapeCast S1x6x16x64 (shapeCast S6x16x64 b1 shapeCasts_S6x16x64_S6x16x64) shapeCasts_S6x16x64_S1x6x16x64)
    broadcasts_S1x6x16x64_S16x6x16x64

/-- The mask, one table per window, spread over the heads. -/
def maskT (m1 : Vec Ideal S16x16x64 .f32) : FVec Ideal S16x6x16x64 .f32 :=
  broadcastTo S16x6x16x64 (shapeCast S16x1x16x64 m1 shapeCasts_S16x16x64_S16x1x16x64) broadcasts_S16x1x16x64_S16x6x16x64

/-- The scores of stage one. -/
def scoreT (an : FVec Ideal S96x16x32 .bf16) (kn : FVec Ideal S96x64x32 .bf16) (s1 : Vec Ideal S1x6 .f32)
    (b1 : Vec Ideal S6x16x64 .f32) (m1 : Vec Ideal S16x16x64 .f32) : FVec Ideal S16x6x16x64 .f32 :=
  addf (addf (mulf (dots an kn) (scaleT s1)) (biasT b1)) (maskT m1)

theorem scoreDot_lhs0 (i : S96x16x64.Idx) (q : dot_S96x16x32_S96x64x32_S96x16x64_2_2_1_1_0_0.contr.Idx) :
    (dot_S96x16x32_S96x64x32_S96x16x64_2_2_1_1_0_0.lhsIdx i q 0).val = (i 0).val := by
  unfold DotDims.lhsIdx
  rw [dif_pos (show (0 : Fin S96x16x32.rank) ∈ dot_S96x16x32_S96x64x32_S96x16x64_2_2_1_1_0_0.lhsBatch by decide)]
  rfl
theorem scoreDot_lhs1 (i : S96x16x64.Idx) (q : dot_S96x16x32_S96x64x32_S96x16x64_2_2_1_1_0_0.contr.Idx) :
    (dot_S96x16x32_S96x64x32_S96x16x64_2_2_1_1_0_0.lhsIdx i q 1).val = (i 1).val := by
  unfold DotDims.lhsIdx
  rw [dif_neg (show ¬(1 : Fin S96x16x32.rank) ∈ dot_S96x16x32_S96x64x32_S96x16x64_2_2_1_1_0_0.lhsBatch by decide),
    dif_pos (show (1 : Fin S96x16x32.rank) ∈ dot_S96x16x32_S96x64x32_S96x16x64_2_2_1_1_0_0.lhsNonContracting by decide)]
  rfl
theorem scoreDot_lhs2 (i : S96x16x64.Idx) (q : dot_S96x16x32_S96x64x32_S96x16x64_2_2_1_1_0_0.contr.Idx) :
    (dot_S96x16x32_S96x64x32_S96x16x64_2_2_1_1_0_0.lhsIdx i q 2).val = (q ⟨0, by decide⟩).val :=
  dot_S96x16x32_S96x64x32_S96x16x64_2_2_1_1_0_0.lhsIdx_val_of_single rfl i q
theorem scoreDot_rhs0 (i : S96x16x64.Idx) (q : dot_S96x16x32_S96x64x32_S96x16x64_2_2_1_1_0_0.contr.Idx) :
    (dot_S96x16x32_S96x64x32_S96x16x64_2_2_1_1_0_0.rhsIdx i q 0).val = (i 0).val := by
  unfold DotDims.rhsIdx
  rw [dif_pos (show (0 : Fin S96x64x32.rank) ∈ dot_S96x16x32_S96x64x32_S96x16x64_2_2_1_1_0_0.rhsBatch by decide)]
  rfl
theorem scoreDot_rhs1 (i : S96x16x64.Idx) (q : dot_S96x16x32_S96x64x32_S96x16x64_2_2_1_1_0_0.contr.Idx) :
    (dot_S96x16x32_S96x64x32_S96x16x64_2_2_1_1_0_0.rhsIdx i q 1).val = (i 2).val := by
  unfold DotDims.rhsIdx
  rw [dif_neg (show ¬(1 : Fin S96x64x32.rank) ∈ dot_S96x16x32_S96x64x32_S96x16x64_2_2_1_1_0_0.rhsBatch by decide),
    dif_pos (show (1 : Fin S96x64x32.rank) ∈ dot_S96x16x32_S96x64x32_S96x16x64_2_2_1_1_0_0.rhsNonContracting by decide)]
  rfl
theorem scoreDot_rhs2 (i : S96x16x64.Idx) (q : dot_S96x16x32_S96x64x32_S96x16x64_2_2_1_1_0_0.contr.Idx) :
    (dot_S96x16x32_S96x64x32_S96x16x64_2_2_1_1_0_0.rhsIdx i q 2).val = (q ⟨0, by decide⟩).val :=
  dot_S96x16x32_S96x64x32_S96x16x64_2_2_1_1_0_0.rhsIdx_val_of_single rfl i q

/-- The first product at an entry: the inner product of anchor row `m` and key row `n` of row `r`'s window and head. -/
theorem scoreDot_apply (an : FVec Ideal S96x16x32 .bf16) (kn : FVec Ideal S96x64x32 .bf16) (r : Fin 96) (m : Fin 16) (n : Fin 64) :
    matmul dot_S96x16x32_S96x64x32_S96x16x64_2_2_1_1_0_0 none an kn (constant S96x16x64 .f32 0x00000000#32) (ix3 r m n)
      = ∑ e : Fin 32, an (ix3 r m e) * kn (ix3 r n e) := by
  refine (Ideal.matmul_constant_zero_apply dot_S96x16x32_S96x64x32_S96x16x64_2_2_1_1_0_0 none an kn (ix3 r m n)).trans ?_
  rw [← Equiv.sum_comp (contrEquiv1 dot_S96x16x32_S96x64x32_S96x16x64_2_2_1_1_0_0 32 rfl rfl).symm]
  refine Finset.sum_congr rfl fun e _ => ?_
  have hk := contrEquiv1_symm_val dot_S96x16x32_S96x64x32_S96x16x64_2_2_1_1_0_0 32 rfl rfl e
  have el : dot_S96x16x32_S96x64x32_S96x16x64_2_2_1_1_0_0.lhsIdx (ix3 r m n)
      ((contrEquiv1 dot_S96x16x32_S96x64x32_S96x16x64_2_2_1_1_0_0 32 rfl rfl).symm e) = ix3 r m e := funext fun a => Fin.ext (by
    match a with
    | ⟨0, _⟩ => exact scoreDot_lhs0 _ _
    | ⟨1, _⟩ => exact scoreDot_lhs1 _ _
    | ⟨2, _⟩ => exact (scoreDot_lhs2 _ _).trans hk)
  have er : dot_S96x16x32_S96x64x32_S96x16x64_2_2_1_1_0_0.rhsIdx (ix3 r m n)
      ((contrEquiv1 dot_S96x16x32_S96x64x32_S96x16x64_2_2_1_1_0_0 32 rfl rfl).symm e) = ix3 r n e := funext fun a => Fin.ext (by
    match a with
    | ⟨0, _⟩ => exact scoreDot_rhs0 _ _
    | ⟨1, _⟩ => exact scoreDot_rhs1 _ _
    | ⟨2, _⟩ => exact (scoreDot_rhs2 _ _).trans hk)
  rw [el, er]

theorem dots_apply (an : FVec Ideal S96x16x32 .bf16) (kn : FVec Ideal S96x64x32 .bf16) (j : Fin 16) (h : Fin 6) (m : Fin 16) (n : Fin 64) :
    dots an kn (ix4 j h m n) = ∑ e : Fin 32, an (ix3 (wh j h) m e) * kn (ix3 (wh j h) n e) :=
  (cast_blocks _ _ j h m n).trans (scoreDot_apply an kn (wh j h) m n)

theorem scaleT_apply (s1 : Vec Ideal S1x6 .f32) (j : Fin 16) (h : Fin 6) (m : Fin 16) (n : Fin 64) :
    scaleT s1 (ix4 j h m n) = s1 (ix2 (0 : Fin 1) h) := by
  unfold scaleT
  refine (broadcastTo_apply _ _ (ix4 j h m n) (ix4 (0 : Fin 1) h (0 : Fin 1) (0 : Fin 1)) fun a => ?_).trans ?_
  · match a with
    | ⟨0, _⟩ => rfl
    | ⟨1, _⟩ => rfl
    | ⟨2, _⟩ => rfl
    | ⟨3, _⟩ => rfl
  refine (shapeCast_apply _ _ _ (ix2 (0 : Fin 1) h) (by
    rw [Shape.rowMajor_val_four, Shape.rowMajor_val_two]
    show 0 * 6 + h.val = ((0 * 6 + h.val) * 1 + 0) * 1 + 0
    omega)).trans ?_
  rw [shapeCast_self]

theorem biasT_apply (b1 : Vec Ideal S6x16x64 .f32) (j : Fin 16) (h : Fin 6) (m : Fin 16) (n : Fin 64) :
    biasT b1 (ix4 j h m n) = b1 (ix3 h m n) := by
  unfold biasT
  refine (broadcastTo_apply _ _ (ix4 j h m n) (ix4 (0 : Fin 1) h m n) fun a => ?_).trans ?_
  · match a with
    | ⟨0, _⟩ => rfl
    | ⟨1, _⟩ => rfl
    | ⟨2, _⟩ => rfl
    | ⟨3, _⟩ => rfl
  refine (shapeCast_apply _ _ _ (ix3 h m n) (by
    rw [Shape.rowMajor_val_four, Shape.rowMajor_val_three]
    show (h.val * 16 + m.val) * 64 + n.val = (((0 * 6 + h.val) * 16 + m.val) * 64 + n.val)
    omega)).trans ?_
  rw [shapeCast_self]

theorem maskT_apply (m1 : Vec Ideal S16x16x64 .f32) (j : Fin 16) (h : Fin 6) (m : Fin 16) (n : Fin 64) :
    maskT m1 (ix4 j h m n) = m1 (ix3 j m n) := by
  unfold maskT
  refine (broadcastTo_apply _ _ (ix4 j h m n) (ix4 j (0 : Fin 1) m n) fun a => ?_).trans ?_
  · match a with
    | ⟨0, _⟩ => rfl
    | ⟨1, _⟩ => rfl
    | ⟨2, _⟩ => rfl
    | ⟨3, _⟩ => rfl
  exact shapeCast_apply _ _ _ (ix3 j m n) (by
    rw [Shape.rowMajor_val_four, Shape.rowMajor_val_three]
    show (j.val * 16 + m.val) * 64 + n.val = (((j.val * 1 + 0) * 16 + m.val) * 64 + n.val)
    omega)

/-- The score of anchor `m` for token `n` in window `j`, head `h`. -/
theorem scoreT_apply (an : FVec Ideal S96x16x32 .bf16) (kn : FVec Ideal S96x64x32 .bf16) (s1 : Vec Ideal S1x6 .f32)
    (b1 : Vec Ideal S6x16x64 .f32) (m1 : Vec Ideal S16x16x64 .f32) (j : Fin 16) (h : Fin 6) (m : Fin 16) (n : Fin 64) :
    scoreT an kn s1 b1 m1 (ix4 j h m n)
      = (∑ e : Fin 32, an (ix3 (wh j h) m e) * kn (ix3 (wh j h) n e)) * s1 (ix2 (0 : Fin 1) h) + b1 (ix3 h m n) + m1 (ix3 j m n) := by
  show dots an kn (ix4 j h m n) * scaleT s1 (ix4 j h m n) + biasT b1 (ix4 j h m n) + maskT m1 (ix4 j h m n) = _
  rw [dots_apply, scaleT_apply, biasT_apply, maskT_apply]

end Stage1

namespace Stage1

/-! ### The softmax along the token axis -/

/-- A per-anchor quantity spread along the token axis. -/
def spread (T : FVec Ideal S16x6x16 .f32) : FVec Ideal S16x6x16x64 .f32 :=
  broadcastTo S16x6x16x64 (shapeCast S16x6x16x1 T shapeCasts_S16x6x16_S16x6x16x1) broadcasts_S16x6x16x1_S16x6x16x64

/-- Each anchor's largest score, folded from minus infinity and taken once more against it. -/
def rowTop (S : FVec Ideal S16x6x16x64 .f32) : FVec Ideal S16x6x16 .f32 :=
  maximumf (broadcast S16x6x16 (Scalar.ofBits .f32 0xFF800000#32))
    (multiReduction .maximumf [3] S16x6x16 S 0xFF800000#32 reduces_S16x6x16x64_S16x6x16 (.inl rfl) rfl)

/-- The exponentials of the scores, each anchor's largest score subtracted first. -/
def shifted (S : FVec Ideal S16x6x16x64 .f32) : FVec Ideal S16x6x16x64 .f32 :=
  exp (subf S (spread (rowTop S)))

/-- Each anchor's sum along the token axis. -/
def rowSum (E : FVec Ideal S16x6x16x64 .f32) : FVec Ideal S16x6x16 .f32 :=
  multiReduction .add [3] S16x6x16 E 0x00000000#32 reduces_S16x6x16x64_S16x6x16 (.inl rfl) rfl

/-- The softmax weights. -/
def softT (S : FVec Ideal S16x6x16x64 .f32) : FVec Ideal S16x6x16x64 .f32 :=
  divf (shifted S) (spread (rowSum (shifted S)))

theorem spread_apply (T : FVec Ideal S16x6x16 .f32) (j : Fin 16) (h : Fin 6) (m : Fin 16) (n : Fin 64) :
    spread T (ix4 j h m n) = T (ix3 j h m) := by
  unfold spread
  refine (broadcastTo_apply _ _ (ix4 j h m n) (ix4 j h m (0 : Fin 1)) fun a => ?_).trans ?_
  · match a with
    | ⟨0, _⟩ => rfl
    | ⟨1, _⟩ => rfl
    | ⟨2, _⟩ => rfl
    | ⟨3, _⟩ => rfl
  exact shapeCast_apply _ _ _ (ix3 j h m) (by
    rw [Shape.rowMajor_val_four, Shape.rowMajor_val_three]
    show (j.val * 6 + h.val) * 16 + m.val = (((j.val * 6 + h.val) * 16 + m.val) * 1 + 0)
    omega)

/-- The token-axis coordinate put back into an anchor's index. -/
theorem lift_tokens (hr : S16x6x16x64.Reduces [3] S16x6x16) (j : Fin 16) (h : Fin 6) (m : Fin 16) (n : Fin 64) :
    hr.lift (ix3 j h m) n = ix4 j h m n := funext fun a => Fin.ext (by
  match a with
  | ⟨0, _⟩ => rfl
  | ⟨1, _⟩ => rfl
  | ⟨2, _⟩ => rfl
  | ⟨3, _⟩ => rfl)

theorem rowTop_apply (S : FVec Ideal S16x6x16x64 .f32) (j : Fin 16) (h : Fin 6) (m : Fin 16) :
    rowTop S (ix3 j h m) = max AnchorStripe.bottom (AnchorStripe.rowMax fun n => S (ix4 j h m n)) := by
  unfold rowTop
  refine congrArg (max AnchorStripe.bottom) ?_
  refine (Ideal.multiReduction_maximumf_single S 0xFF800000#32 reduces_S16x6x16x64_S16x6x16 (.inl rfl) rfl (ix3 j h m)).trans ?_
  unfold AnchorStripe.rowMax
  refine congrArg (fun f : Fin 64 → EReal => (Finset.univ : Finset (Fin 64)).fold max AnchorStripe.bottom f) (funext fun n => ?_)
  exact congrArg S (lift_tokens _ j h m n)

theorem rowSum_apply (E : FVec Ideal S16x6x16x64 .f32) (j : Fin 16) (h : Fin 6) (m : Fin 16) :
    rowSum E (ix3 j h m) = ∑ n : Fin 64, E (ix4 j h m n) := by
  unfold rowSum
  refine (Ideal.multiReduction_add_single E 0x00000000#32 reduces_S16x6x16x64_S16x6x16 (.inl rfl) rfl (ix3 j h m)).trans ?_
  exact Finset.sum_congr rfl fun n _ => congrArg E (lift_tokens _ j h m n)

theorem shifted_apply (S : FVec Ideal S16x6x16x64 .f32) (j : Fin 16) (h : Fin 6) (m : Fin 16) (n : Fin 64) :
    shifted S (ix4 j h m n)
      = Ideal.exp (S (ix4 j h m n) - max AnchorStripe.bottom (AnchorStripe.rowMax fun n' => S (ix4 j h m n'))) := by
  show Ideal.exp (S (ix4 j h m n) - spread (rowTop S) (ix4 j h m n)) = _
  rw [spread_apply, rowTop_apply]

/-- The weights at an entry are the specification's softmax of that anchor's row of scores. -/
theorem softT_apply (S : FVec Ideal S16x6x16x64 .f32) (j : Fin 16) (h : Fin 6) (m : Fin 16) (n : Fin 64) :
    softT S (ix4 j h m n) = AnchorStripe.softRow (fun n' => S (ix4 j h m n')) n := by
  show Ideal.div (shifted S (ix4 j h m n)) (spread (rowSum (shifted S)) (ix4 j h m n)) = _
  rw [spread_apply, rowSum_apply, shifted_apply]
  unfold AnchorStripe.softRow
  exact congrArg (Ideal.div _) (Finset.sum_congr rfl fun n' _ => shifted_apply S j h m n')

end Stage1

namespace Stage1

/-! ### The second product, and the whole of stage one -/

theorem valueDot_lhs0 (i : S96x16x32.Idx) (q : dot_S96x16x64_S96x64x32_S96x16x32_2_1_1_2_0_0.contr.Idx) :
    (dot_S96x16x64_S96x64x32_S96x16x32_2_1_1_2_0_0.lhsIdx i q 0).val = (i 0).val := by
  unfold DotDims.lhsIdx
  rw [dif_pos (show (0 : Fin S96x16x64.rank) ∈ dot_S96x16x64_S96x64x32_S96x16x32_2_1_1_2_0_0.lhsBatch by decide)]
  rfl
theorem valueDot_lhs1 (i : S96x16x32.Idx) (q : dot_S96x16x64_S96x64x32_S96x16x32_2_1_1_2_0_0.contr.Idx) :
    (dot_S96x16x64_S96x64x32_S96x16x32_2_1_1_2_0_0.lhsIdx i q 1).val = (i 1).val := by
  unfold DotDims.lhsIdx
  rw [dif_neg (show ¬(1 : Fin S96x16x64.rank) ∈ dot_S96x16x64_S96x64x32_S96x16x32_2_1_1_2_0_0.lhsBatch by decide),
    dif_pos (show (1 : Fin S96x16x64.rank) ∈ dot_S96x16x64_S96x64x32_S96x16x32_2_1_1_2_0_0.lhsNonContracting by decide)]
  rfl
theorem valueDot_lhs2 (i : S96x16x32.Idx) (q : dot_S96x16x64_S96x64x32_S96x16x32_2_1_1_2_0_0.contr.Idx) :
    (dot_S96x16x64_S96x64x32_S96x16x32_2_1_1_2_0_0.lhsIdx i q 2).val = (q ⟨0, by decide⟩).val :=
  dot_S96x16x64_S96x64x32_S96x16x32_2_1_1_2_0_0.lhsIdx_val_of_single rfl i q
theorem valueDot_rhs0 (i : S96x16x32.Idx) (q : dot_S96x16x64_S96x64x32_S96x16x32_2_1_1_2_0_0.contr.Idx) :
    (dot_S96x16x64_S96x64x32_S96x16x32_2_1_1_2_0_0.rhsIdx i q 0).val = (i 0).val := by
  unfold DotDims.rhsIdx
  rw [dif_pos (show (0 : Fin S96x64x32.rank) ∈ dot_S96x16x64_S96x64x32_S96x16x32_2_1_1_2_0_0.rhsBatch by decide)]
  rfl
theorem valueDot_rhs1 (i : S96x16x32.Idx) (q : dot_S96x16x64_S96x64x32_S96x16x32_2_1_1_2_0_0.contr.Idx) :
    (dot_S96x16x64_S96x64x32_S96x16x32_2_1_1_2_0_0.rhsIdx i q 1).val = (q ⟨0, by decide⟩).val :=
  dot_S96x16x64_S96x64x32_S96x16x32_2_1_1_2_0_0.rhsIdx_val_of_single rfl i q
theorem valueDot_rhs2 (i : S96x16x32.Idx) (q : dot_S96x16x64_S96x64x32_S96x16x32_2_1_1_2_0_0.contr.Idx) :
    (dot_S96x16x64_S96x64x32_S96x16x32_2_1_1_2_0_0.rhsIdx i q 2).val = (i 2).val := by
  unfold DotDims.rhsIdx
  rw [dif_neg (show ¬(2 : Fin S96x64x32.rank) ∈ dot_S96x16x64_S96x64x32_S96x16x32_2_1_1_2_0_0.rhsBatch by decide),
    dif_pos (show (2 : Fin S96x64x32.rank) ∈ dot_S96x16x64_S96x64x32_S96x16x32_2_1_1_2_0_0.rhsNonContracting by decide)]
  rfl

/-- The second product at an entry: row `m` of the weights against column `d` of the values of row `r`'s window and head. -/
theorem valueDot_apply (p : FVec Ideal S96x16x64 .bf16) (v : FVec Ideal S96x64x32 .bf16) (r : Fin 96) (m : Fin 16) (d : Fin 32) :
    matmul dot_S96x16x64_S96x64x32_S96x16x32_2_1_1_2_0_0 none p v (constant S96x16x32 .f32 0x00000000#32) (ix3 r m d)
      = ∑ n : Fin 64, p (ix3 r m n) * v (ix3 r n d) := by
  refine (Ideal.matmul_constant_zero_apply dot_S96x16x64_S96x64x32_S96x16x32_2_1_1_2_0_0 none p v (ix3 r m d)).trans ?_
  rw [← Equiv.sum_comp (contrEquiv1 dot_S96x16x64_S96x64x32_S96x16x32_2_1_1_2_0_0 64 rfl rfl).symm]
  refine Finset.sum_congr rfl fun e _ => ?_
  have hk := contrEquiv1_symm_val dot_S96x16x64_S96x64x32_S96x16x32_2_1_1_2_0_0 64 rfl rfl e
  have el : dot_S96x16x64_S96x64x32_S96x16x32_2_1_1_2_0_0.lhsIdx (ix3 r m d)
      ((contrEquiv1 dot_S96x16x64_S96x64x32_S96x16x32_2_1_1_2_0_0 64 rfl rfl).symm e) = ix3 r m e := funext fun a => Fin.ext (by
    match a with
    | ⟨0, _⟩ => exact valueDot_lhs0 _ _
    | ⟨1, _⟩ => exact valueDot_lhs1 _ _
    | ⟨2, _⟩ => exact (valueDot_lhs2 _ _).trans hk)
  have er : dot_S96x16x64_S96x64x32_S96x16x32_2_1_1_2_0_0.rhsIdx (ix3 r m d)
      ((contrEquiv1 dot_S96x16x64_S96x64x32_S96x16x32_2_1_1_2_0_0 64 rfl rfl).symm e) = ix3 r e d := funext fun a => Fin.ext (by
    match a with
    | ⟨0, _⟩ => exact valueDot_rhs0 _ _
    | ⟨1, _⟩ => exact (valueDot_rhs1 _ _).trans hk
    | ⟨2, _⟩ => exact valueDot_rhs2 _ _)
  rw [el, er]

/-- The body's stage one is the second product of the softmax of the scores, listed as 96 rows, with the value rows. -/
theorem stage1_eq (v8 : FVec Ideal S96x64x32 .f32) (v11 : FVec Ideal S96x16x32 .f32) (v29 : FVec Ideal S96x64x32 .bf16)
    (v36 : FVec Ideal S96x16x32 .f32) (s1 : Vec Ideal S1x6 .f32) (b1 : Vec Ideal S6x16x64 .f32) (m1 : Vec Ideal S16x16x64 .f32) :
    k0_pay8 (F := Ideal) v8 v11 v29 v36 s1 b1 m1
      = truncf .bf16 (matmul dot_S96x16x64_S96x64x32_S96x16x32_2_1_1_2_0_0 none
          (truncf .bf16 (shapeCast S96x16x64 (softT (scoreT (k0_pay7 v11 v36) v29 s1 b1 m1)) shapeCasts_S16x6x16x64_S96x16x64) bitsLt_bf16_f32)
          (truncf .bf16 v8 bitsLt_bf16_f32) (constant S96x16x32 .f32 0x00000000#32)) bitsLt_bf16_f32 := rfl

end Stage1

/-- STAGE ONE of the body at one entry: for window `j` of the block and head `h`, anchor `mm`'s value at `d` is the
    specification's, of that window-head's key, value and anchor rows, the head's bias table and scale, and the window's
    mask table. -/
theorem stage1_apply (v : Vec Ideal S16x6x64x32 .f32) (a : Vec Ideal S16x6x16x32 .f32) (k : Vec Ideal S16x6x64x32 .f32)
    (s1 : Vec Ideal S1x6 .f32) (b1 : Vec Ideal S6x16x64 .f32) (m1 : Vec Ideal S16x16x64 .f32)
    (j : Fin 16) (h : Fin 6) (mm : Fin 16) (d : Fin 32) :
    k0_pay8 (F := Ideal) (k0_pay2 v) (k0_pay3 a) (k0_pay5 k) (k0_pay6 a) s1 b1 m1 (ix3 (wh j h) mm d)
      = AnchorStripe.anchorValue (fun n d => k (ix4 j h n d)) (fun n d => v (ix4 j h n d)) (fun m d => a (ix4 j h m d))
          (fun m n => b1 (ix3 h m n)) (fun m n => m1 (ix3 j m n)) (s1 (ix2 (0 : Fin 1) h)) mm d := by
  rw [Stage1.stage1_eq]
  refine (Stage1.valueDot_apply _ _ (wh j h) mm d).trans ?_
  unfold AnchorStripe.anchorValue
  refine Finset.sum_congr rfl fun n _ => ?_
  refine congr (congrArg _ ?_) ?_
  swap
  · show k0_pay2 (F := Ideal) v (ix3 (wh j h) n d) = v (ix4 j h n d)
    exact Stage1.values_apply v j h n d
  show shapeCast S96x16x64 (Stage1.softT (Stage1.scoreT (k0_pay7 (k0_pay3 a) (k0_pay6 a)) (k0_pay5 k) s1 b1 m1))
      shapeCasts_S16x6x16x64_S96x16x64 (ix3 (wh j h) mm n) = _
  refine (Stage1.cast_rows _ _ j h mm n).trans ?_
  refine (Stage1.softT_apply _ j h mm n).trans ?_
  refine congrArg (fun l => AnchorStripe.softRow l n) (funext fun n' => ?_)
  refine (Stage1.scoreT_apply _ _ s1 b1 m1 j h mm n').trans ?_
  unfold AnchorStripe.score
  refine congrArg (fun t => t * s1 (ix2 (0 : Fin 1) h) + b1 (ix3 h mm n') + m1 (ix3 j mm n')) ?_
  exact Finset.sum_congr rfl fun e _ => by rw [Stage1.anchorUnit_apply, Stage1.keyUnit_apply]

end Cert.KernelIdeal.Body
end
-- ==== Proof.BodyStage2.lean ====
/-
  Stage two of the attention body read at one entry. For window `j` and head `h` of a block (row `6 j + h` of the 96),
  token `n` and coordinate `d`: the token's query row and every anchor row are divided by their clamped lengths; the
  token's score against anchor `m` is the inner product of the two unit rows times the head's scale, plus the head's
  bias entry and the window's mask entry; the scores of the token are turned into weights by the softmax over the
  anchors; and the entry is the weighted sum of the anchors' values at `d`. Every step is a re-indexing: a view of the
  16 by 6 leading axes as 96 rows, a statistic kept as a column and spread back along its row, a sum over one axis
  read through its coordinate, and a sum started from zero.
-/
import proofs.«169394_j3865470566918_2_alg».proof.Proof.Gen.KernelIdeal.Skeleton
import proofs.«169394_j3865470566918_2_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Body.Stage2
open Cert.KernelIdeal Cert.KernelIdeal.Gen

open AnchorStripe (wh wm)

/-! ### Rows: the 16 windows by 6 heads viewed as 96 rows, window `j` and head `h` at row `6 j + h` -/

theorem rows64_apply (x : FVec Ideal S16x6x64x32 .f32) (j : Fin 16) (h : Fin 6) (n : Fin 64) (d : Fin 32) :
    shapeCast S96x64x32 x shapeCasts_S16x6x64x32_S96x64x32 (ix3 (wh j h) n d) = x (ix4 j h n d) := by
  refine shapeCast_apply x _ (ix3 (wh j h) n d) (ix4 j h n d) ?_
  rw [Shape.rowMajor_val_four, Shape.rowMajor_val_three]
  rfl

theorem rows16_apply (x : FVec Ideal S16x6x16x32 .f32) (j : Fin 16) (h : Fin 6) (m : Fin 16) (d : Fin 32) :
    shapeCast S96x16x32 x shapeCasts_S16x6x16x32_S96x16x32 (ix3 (wh j h) m d) = x (ix4 j h m d) := by
  refine shapeCast_apply x _ (ix3 (wh j h) m d) (ix4 j h m d) ?_
  rw [Shape.rowMajor_val_four, Shape.rowMajor_val_three]
  rfl

/-! ### A row divided by its clamped length -/

/-- The sum of squares of one token row. -/
theorem sumsq64_apply (x : FVec Ideal S96x64x32 .f32) (r : Fin 96) (n : Fin 64) :
    multiReduction .add [2] S96x64 (mulf x x) 0x00000000#32 reduces_S96x64x32_S96x64 (.inl rfl) rfl (ix2 r n)
      = ∑ e : Fin 32, x (ix3 r n e) * x (ix3 r n e) := by
  refine (Ideal.multiReduction_add_single (mulf x x) 0x00000000#32 reduces_S96x64x32_S96x64 (.inl rfl) rfl (ix2 r n)).trans ?_
  refine Finset.sum_congr rfl fun e _ => ?_
  have hi : reduces_S96x64x32_S96x64.lift (ix2 r n) e = ix3 r n e :=
    funext fun a => Fin.ext (by match a with | ⟨0, _⟩ => rfl | ⟨1, _⟩ => rfl | ⟨2, _⟩ => rfl)
  rw [hi]; rfl

/-- The sum of squares of one anchor row. -/
theorem sumsq16_apply (x : FVec Ideal S96x16x32 .f32) (r : Fin 96) (m : Fin 16) :
    multiReduction .add [2] S96x16 (mulf x x) 0x00000000#32 reduces_S96x16x32_S96x16 (.inl rfl) rfl (ix2 r m)
      = ∑ e : Fin 32, x (ix3 r m e) * x (ix3 r m e) := by
  refine (Ideal.multiReduction_add_single (mulf x x) 0x00000000#32 reduces_S96x16x32_S96x16 (.inl rfl) rfl (ix2 r m)).trans ?_
  refine Finset.sum_congr rfl fun e _ => ?_
  have hi : reduces_S96x16x32_S96x16.lift (ix2 r m) e = ix3 r m e :=
    funext fun a => Fin.ext (by match a with | ⟨0, _⟩ => rfl | ⟨1, _⟩ => rfl | ⟨2, _⟩ => rfl)
  rw [hi]; rfl

/-- A row statistic kept as a column of width one reads the statistic. -/
theorem keep64_apply (v : FVec Ideal S96x64 .f32) (r : Fin 96) (n : Fin 64) :
    shapeCast S96x64x1 v shapeCasts_S96x64_S96x64x1 (ix3 r n (0 : Fin 1)) = v (ix2 r n) := by
  refine shapeCast_apply v _ (ix3 r n (0 : Fin 1)) (ix2 r n) ?_
  rw [Shape.rowMajor_val_two, Shape.rowMajor_val_three]
  show r.val * 64 + n.val = (r.val * 64 + n.val) * 1 + 0
  omega

theorem keep16_apply (v : FVec Ideal S96x16 .f32) (r : Fin 96) (m : Fin 16) :
    shapeCast S96x16x1 v shapeCasts_S96x16_S96x16x1 (ix3 r m (0 : Fin 1)) = v (ix2 r m) := by
  refine shapeCast_apply v _ (ix3 r m (0 : Fin 1)) (ix2 r m) ?_
  rw [Shape.rowMajor_val_two, Shape.rowMajor_val_three]
  show r.val * 16 + m.val = (r.val * 16 + m.val) * 1 + 0
  omega

/-- A column of width one spread along the row reads the column's entry everywhere. -/
theorem spread64_apply (v : FVec Ideal S96x64x1 .f32) (r : Fin 96) (n : Fin 64) (d : Fin 32) :
    broadcastTo S96x64x32 v broadcasts_S96x64x1_S96x64x32 (ix3 r n d) = v (ix3 r n (0 : Fin 1)) :=
  broadcastTo_apply v _ (ix3 r n d) (ix3 r n (0 : Fin 1)) fun a => by
    match a with | ⟨0, _⟩ => rfl | ⟨1, _⟩ => rfl | ⟨2, _⟩ => rfl

theorem spread16_apply (v : FVec Ideal S96x16x1 .f32) (r : Fin 96) (m : Fin 16) (d : Fin 32) :
    broadcastTo S96x16x32 v broadcasts_S96x16x1_S96x16x32 (ix3 r m d) = v (ix3 r m (0 : Fin 1)) :=
  broadcastTo_apply v _ (ix3 r m d) (ix3 r m (0 : Fin 1)) fun a => by
    match a with | ⟨0, _⟩ => rfl | ⟨1, _⟩ => rfl | ⟨2, _⟩ => rfl

/-- A token row over its length: the square root of the sum of squares, clamped below, divides every entry. -/
theorem unit64_apply (x : FVec Ideal S96x64x32 .f32) (r : Fin 96) (n : Fin 64) (d : Fin 32) :
    (truncf .bf16 (divf x (broadcastTo S96x64x32 (maximumf (sqrt (shapeCast S96x64x1
        (multiReduction .add [2] S96x64 (mulf x x) 0x00000000#32 reduces_S96x64x32_S96x64 (.inl rfl) rfl) shapeCasts_S96x64_S96x64x1))
        (broadcast S96x64x1 (Scalar.ofBits .f32 0x2B8CBCCC#32))) broadcasts_S96x64x1_S96x64x32)) bitsLt_bf16_f32
        : FVec Ideal S96x64x32 .bf16) (ix3 r n d)
      = AnchorStripe.unitRow (fun e => x (ix3 r n e)) d := by
  refine (congrArg (Ideal.div (x (ix3 r n d))) (spread64_apply _ r n d)).trans ?_
  refine (congrArg (fun t => Ideal.div (x (ix3 r n d)) (max (Ideal.sqrt t) AnchorStripe.tiny))
    ((keep64_apply _ r n).trans (sumsq64_apply x r n))).trans ?_
  rfl

/-- An anchor row over its length. -/
theorem unit16_apply (x : FVec Ideal S96x16x32 .f32) (r : Fin 96) (m : Fin 16) (d : Fin 32) :
    (truncf .bf16 (divf x (broadcastTo S96x16x32 (maximumf (sqrt (shapeCast S96x16x1
        (multiReduction .add [2] S96x16 (mulf x x) 0x00000000#32 reduces_S96x16x32_S96x16 (.inl rfl) rfl) shapeCasts_S96x16_S96x16x1))
        (broadcast S96x16x1 (Scalar.ofBits .f32 0x2B8CBCCC#32))) broadcasts_S96x16x1_S96x16x32)) bitsLt_bf16_f32
        : FVec Ideal S96x16x32 .bf16) (ix3 r m d)
      = AnchorStripe.unitRow (fun e => x (ix3 r m e)) d := by
  refine (congrArg (Ideal.div (x (ix3 r m d))) (spread16_apply _ r m d)).trans ?_
  refine (congrArg (fun t => Ideal.div (x (ix3 r m d)) (max (Ideal.sqrt t) AnchorStripe.tiny))
    ((keep16_apply _ r m).trans (sumsq16_apply x r m))).trans ?_
  rfl

/-- The query rows as the body prepares them: each row of window `j`, head `h` over its length. -/
theorem query_apply (q : Vec Ideal S16x6x64x32 .f32) (j : Fin 16) (h : Fin 6) (n : Fin 64) (d : Fin 32) :
    k0_pay4 (F := Ideal) q (ix3 (wh j h) n d) = AnchorStripe.unitRow (fun e => q (ix4 j h n e)) d := by
  unfold k0_pay4
  rw [shapeCast_self]
  refine (unit64_apply _ (wh j h) n d).trans ?_
  exact congrArg (fun f => AnchorStripe.unitRow f d) (funext fun e => rows64_apply q j h n e)

/-- The anchor rows as the body prepares them. -/
theorem anchor_apply (a : Vec Ideal S16x6x16x32 .f32) (j : Fin 16) (h : Fin 6) (m : Fin 16) (d : Fin 32) :
    k0_pay7 (F := Ideal) (k0_pay3 a) (k0_pay6 a) (ix3 (wh j h) m d) = AnchorStripe.unitRow (fun e => a (ix4 j h m e)) d := by
  unfold k0_pay7 k0_pay6 k0_pay3
  dsimp only
  rw [shapeCast_self]
  refine (unit16_apply _ (wh j h) m d).trans ?_
  exact congrArg (fun f => AnchorStripe.unitRow f d) (funext fun e => rows16_apply a j h m e)

/-! ### The two products: one contracted axis, the 96 rows as the batch axis -/

theorem lhs1_0 (i : S96x64x16.Idx) (k : dot_S96x64x32_S96x16x32_S96x64x16_2_2_1_1_0_0.contr.Idx) : (dot_S96x64x32_S96x16x32_S96x64x16_2_2_1_1_0_0.lhsIdx i k 0).val = (i 0).val := by
  unfold DotDims.lhsIdx
  rw [dif_pos (show (0 : Fin S96x64x32.rank) ∈ dot_S96x64x32_S96x16x32_S96x64x16_2_2_1_1_0_0.lhsBatch by decide)]
  rfl
theorem lhs1_1 (i : S96x64x16.Idx) (k : dot_S96x64x32_S96x16x32_S96x64x16_2_2_1_1_0_0.contr.Idx) : (dot_S96x64x32_S96x16x32_S96x64x16_2_2_1_1_0_0.lhsIdx i k 1).val = (i 1).val := by
  unfold DotDims.lhsIdx
  rw [dif_neg (show ¬(1 : Fin S96x64x32.rank) ∈ dot_S96x64x32_S96x16x32_S96x64x16_2_2_1_1_0_0.lhsBatch by decide),
    dif_pos (show (1 : Fin S96x64x32.rank) ∈ dot_S96x64x32_S96x16x32_S96x64x16_2_2_1_1_0_0.lhsNonContracting by decide)]
  rfl
theorem lhs1_2 (i : S96x64x16.Idx) (k : dot_S96x64x32_S96x16x32_S96x64x16_2_2_1_1_0_0.contr.Idx) : (dot_S96x64x32_S96x16x32_S96x64x16_2_2_1_1_0_0.lhsIdx i k 2).val = (k ⟨0, by decide⟩).val :=
  dot_S96x64x32_S96x16x32_S96x64x16_2_2_1_1_0_0.lhsIdx_val_of_single rfl i k
theorem rhs1_0 (i : S96x64x16.Idx) (k : dot_S96x64x32_S96x16x32_S96x64x16_2_2_1_1_0_0.contr.Idx) : (dot_S96x64x32_S96x16x32_S96x64x16_2_2_1_1_0_0.rhsIdx i k 0).val = (i 0).val := by
  unfold DotDims.rhsIdx
  rw [dif_pos (show (0 : Fin S96x16x32.rank) ∈ dot_S96x64x32_S96x16x32_S96x64x16_2_2_1_1_0_0.rhsBatch by decide)]
  rfl
theorem rhs1_1 (i : S96x64x16.Idx) (k : dot_S96x64x32_S96x16x32_S96x64x16_2_2_1_1_0_0.contr.Idx) : (dot_S96x64x32_S96x16x32_S96x64x16_2_2_1_1_0_0.rhsIdx i k 1).val = (i 2).val := by
  unfold DotDims.rhsIdx
  rw [dif_neg (show ¬(1 : Fin S96x16x32.rank) ∈ dot_S96x64x32_S96x16x32_S96x64x16_2_2_1_1_0_0.rhsBatch by decide),
    dif_pos (show (1 : Fin S96x16x32.rank) ∈ dot_S96x64x32_S96x16x32_S96x64x16_2_2_1_1_0_0.rhsNonContracting by decide)]
  rfl
theorem rhs1_2 (i : S96x64x16.Idx) (k : dot_S96x64x32_S96x16x32_S96x64x16_2_2_1_1_0_0.contr.Idx) : (dot_S96x64x32_S96x16x32_S96x64x16_2_2_1_1_0_0.rhsIdx i k 2).val = (k ⟨0, by decide⟩).val :=
  dot_S96x64x32_S96x16x32_S96x64x16_2_2_1_1_0_0.rhsIdx_val_of_single rfl i k

/-- Token rows against anchor rows: entry `(r, n, m)` is the inner product of token row `n` and anchor row `m` of row `r`. -/
theorem dotTokenAnchor_apply (l : FVec Ideal S96x64x32 .bf16) (rr : FVec Ideal S96x16x32 .bf16) (r : Fin 96) (n : Fin 64) (m : Fin 16) :
    matmul dot_S96x64x32_S96x16x32_S96x64x16_2_2_1_1_0_0 none l rr (constant S96x64x16 .f32 0x00000000#32) (ix3 r n m)
      = ∑ e : Fin 32, l (ix3 r n e) * rr (ix3 r m e) := by
  refine (Ideal.matmul_constant_zero_apply dot_S96x64x32_S96x16x32_S96x64x16_2_2_1_1_0_0 none l rr (ix3 r n m)).trans ?_
  rw [← Equiv.sum_comp (contrEquiv1 dot_S96x64x32_S96x16x32_S96x64x16_2_2_1_1_0_0 32 rfl rfl).symm]
  refine Finset.sum_congr rfl fun e _ => ?_
  have hk := contrEquiv1_symm_val dot_S96x64x32_S96x16x32_S96x64x16_2_2_1_1_0_0 32 rfl rfl e
  have el : dot_S96x64x32_S96x16x32_S96x64x16_2_2_1_1_0_0.lhsIdx (ix3 r n m) ((contrEquiv1 dot_S96x64x32_S96x16x32_S96x64x16_2_2_1_1_0_0 32 rfl rfl).symm e) = ix3 r n e := funext fun a => Fin.ext (by
    match a with
    | ⟨0, _⟩ => exact lhs1_0 _ _
    | ⟨1, _⟩ => exact lhs1_1 _ _
    | ⟨2, _⟩ => exact (lhs1_2 _ _).trans hk)
  have er : dot_S96x64x32_S96x16x32_S96x64x16_2_2_1_1_0_0.rhsIdx (ix3 r n m) ((contrEquiv1 dot_S96x64x32_S96x16x32_S96x64x16_2_2_1_1_0_0 32 rfl rfl).symm e) = ix3 r m e := funext fun a => Fin.ext (by
    match a with
    | ⟨0, _⟩ => exact rhs1_0 _ _
    | ⟨1, _⟩ => exact rhs1_1 _ _
    | ⟨2, _⟩ => exact (rhs1_2 _ _).trans hk)
  rw [el, er]

theorem lhs2_0 (i : S96x64x32.Idx) (k : dot_S96x64x16_S96x16x32_S96x64x32_2_1_1_2_0_0.contr.Idx) : (dot_S96x64x16_S96x16x32_S96x64x32_2_1_1_2_0_0.lhsIdx i k 0).val = (i 0).val := by
  unfold DotDims.lhsIdx
  rw [dif_pos (show (0 : Fin S96x64x16.rank) ∈ dot_S96x64x16_S96x16x32_S96x64x32_2_1_1_2_0_0.lhsBatch by decide)]
  rfl
theorem lhs2_1 (i : S96x64x32.Idx) (k : dot_S96x64x16_S96x16x32_S96x64x32_2_1_1_2_0_0.contr.Idx) : (dot_S96x64x16_S96x16x32_S96x64x32_2_1_1_2_0_0.lhsIdx i k 1).val = (i 1).val := by
  unfold DotDims.lhsIdx
  rw [dif_neg (show ¬(1 : Fin S96x64x16.rank) ∈ dot_S96x64x16_S96x16x32_S96x64x32_2_1_1_2_0_0.lhsBatch by decide),
    dif_pos (show (1 : Fin S96x64x16.rank) ∈ dot_S96x64x16_S96x16x32_S96x64x32_2_1_1_2_0_0.lhsNonContracting by decide)]
  rfl
theorem lhs2_2 (i : S96x64x32.Idx) (k : dot_S96x64x16_S96x16x32_S96x64x32_2_1_1_2_0_0.contr.Idx) : (dot_S96x64x16_S96x16x32_S96x64x32_2_1_1_2_0_0.lhsIdx i k 2).val = (k ⟨0, by decide⟩).val :=
  dot_S96x64x16_S96x16x32_S96x64x32_2_1_1_2_0_0.lhsIdx_val_of_single rfl i k
theorem rhs2_0 (i : S96x64x32.Idx) (k : dot_S96x64x16_S96x16x32_S96x64x32_2_1_1_2_0_0.contr.Idx) : (dot_S96x64x16_S96x16x32_S96x64x32_2_1_1_2_0_0.rhsIdx i k 0).val = (i 0).val := by
  unfold DotDims.rhsIdx
  rw [dif_pos (show (0 : Fin S96x16x32.rank) ∈ dot_S96x64x16_S96x16x32_S96x64x32_2_1_1_2_0_0.rhsBatch by decide)]
  rfl
theorem rhs2_1 (i : S96x64x32.Idx) (k : dot_S96x64x16_S96x16x32_S96x64x32_2_1_1_2_0_0.contr.Idx) : (dot_S96x64x16_S96x16x32_S96x64x32_2_1_1_2_0_0.rhsIdx i k 1).val = (k ⟨0, by decide⟩).val :=
  dot_S96x64x16_S96x16x32_S96x64x32_2_1_1_2_0_0.rhsIdx_val_of_single rfl i k
theorem rhs2_2 (i : S96x64x32.Idx) (k : dot_S96x64x16_S96x16x32_S96x64x32_2_1_1_2_0_0.contr.Idx) : (dot_S96x64x16_S96x16x32_S96x64x32_2_1_1_2_0_0.rhsIdx i k 2).val = (i 2).val := by
  unfold DotDims.rhsIdx
  rw [dif_neg (show ¬(2 : Fin S96x16x32.rank) ∈ dot_S96x64x16_S96x16x32_S96x64x32_2_1_1_2_0_0.rhsBatch by decide),
    dif_pos (show (2 : Fin S96x16x32.rank) ∈ dot_S96x64x16_S96x16x32_S96x64x32_2_1_1_2_0_0.rhsNonContracting by decide)]
  rfl

/-- Weights against anchor values: entry `(r, n, d)` sums, over the anchors, token `n`'s weight on the anchor times the anchor's value at `d`. -/
theorem dotWeightValue_apply (p : FVec Ideal S96x64x16 .bf16) (x : FVec Ideal S96x16x32 .bf16) (r : Fin 96) (n : Fin 64) (d : Fin 32) :
    matmul dot_S96x64x16_S96x16x32_S96x64x32_2_1_1_2_0_0 none p x (constant S96x64x32 .f32 0x00000000#32) (ix3 r n d)
      = ∑ m : Fin 16, p (ix3 r n m) * x (ix3 r m d) := by
  refine (Ideal.matmul_constant_zero_apply dot_S96x64x16_S96x16x32_S96x64x32_2_1_1_2_0_0 none p x (ix3 r n d)).trans ?_
  rw [← Equiv.sum_comp (contrEquiv1 dot_S96x64x16_S96x16x32_S96x64x32_2_1_1_2_0_0 16 rfl rfl).symm]
  refine Finset.sum_congr rfl fun m _ => ?_
  have hk := contrEquiv1_symm_val dot_S96x64x16_S96x16x32_S96x64x32_2_1_1_2_0_0 16 rfl rfl m
  have el : dot_S96x64x16_S96x16x32_S96x64x32_2_1_1_2_0_0.lhsIdx (ix3 r n d) ((contrEquiv1 dot_S96x64x16_S96x16x32_S96x64x32_2_1_1_2_0_0 16 rfl rfl).symm m) = ix3 r n m := funext fun a => Fin.ext (by
    match a with
    | ⟨0, _⟩ => exact lhs2_0 _ _
    | ⟨1, _⟩ => exact lhs2_1 _ _
    | ⟨2, _⟩ => exact (lhs2_2 _ _).trans hk)
  have er : dot_S96x64x16_S96x16x32_S96x64x32_2_1_1_2_0_0.rhsIdx (ix3 r n d) ((contrEquiv1 dot_S96x64x16_S96x16x32_S96x64x32_2_1_1_2_0_0 16 rfl rfl).symm m) = ix3 r m d := funext fun a => Fin.ext (by
    match a with
    | ⟨0, _⟩ => exact rhs2_0 _ _
    | ⟨1, _⟩ => exact (rhs2_1 _ _).trans hk
    | ⟨2, _⟩ => exact rhs2_2 _ _)
  rw [el, er]

/-! ### The scores: the products scaled per head, plus the bias of the head and the mask of the window -/

theorem rowsBack16_apply (v : FVec Ideal S96x64x16 .f32) (j : Fin 16) (h : Fin 6) (n : Fin 64) (m : Fin 16) :
    shapeCast S16x6x64x16 v shapeCasts_S96x64x16_S16x6x64x16 (ix4 j h n m) = v (ix3 (wh j h) n m) := by
  refine shapeCast_apply v _ (ix4 j h n m) (ix3 (wh j h) n m) ?_
  rw [Shape.rowMajor_val_four, Shape.rowMajor_val_three]
  rfl

/-- The raw scores: token row `n` against anchor row `m`, both over their lengths. -/
theorem raw_apply (a : Vec Ideal S16x6x16x32 .f32) (q : Vec Ideal S16x6x64x32 .f32) (j : Fin 16) (h : Fin 6) (n : Fin 64) (m : Fin 16) :
    k0_pay9 (F := Ideal) (k0_pay3 a) (k0_pay4 q) (k0_pay6 a) (ix4 j h n m)
      = ∑ e : Fin 32, AnchorStripe.unitRow (fun e => q (ix4 j h n e)) e * AnchorStripe.unitRow (fun e => a (ix4 j h m e)) e := by
  unfold k0_pay9
  refine (rowsBack16_apply _ j h n m).trans ?_
  refine (dotTokenAnchor_apply _ _ (wh j h) n m).trans ?_
  exact Finset.sum_congr rfl fun e _ => congrArg₂ (· * ·) (query_apply q j h n e) (anchor_apply a j h m e)

/-- The scale row laid out for the score tensor reads the head's scale. -/
theorem scale_apply (s2 : Vec Ideal S1x6 .f32) (j : Fin 16) (h : Fin 6) (n : Fin 64) (m : Fin 16) :
    broadcastTo S16x6x64x16 (k0_pay10 (F := Ideal) s2) broadcasts_S1x6x1x1_S16x6x64x16 (ix4 j h n m) = s2 (ix2 (0 : Fin 1) h) := by
  refine (broadcastTo_apply _ _ (ix4 j h n m) (ix4 (0 : Fin 1) h (0 : Fin 1) (0 : Fin 1)) fun a => by
    match a with | ⟨0, _⟩ => rfl | ⟨1, _⟩ => rfl | ⟨2, _⟩ => rfl | ⟨3, _⟩ => rfl).trans ?_
  unfold k0_pay10
  rw [shapeCast_self]
  refine shapeCast_apply s2 _ (ix4 (0 : Fin 1) h (0 : Fin 1) (0 : Fin 1)) (ix2 (0 : Fin 1) h) ?_
  rw [Shape.rowMajor_val_two, Shape.rowMajor_val_four]
  show 0 * 6 + h.val = ((0 * 6 + h.val) * 1 + 0) * 1 + 0
  omega

/-- The bias laid out for the score tensor reads the head's bias entry. -/
theorem bias_apply (b2 : Vec Ideal S6x64x16 .f32) (j : Fin 16) (h : Fin 6) (n : Fin 64) (m : Fin 16) :
    broadcastTo S16x6x64x16 (shapeCast S1x6x64x16 (k0_pay11 (F := Ideal) b2) shapeCasts_S6x64x16_S1x6x64x16)
        broadcasts_S1x6x64x16_S16x6x64x16 (ix4 j h n m) = b2 (ix3 h n m) := by
  refine (broadcastTo_apply _ _ (ix4 j h n m) (ix4 (0 : Fin 1) h n m) fun a => by
    match a with | ⟨0, _⟩ => rfl | ⟨1, _⟩ => rfl | ⟨2, _⟩ => rfl | ⟨3, _⟩ => rfl).trans ?_
  unfold k0_pay11
  rw [shapeCast_self]
  refine shapeCast_apply b2 _ (ix4 (0 : Fin 1) h n m) (ix3 h n m) ?_
  rw [Shape.rowMajor_val_three, Shape.rowMajor_val_four]
  show (h.val * 64 + n.val) * 16 + m.val = ((0 * 6 + h.val) * 64 + n.val) * 16 + m.val
  omega

/-- The mask laid out for the score tensor reads the window's mask entry. -/
theorem mask_apply (m2 : Vec Ideal S16x64x16 .f32) (j : Fin 16) (h : Fin 6) (n : Fin 64) (m : Fin 16) :
    broadcastTo S16x6x64x16 (shapeCast S16x1x64x16 m2 shapeCasts_S16x64x16_S16x1x64x16)
        broadcasts_S16x1x64x16_S16x6x64x16 (ix4 j h n m) = m2 (ix3 j n m) := by
  refine (broadcastTo_apply _ _ (ix4 j h n m) (ix4 j (0 : Fin 1) n m) fun a => by
    match a with | ⟨0, _⟩ => rfl | ⟨1, _⟩ => rfl | ⟨2, _⟩ => rfl | ⟨3, _⟩ => rfl).trans ?_
  refine shapeCast_apply m2 _ (ix4 j (0 : Fin 1) n m) (ix3 j n m) ?_
  rw [Shape.rowMajor_val_three, Shape.rowMajor_val_four]
  show (j.val * 64 + n.val) * 16 + m.val = ((j.val * 1 + 0) * 64 + n.val) * 16 + m.val
  omega

/-- The score tensor of the body, as a term over its operands. -/
def scores (A : FVec Ideal S16x6x64x16 .f32) (sc : FVec Ideal S1x6x1x1 .f32) (bi : FVec Ideal S6x64x16 .f32)
    (mk : Vec Ideal S16x64x16 .f32) : FVec Ideal S16x6x64x16 .f32 :=
  addf (addf (mulf A (broadcastTo S16x6x64x16 sc broadcasts_S1x6x1x1_S16x6x64x16))
      (broadcastTo S16x6x64x16 (shapeCast S1x6x64x16 bi shapeCasts_S6x64x16_S1x6x64x16) broadcasts_S1x6x64x16_S16x6x64x16))
    (broadcastTo S16x6x64x16 (shapeCast S16x1x64x16 mk shapeCasts_S16x64x16_S16x1x64x16) broadcasts_S16x1x64x16_S16x6x64x16)

/-- The scores of token `n` of window `j`, head `h`, against the anchors are the specification's. -/
theorem scores_apply (a : Vec Ideal S16x6x16x32 .f32) (q : Vec Ideal S16x6x64x32 .f32) (s2 : Vec Ideal S1x6 .f32)
    (b2 : Vec Ideal S6x64x16 .f32) (m2 : Vec Ideal S16x64x16 .f32) (j : Fin 16) (h : Fin 6) (n : Fin 64) (m : Fin 16) :
    scores (k0_pay9 (F := Ideal) (k0_pay3 a) (k0_pay4 q) (k0_pay6 a)) (k0_pay10 s2) (k0_pay11 b2) m2 (ix4 j h n m)
      = AnchorStripe.score (fun n d => q (ix4 j h n d)) (fun m d => a (ix4 j h m d)) (s2 (ix2 (0 : Fin 1) h))
          (fun n m => b2 (ix3 h n m)) (fun n m => m2 (ix3 j n m)) n m := by
  unfold scores AnchorStripe.score
  exact congrArg₂ (· + ·) (congrArg₂ (· + ·) (congrArg₂ (· * ·) (raw_apply a q j h n m) (scale_apply s2 j h n m))
    (bias_apply b2 j h n m)) (mask_apply m2 j h n m)

/-! ### The softmax over the anchors -/

/-- A row statistic of the score tensor, kept as a column and spread along the anchors, reads the statistic. -/
theorem along_apply (v : FVec Ideal S16x6x64 .f32) (j : Fin 16) (h : Fin 6) (n : Fin 64) (m : Fin 16) :
    broadcastTo S16x6x64x16 (shapeCast S16x6x64x1 v shapeCasts_S16x6x64_S16x6x64x1) broadcasts_S16x6x64x1_S16x6x64x16 (ix4 j h n m)
      = v (ix3 j h n) := by
  refine (broadcastTo_apply _ _ (ix4 j h n m) (ix4 j h n (0 : Fin 1)) fun a => by
    match a with | ⟨0, _⟩ => rfl | ⟨1, _⟩ => rfl | ⟨2, _⟩ => rfl | ⟨3, _⟩ => rfl).trans ?_
  refine shapeCast_apply v _ (ix4 j h n (0 : Fin 1)) (ix3 j h n) ?_
  rw [Shape.rowMajor_val_three, Shape.rowMajor_val_four]
  show (j.val * 6 + h.val) * 64 + n.val = ((j.val * 6 + h.val) * 64 + n.val) * 1 + 0
  omega

/-- The anchors' coordinate put back into a row's index. -/
theorem lift_anchor (j : Fin 16) (h : Fin 6) (n : Fin 64) (m : Fin 16) :
    reduces_S16x6x64x16_S16x6x64.lift (ix3 j h n) m = ix4 j h n m :=
  funext fun a => Fin.ext (by match a with | ⟨0, _⟩ => rfl | ⟨1, _⟩ => rfl | ⟨2, _⟩ => rfl | ⟨3, _⟩ => rfl)

/-- The row maximum of the body: the largest score of the row, folded from minus infinity, taken once more against it. -/
def top (S : FVec Ideal S16x6x64x16 .f32) : FVec Ideal S16x6x64 .f32 :=
  maximumf (broadcast S16x6x64 (Scalar.ofBits .f32 0xFF800000#32))
    (multiReduction .maximumf [3] S16x6x64 S 0xFF800000#32 reduces_S16x6x64x16_S16x6x64 (.inl rfl) rfl)

theorem top_apply (S : FVec Ideal S16x6x64x16 .f32) (j : Fin 16) (h : Fin 6) (n : Fin 64) :
    top S (ix3 j h n) = max AnchorStripe.bottom (AnchorStripe.rowMax fun m => S (ix4 j h n m)) := by
  unfold top
  refine congrArg (max AnchorStripe.bottom) ?_
  refine (Ideal.multiReduction_maximumf_single S 0xFF800000#32 reduces_S16x6x64x16_S16x6x64 (.inl rfl) rfl (ix3 j h n)).trans ?_
  have hi : (S ∘ reduces_S16x6x64x16_S16x6x64.lift (ix3 j h n)) = fun m : Fin 16 => S (ix4 j h n m) :=
    funext fun m => congrArg S (lift_anchor j h n m)
  exact congrArg (fun l : Fin 16 → EReal => (Finset.univ : Finset (Fin 16)).fold max AnchorStripe.bottom l) hi

/-- The exponentials of the body: each score less its row's maximum. -/
def expo (S : FVec Ideal S16x6x64x16 .f32) : FVec Ideal S16x6x64x16 .f32 :=
  exp (subf S (broadcastTo S16x6x64x16 (shapeCast S16x6x64x1 (top S) shapeCasts_S16x6x64_S16x6x64x1) broadcasts_S16x6x64x1_S16x6x64x16))

theorem expo_apply (S : FVec Ideal S16x6x64x16 .f32) (j : Fin 16) (h : Fin 6) (n : Fin 64) (m : Fin 16) :
    expo S (ix4 j h n m)
      = Ideal.exp (S (ix4 j h n m) - max AnchorStripe.bottom (AnchorStripe.rowMax fun m => S (ix4 j h n m))) := by
  unfold expo
  exact congrArg (fun t => Ideal.exp (S (ix4 j h n m) - t)) ((along_apply _ j h n m).trans (top_apply S j h n))

/-- The weights of the body: the exponentials over their row sum. -/
def soft (S : FVec Ideal S16x6x64x16 .f32) : FVec Ideal S16x6x64x16 .f32 :=
  divf (expo S) (broadcastTo S16x6x64x16 (shapeCast S16x6x64x1
    (multiReduction .add [3] S16x6x64 (expo S) 0x00000000#32 reduces_S16x6x64x16_S16x6x64 (.inl rfl) rfl)
    shapeCasts_S16x6x64_S16x6x64x1) broadcasts_S16x6x64x1_S16x6x64x16)

theorem soft_apply (S : FVec Ideal S16x6x64x16 .f32) (j : Fin 16) (h : Fin 6) (n : Fin 64) (m : Fin 16) :
    soft S (ix4 j h n m) = AnchorStripe.softRow (fun m => S (ix4 j h n m)) m := by
  unfold soft AnchorStripe.softRow
  refine congrArg₂ Ideal.div (expo_apply S j h n m) ?_
  refine (along_apply _ j h n m).trans ?_
  refine (Ideal.multiReduction_add_single (expo S) 0x00000000#32 reduces_S16x6x64x16_S16x6x64 (.inl rfl) rfl (ix3 j h n)).trans ?_
  refine Finset.sum_congr rfl fun m' _ => ?_
  exact (congrArg (expo S) (lift_anchor j h n m')).trans (expo_apply S j h n m')

/-! ### The weighted sum of the anchor values -/

theorem rows64x16_apply (v : FVec Ideal S16x6x64x16 .f32) (j : Fin 16) (h : Fin 6) (n : Fin 64) (m : Fin 16) :
    shapeCast S96x64x16 v shapeCasts_S16x6x64x16_S96x64x16 (ix3 (wh j h) n m) = v (ix4 j h n m) := by
  refine shapeCast_apply v _ (ix3 (wh j h) n m) (ix4 j h n m) ?_
  rw [Shape.rowMajor_val_four, Shape.rowMajor_val_three]
  rfl

/-- The weights handed to the product: rounding to the narrower format changes nothing here. -/
theorem weightRows_apply (v : FVec Ideal S16x6x64x16 .f32) (j : Fin 16) (h : Fin 6) (n : Fin 64) (m : Fin 16) :
    (truncf .bf16 (shapeCast S96x64x16 v shapeCasts_S16x6x64x16_S96x64x16) bitsLt_bf16_f32 : FVec Ideal S96x64x16 .bf16)
        (ix3 (wh j h) n m) = v (ix4 j h n m) :=
  rows64x16_apply v j h n m

theorem rowsBack32_apply (v : FVec Ideal S96x64x32 .f32) (j : Fin 16) (h : Fin 6) (n : Fin 64) (d : Fin 32) :
    shapeCast S16x6x64x32 v shapeCasts_S96x64x32_S16x6x64x32 (ix4 j h n d) = v (ix3 (wh j h) n d) := by
  refine shapeCast_apply v _ (ix4 j h n d) (ix3 (wh j h) n d) ?_
  rw [Shape.rowMajor_val_four, Shape.rowMajor_val_three]
  rfl

/-- The body's last value is the weights, viewed by rows, against the anchor values, viewed back by window and head. -/
theorem out_eq (x1 : FVec Ideal S96x16x32 .bf16) (A : FVec Ideal S16x6x64x16 .f32) (sc : FVec Ideal S1x6x1x1 .f32)
    (bi : FVec Ideal S6x64x16 .f32) (mk : Vec Ideal S16x64x16 .f32) :
    k0_pay1 (F := Ideal) x1 A sc bi mk
      = shapeCast S16x6x64x32 (matmul dot_S96x64x16_S96x16x32_S96x64x32_2_1_1_2_0_0 none
          (truncf .bf16 (shapeCast S96x64x16 (soft (scores A sc bi mk)) shapeCasts_S16x6x64x16_S96x64x16) bitsLt_bf16_f32)
          x1 (constant S96x64x32 .f32 0x00000000#32)) shapeCasts_S96x64x32_S16x6x64x32 := by
  unfold k0_pay1 soft expo top scores
  rfl

end Cert.KernelIdeal.Body.Stage2

namespace Cert.KernelIdeal.Body
open Cert.KernelIdeal Cert.KernelIdeal.Gen

open AnchorStripe (wh wm)

theorem stage2_apply (x1 : FVec Ideal S96x16x32 .bf16) (a : Vec Ideal S16x6x16x32 .f32) (q : Vec Ideal S16x6x64x32 .f32)
    (s2 : Vec Ideal S1x6 .f32) (b2 : Vec Ideal S6x64x16 .f32) (m2 : Vec Ideal S16x64x16 .f32)
    (j : Fin 16) (h : Fin 6) (n : Fin 64) (d : Fin 32) :
    k0_pay1 (F := Ideal) x1 (k0_pay9 (k0_pay3 a) (k0_pay4 q) (k0_pay6 a)) (k0_pay10 s2) (k0_pay11 b2) m2 (ix4 j h n d)
      = AnchorStripe.tokenOut (fun n d => q (ix4 j h n d)) (fun m d => a (ix4 j h m d)) (fun m d => x1 (ix3 (wh j h) m d))
          (fun n m => b2 (ix3 h n m)) (fun n m => m2 (ix3 j n m)) (s2 (ix2 (0 : Fin 1) h)) n d := by
  rw [Stage2.out_eq]
  refine (Stage2.rowsBack32_apply _ j h n d).trans ?_
  refine (Stage2.dotWeightValue_apply _ x1 (wh j h) n d).trans ?_
  unfold AnchorStripe.tokenOut
  refine Finset.sum_congr rfl fun m _ => ?_
  refine congrArg (· * x1 (ix3 (wh j h) m d)) ?_
  refine (Stage2.weightRows_apply _ j h n m).trans ?_
  refine (Stage2.soft_apply _ j h n m).trans ?_
  exact congrArg (fun l => AnchorStripe.softRow l m) (funext fun m' => Stage2.scores_apply a q s2 b2 m2 j h n m')

end Cert.KernelIdeal.Body
end
-- ==== Proof.LibRowMax.lean ====
/-
  The largest entry of a row, as a host program takes it.

  A reduction with a maximum body along the last axis of a rank-4 array, started from minus infinity, is a fold of `max`
  over all entries that share the first three coordinates. Since `max` is commutative and associative the fold may be
  taken over the last coordinate alone, in any order, and that is the row maximum of the specification: the fold of `max`
  from minus infinity over the row. The statement is for every rank-4 shape, so it serves any array reduced this way.
-/
import proofs.«169394_j3865470566918_2_alg».proof.Proof.Spec
import Idealize.ShloMosaic.Lib.ValueIdx
import Idealize.ShloMosaic.PureOps.Ideal.Laws

noncomputable section

open Idealize.ShloMosaic Idealize.ShloMosaic.ValueIdx

namespace AnchorStripe

/-- Dropping the last of four axes leaves three, so the shape fact a host reduction carries is also the one that names
    the index with a coordinate put back on the dropped axis. -/
theorem reduces_of_reducesTo_last {n0 n1 n2 n3 : Nat}
    (h' : (⟨4, ![n0, n1, n2, n3]⟩ : Shape).ReducesTo [3] ⟨3, ![n0, n1, n2]⟩) :
    (⟨4, ![n0, n1, n2, n3]⟩ : Shape).Reduces [3] ⟨3, ![n0, n1, n2]⟩ :=
  ⟨h'.1, Nat.succ_pos 2, h'.2⟩

/-- The index `(a, b, c)` with coordinate `k` put back on the last axis is `(a, b, c, k)`. -/
theorem lift_last {n0 n1 n2 n3 : Nat} (h : (⟨4, ![n0, n1, n2, n3]⟩ : Shape).Reduces [3] ⟨3, ![n0, n1, n2]⟩)
    (a : Fin n0) (b : Fin n1) (c : Fin n2) (k : Fin n3) :
    h.lift (ix3 a b c) k = ix4 a b c k := funext fun e => Fin.ext (by
  match e with
  | ⟨0, _⟩ => rfl
  | ⟨1, _⟩ => rfl
  | ⟨2, _⟩ => rfl
  | ⟨3, _⟩ => rfl)

/-- The host's reduction with a maximum body along the last axis of a rank-4 array, from the minus-infinity constant,
    read at `(a, b, c)`: the row maximum of the row `k ↦ x (a, b, c, k)`. -/
theorem hostRowMax_apply {n0 n1 n2 n3 : Nat} (x : FVec Ideal ⟨4, ![n0, n1, n2, n3]⟩ .f32)
    (h' : (⟨4, ![n0, n1, n2, n3]⟩ : Shape).ReducesTo [3] ⟨3, ![n0, n1, n2]⟩) (hu : 0 < (⟨0, ![]⟩ : Shape).numel)
    (a : Fin n0) (b : Fin n1) (c : Fin n2) :
    Host.reduce FloatOps.maximumf x (constant ⟨0, ![]⟩ .f32 0xFF800000#32) h' hu (ix3 a b c)
      = AnchorStripe.rowMax (fun k : Fin n3 => x (ix4 a b c k)) := by
  have h := reduces_of_reducesTo_last h'
  refine (Host.reduce_eq_fold_single FloatOps.maximumf x _ h' h hu (ix3 a b c)).trans ?_
  have hf : (x ∘ h.lift (ix3 a b c)) = fun k : Fin n3 => x (ix4 a b c k) :=
    funext fun k => congrArg x (lift_last h a b c k)
  exact congrArg (fun f => Finset.fold max bottom f (Finset.univ : Finset (Fin n3))) hf

end AnchorStripe

end
-- ==== Proof.RefStage1.lean ====
import proofs.«169394_j3865470566918_2_alg».proof.Proof.Gen.ReferenceIdeal.Read
import proofs.«169394_j3865470566918_2_alg».proof.Proof.Spec
import proofs.«169394_j3865470566918_2_alg».proof.Proof.LibRowMax
import Idealize.ShloMosaic.Lib.ValueIdx

noncomputable section

open Idealize.ShloMosaic Idealize.ShloMosaic.TcCoe Idealize.ShloMosaic.ValueIdx

namespace Cert.ReferenceIdeal.RefValue
open Cert.ReferenceIdeal Cert.ReferenceIdeal.Read

open AnchorStripe (wh wm)

namespace Stage1

/-! ### Unit rows: an anchor row and a key row, each divided by its clamped Euclidean length -/

theorem idx20 (w : Fin 2048) (h : Fin 6) (mm : Fin 16) (d : Fin 32) :
    idx_main_v20 (ix4 w h mm d) = ix4 w h mm (0 : Fin 1) :=
  funext fun a => Fin.ext (by match a with | ⟨0, _⟩ => rfl | ⟨1, _⟩ => rfl | ⟨2, _⟩ => rfl | ⟨3, _⟩ => rfl)

theorem idxc0v2 (w : Fin 2048) (h : Fin 6) (mm : Fin 16) (z : Fin 1) :
    idx_main_call0_v2 (ix4 w h mm z) = ix3 w h mm :=
  funext fun a => Fin.ext (by match a with | ⟨0, _⟩ => rfl | ⟨1, _⟩ => rfl | ⟨2, _⟩ => rfl)

theorem idxc0v1 (w : Fin 2048) (h : Fin 6) (mm : Fin 16) (k : Fin 32) :
    idx_main_call0_v1 (ix3 w h mm) k = ix4 w h mm k :=
  funext fun a => Fin.ext (by match a with | ⟨0, _⟩ => rfl | ⟨1, _⟩ => rfl | ⟨2, _⟩ => rfl | ⟨3, _⟩ => rfl)

/-- Anchor row (w, h, m) of the normalised anchors is the unit row of the anchors' row. -/
theorem unitA (x1 : (⟨S2x128x128x192, .f32⟩ : BufTy).Contents (Elt Ideal)) (w : Fin 2048) (h : Fin 6) (mm : Fin 16) (d : Fin 32) :
    val_main_v21 (F := Ideal) x1 (ix4 w h mm d)
      = AnchorStripe.unitRow (fun e : Fin 32 => val_main_v16 (F := Ideal) x1 (ix4 w h mm e)) d := by
  rw [val_main_v21_apply, val_main_v20_apply, val_main_v19_apply, val_main_v17_apply, val_main_call0_v2_apply,
    val_main_call0_v1_apply, val_main_v18_apply, val_main_cst_apply, val_main_call0_cst_apply]
  simp only [val_main_call0_v0_apply, idx20, idxc0v2, idxc0v1]
  generalize val_main_v16 (F := Ideal) x1 = y
  simp only [Ideal.hostDivf_def, Ideal.maximumf_def, Ideal.hostUnary_sqrt_def, Ideal.mulf_def, Ideal.ofBits_def,
    Ideal.ofBits_zero_f32, zero_add]
  rfl

theorem idx25 (w : Fin 2048) (h : Fin 6) (n : Fin 64) (d : Fin 32) :
    idx_main_v25 (ix4 w h n d) = ix4 w h n (0 : Fin 1) :=
  funext fun a => Fin.ext (by match a with | ⟨0, _⟩ => rfl | ⟨1, _⟩ => rfl | ⟨2, _⟩ => rfl | ⟨3, _⟩ => rfl)

theorem idxc1v2 (w : Fin 2048) (h : Fin 6) (n : Fin 64) (z : Fin 1) :
    idx_main_call1_v2 (ix4 w h n z) = ix3 w h n :=
  funext fun a => Fin.ext (by match a with | ⟨0, _⟩ => rfl | ⟨1, _⟩ => rfl | ⟨2, _⟩ => rfl)

theorem idxc1v1 (w : Fin 2048) (h : Fin 6) (n : Fin 64) (k : Fin 32) :
    idx_main_call1_v1 (ix3 w h n) k = ix4 w h n k :=
  funext fun a => Fin.ext (by match a with | ⟨0, _⟩ => rfl | ⟨1, _⟩ => rfl | ⟨2, _⟩ => rfl | ⟨3, _⟩ => rfl)

/-- Key row (w, h, n) of the normalised keys is the unit row of the keys' row. -/
theorem unitK (x0 : (⟨S2x65536x576, .f32⟩ : BufTy).Contents (Elt Ideal)) (w : Fin 2048) (h : Fin 6) (n : Fin 64) (d : Fin 32) :
    val_main_v26 (F := Ideal) x0 (ix4 w h n d)
      = AnchorStripe.unitRow (fun e : Fin 32 => val_main_v12 (F := Ideal) x0 (ix4 w h n e)) d := by
  rw [val_main_v26_apply, val_main_v25_apply, val_main_v24_apply, val_main_v22_apply, val_main_call1_v2_apply,
    val_main_call1_v1_apply, val_main_v23_apply, val_main_cst_0_apply, val_main_call1_cst_apply]
  simp only [val_main_call1_v0_apply, idx25, idxc1v2, idxc1v1]
  generalize val_main_v12 (F := Ideal) x0 = y
  simp only [Ideal.hostDivf_def, Ideal.maximumf_def, Ideal.hostUnary_sqrt_def, Ideal.mulf_def, Ideal.ofBits_def,
    Ideal.ofBits_zero_f32, zero_add]
  rfl

/-! ### The score of anchor m against token n -/

theorem lidx27 (w : Fin 2048) (h : Fin 6) (mm : Fin 16) (n : Fin 64) (k : Fin 32) :
    lidx_main_v27 (ix4 w h mm n) k = ix4 w h mm k :=
  funext fun a => Fin.ext (by match a with | ⟨0, _⟩ => rfl | ⟨1, _⟩ => rfl | ⟨2, _⟩ => rfl | ⟨3, _⟩ => rfl)

theorem ridx27 (w : Fin 2048) (h : Fin 6) (mm : Fin 16) (n : Fin 64) (k : Fin 32) :
    ridx_main_v27 (ix4 w h mm n) k = ix4 w h n k :=
  funext fun a => Fin.ext (by match a with | ⟨0, _⟩ => rfl | ⟨1, _⟩ => rfl | ⟨2, _⟩ => rfl | ⟨3, _⟩ => rfl)

/-- The inner product of the unit anchor row m and the unit key row n. -/
theorem dotAK (x0 : (⟨S2x65536x576, .f32⟩ : BufTy).Contents (Elt Ideal)) (x1 : (⟨S2x128x128x192, .f32⟩ : BufTy).Contents (Elt Ideal))
    (w : Fin 2048) (h : Fin 6) (mm : Fin 16) (n : Fin 64) :
    val_main_v27 (F := Ideal) x0 x1 (ix4 w h mm n)
      = ∑ d : Fin 32, AnchorStripe.unitRow (fun e : Fin 32 => val_main_v16 (F := Ideal) x1 (ix4 w h mm e)) d
          * AnchorStripe.unitRow (fun e : Fin 32 => val_main_v12 (F := Ideal) x0 (ix4 w h n e)) d := by
  rw [val_main_v27_apply]
  simp only [lidx27, ridx27, unitA, unitK]

/-- The window index splits as image × window-in-image; the image number of window w. -/
abbrev wq (w : Fin 2048) : Fin 2 := ⟨w.val / 1024, by have := w.isLt; omega⟩

theorem idx66 (w : Fin 2048) (h : Fin 6) (mm : Fin 16) (n : Fin 64) :
    idx_main_v66 (ix4 w h mm n) = ix5 (wq w) (wm w) h mm n :=
  funext fun a => Fin.ext (by
    have hw := w.isLt; have hh := h.isLt; have hm := mm.isLt; have hn := n.isLt
    match a with
    | ⟨0, _⟩ => show (((w.val * 6 + h.val) * 16 + mm.val) * 64 + n.val) / 6291456 = w.val / 1024; omega
    | ⟨1, _⟩ => show (((w.val * 6 + h.val) * 16 + mm.val) * 64 + n.val) / 6144 % 1024 = w.val % 1024; omega
    | ⟨2, _⟩ => show (((w.val * 6 + h.val) * 16 + mm.val) * 64 + n.val) / 1024 % 6 = h.val; omega
    | ⟨3, _⟩ => show (((w.val * 6 + h.val) * 16 + mm.val) * 64 + n.val) / 64 % 16 = mm.val; omega
    | ⟨4, _⟩ => show (((w.val * 6 + h.val) * 16 + mm.val) * 64 + n.val) % 64 = n.val; omega)

theorem idx62 (w : Fin 2048) (h : Fin 6) (mm : Fin 16) (n : Fin 64) :
    idx_main_v62 (ix5 (wq w) (wm w) h mm n) = ix4 w h mm n :=
  funext fun a => Fin.ext (by
    have hw := w.isLt; have hh := h.isLt; have hm := mm.isLt; have hn := n.isLt
    match a with
    | ⟨0, _⟩ => show (((((w.val / 1024) * 1024 + w.val % 1024) * 6 + h.val) * 16 + mm.val) * 64 + n.val) / 6144 = w.val; omega
    | ⟨1, _⟩ => show (((((w.val / 1024) * 1024 + w.val % 1024) * 6 + h.val) * 16 + mm.val) * 64 + n.val) / 1024 % 6 = h.val; omega
    | ⟨2, _⟩ => show (((((w.val / 1024) * 1024 + w.val % 1024) * 6 + h.val) * 16 + mm.val) * 64 + n.val) / 64 % 16 = mm.val; omega
    | ⟨3, _⟩ => show (((((w.val / 1024) * 1024 + w.val % 1024) * 6 + h.val) * 16 + mm.val) * 64 + n.val) % 64 = n.val; omega)

theorem idx64 (q : Fin 2) (b : Fin 1024) (h : Fin 6) (mm : Fin 16) (n : Fin 64) :
    idx_main_v64 (ix5 q b h mm n) = ix5 (0 : Fin 1) b (0 : Fin 1) mm n :=
  funext fun a => Fin.ext (by match a with | ⟨0, _⟩ => rfl | ⟨1, _⟩ => rfl | ⟨2, _⟩ => rfl | ⟨3, _⟩ => rfl | ⟨4, _⟩ => rfl)

theorem idx63 (z z' : Fin 1) (b : Fin 1024) (mm : Fin 16) (n : Fin 64) :
    idx_main_v63 (ix5 z b z' mm n) = ix3 b mm n :=
  funext fun a => Fin.ext (by match a with | ⟨0, _⟩ => rfl | ⟨1, _⟩ => rfl | ⟨2, _⟩ => rfl)

theorem idx60 (w : Fin 2048) (h : Fin 6) (mm : Fin 16) (n : Fin 64) :
    idx_main_v60 (ix4 w h mm n) = ix4 (0 : Fin 1) h mm n :=
  funext fun a => Fin.ext (by match a with | ⟨0, _⟩ => rfl | ⟨1, _⟩ => rfl | ⟨2, _⟩ => rfl | ⟨3, _⟩ => rfl)

theorem idx59 (z : Fin 1) (h : Fin 6) (mm : Fin 16) (n : Fin 64) :
    idx_main_v59 (ix4 z h mm n) = ix3 h mm n :=
  funext fun a => Fin.ext (by match a with | ⟨0, _⟩ => rfl | ⟨1, _⟩ => rfl | ⟨2, _⟩ => rfl)

theorem idx32 (w : Fin 2048) (h : Fin 6) (mm : Fin 16) (n : Fin 64) :
    idx_main_v32 (ix4 w h mm n) = ix4 (0 : Fin 1) h (0 : Fin 1) (0 : Fin 1) :=
  funext fun a => Fin.ext (by match a with | ⟨0, _⟩ => rfl | ⟨1, _⟩ => rfl | ⟨2, _⟩ => rfl | ⟨3, _⟩ => rfl)

theorem idx31 (z z' z'' : Fin 1) (h : Fin 6) :
    idx_main_v31 (ix4 z h z' z'') = ix3 h (0 : Fin 1) (0 : Fin 1) :=
  funext fun a => Fin.ext (by match a with | ⟨0, _⟩ => rfl | ⟨1, _⟩ => rfl | ⟨2, _⟩ => rfl)

/-- Entry (w, h, m, n) of the biased and masked scores: the unit rows' inner product times the head's scale, plus the
    head's bias entry, plus the entry of mask row w mod 1024. -/
theorem score_apply (x0 : (⟨S2x65536x576, .f32⟩ : BufTy).Contents (Elt Ideal)) (x1 : (⟨S2x128x128x192, .f32⟩ : BufTy).Contents (Elt Ideal))
    (x2 : (⟨S1x11x11x2, .f32⟩ : BufTy).Contents (Elt Ideal)) (x3 : (⟨S16x64, .i32⟩ : BufTy).Contents (Elt Ideal))
    (x5 : (⟨S1024x16x64, .f32⟩ : BufTy).Contents (Elt Ideal)) (x7 : (⟨S6x1x1, .f32⟩ : BufTy).Contents (Elt Ideal))
    (x8 : (⟨S2x512, .f32⟩ : BufTy).Contents (Elt Ideal)) (x9 : (⟨S512, .f32⟩ : BufTy).Contents (Elt Ideal))
    (x10 : (⟨S512x6, .f32⟩ : BufTy).Contents (Elt Ideal))
    (w : Fin 2048) (h : Fin 6) (mm : Fin 16) (n : Fin 64) :
    val_main_v66 (F := Ideal) x0 x1 x2 x3 x5 x7 x8 x9 x10 (ix4 w h mm n)
      = AnchorStripe.score (fun m d => val_main_v16 (F := Ideal) x1 (ix4 w h m d)) (fun n d => val_main_v12 (F := Ideal) x0 (ix4 w h n d))
          (val_main_v30 (F := Ideal) x7 (ix3 h (0 : Fin 1) (0 : Fin 1))) (fun m n => val_main_v58 (F := Ideal) x2 x3 x8 x9 x10 (ix3 h m n))
          (fun m n => x5 (ix3 (wm w) m n)) mm n := by
  rw [val_main_v66_apply, idx66, val_main_v65_apply, val_main_v62_apply, idx62, val_main_v64_apply, idx64, val_main_v63_apply, idx63,
    val_main_v61_apply, val_main_v60_apply, idx60, val_main_v59_apply, idx59, val_main_v33_apply, val_main_v32_apply, idx32,
    val_main_v31_apply, idx31, dotAK]
  simp only [Ideal.addf_def, Ideal.mulf_def]
  rfl

/-! ### The softmax over the tokens -/

/-- The reference's row maximum: the fold of max from minus infinity over the 64 tokens' scores. -/
theorem rowMax_apply (x0 : (⟨S2x65536x576, .f32⟩ : BufTy).Contents (Elt Ideal)) (x1 : (⟨S2x128x128x192, .f32⟩ : BufTy).Contents (Elt Ideal))
    (x2 : (⟨S1x11x11x2, .f32⟩ : BufTy).Contents (Elt Ideal)) (x3 : (⟨S16x64, .i32⟩ : BufTy).Contents (Elt Ideal))
    (x5 : (⟨S1024x16x64, .f32⟩ : BufTy).Contents (Elt Ideal)) (x7 : (⟨S6x1x1, .f32⟩ : BufTy).Contents (Elt Ideal))
    (x8 : (⟨S2x512, .f32⟩ : BufTy).Contents (Elt Ideal)) (x9 : (⟨S512, .f32⟩ : BufTy).Contents (Elt Ideal))
    (x10 : (⟨S512x6, .f32⟩ : BufTy).Contents (Elt Ideal))
    (w : Fin 2048) (h : Fin 6) (mm : Fin 16) :
    val_main_v67 (F := Ideal) x0 x1 x2 x3 x5 x7 x8 x9 x10 (ix3 w h mm)
      = AnchorStripe.rowMax (fun n : Fin 64 => val_main_v66 (F := Ideal) x0 x1 x2 x3 x5 x7 x8 x9 x10 (ix4 w h mm n)) := by
  unfold val_main_v67 val_main_cst_6
  generalize val_main_v66 (F := Ideal) x0 x1 x2 x3 x5 x7 x8 x9 x10 = y
  exact AnchorStripe.hostRowMax_apply y Gen.reducesTo_S2048x6x16x64_S2048x6x16_d3 Gen.h_S_ w h mm

theorem idx71 (w : Fin 2048) (h : Fin 6) (mm : Fin 16) (n : Fin 64) :
    idx_main_v71 (ix4 w h mm n) = ix4 w h mm (0 : Fin 1) :=
  funext fun a => Fin.ext (by match a with | ⟨0, _⟩ => rfl | ⟨1, _⟩ => rfl | ⟨2, _⟩ => rfl | ⟨3, _⟩ => rfl)

theorem idx70 (w : Fin 2048) (h : Fin 6) (mm : Fin 16) (z : Fin 1) :
    idx_main_v70 (ix4 w h mm z) = ix3 w h mm :=
  funext fun a => Fin.ext (by match a with | ⟨0, _⟩ => rfl | ⟨1, _⟩ => rfl | ⟨2, _⟩ => rfl)

theorem idx76 (w : Fin 2048) (h : Fin 6) (mm : Fin 16) (n : Fin 64) :
    idx_main_v76 (ix4 w h mm n) = ix4 w h mm (0 : Fin 1) :=
  funext fun a => Fin.ext (by match a with | ⟨0, _⟩ => rfl | ⟨1, _⟩ => rfl | ⟨2, _⟩ => rfl | ⟨3, _⟩ => rfl)

theorem idx75 (w : Fin 2048) (h : Fin 6) (mm : Fin 16) (z : Fin 1) :
    idx_main_v75 (ix4 w h mm z) = ix3 w h mm :=
  funext fun a => Fin.ext (by match a with | ⟨0, _⟩ => rfl | ⟨1, _⟩ => rfl | ⟨2, _⟩ => rfl)

theorem idx74 (w : Fin 2048) (h : Fin 6) (mm : Fin 16) (k : Fin 64) :
    idx_main_v74 (ix3 w h mm) k = ix4 w h mm k :=
  funext fun a => Fin.ext (by match a with | ⟨0, _⟩ => rfl | ⟨1, _⟩ => rfl | ⟨2, _⟩ => rfl | ⟨3, _⟩ => rfl)

/-- The exponential of a score less its row's maximum (the maximum taken once more against minus infinity). -/
theorem exp_apply (x0 : (⟨S2x65536x576, .f32⟩ : BufTy).Contents (Elt Ideal)) (x1 : (⟨S2x128x128x192, .f32⟩ : BufTy).Contents (Elt Ideal))
    (x2 : (⟨S1x11x11x2, .f32⟩ : BufTy).Contents (Elt Ideal)) (x3 : (⟨S16x64, .i32⟩ : BufTy).Contents (Elt Ideal))
    (x5 : (⟨S1024x16x64, .f32⟩ : BufTy).Contents (Elt Ideal)) (x7 : (⟨S6x1x1, .f32⟩ : BufTy).Contents (Elt Ideal))
    (x8 : (⟨S2x512, .f32⟩ : BufTy).Contents (Elt Ideal)) (x9 : (⟨S512, .f32⟩ : BufTy).Contents (Elt Ideal))
    (x10 : (⟨S512x6, .f32⟩ : BufTy).Contents (Elt Ideal))
    (w : Fin 2048) (h : Fin 6) (mm : Fin 16) (n : Fin 64) :
    val_main_v73 (F := Ideal) x0 x1 x2 x3 x5 x7 x8 x9 x10 (ix4 w h mm n)
      = Ideal.exp (val_main_v66 (F := Ideal) x0 x1 x2 x3 x5 x7 x8 x9 x10 (ix4 w h mm n)
          - max AnchorStripe.bottom (AnchorStripe.rowMax (fun n' : Fin 64 => val_main_v66 (F := Ideal) x0 x1 x2 x3 x5 x7 x8 x9 x10 (ix4 w h mm n')))) := by
  rw [val_main_v73_apply, val_main_v72_apply, val_main_v71_apply, idx71, val_main_v70_apply, idx70, val_main_v69_apply,
    val_main_v68_apply, val_main_cst_7_apply, rowMax_apply]
  rfl

/-- Entry (w, h, m, n) of the weights is the softmax of row (w, h, m) of the scores, at n. -/
theorem soft_apply (x0 : (⟨S2x65536x576, .f32⟩ : BufTy).Contents (Elt Ideal)) (x1 : (⟨S2x128x128x192, .f32⟩ : BufTy).Contents (Elt Ideal))
    (x2 : (⟨S1x11x11x2, .f32⟩ : BufTy).Contents (Elt Ideal)) (x3 : (⟨S16x64, .i32⟩ : BufTy).Contents (Elt Ideal))
    (x5 : (⟨S1024x16x64, .f32⟩ : BufTy).Contents (Elt Ideal)) (x7 : (⟨S6x1x1, .f32⟩ : BufTy).Contents (Elt Ideal))
    (x8 : (⟨S2x512, .f32⟩ : BufTy).Contents (Elt Ideal)) (x9 : (⟨S512, .f32⟩ : BufTy).Contents (Elt Ideal))
    (x10 : (⟨S512x6, .f32⟩ : BufTy).Contents (Elt Ideal))
    (w : Fin 2048) (h : Fin 6) (mm : Fin 16) (n : Fin 64) :
    val_main_v77 (F := Ideal) x0 x1 x2 x3 x5 x7 x8 x9 x10 (ix4 w h mm n)
      = AnchorStripe.softRow (fun n' : Fin 64 => val_main_v66 (F := Ideal) x0 x1 x2 x3 x5 x7 x8 x9 x10 (ix4 w h mm n')) n := by
  rw [val_main_v77_apply, val_main_v76_apply, idx76, val_main_v75_apply, idx75, val_main_v74_apply, val_main_cst_8_apply]
  simp only [idx74, exp_apply, Ideal.hostDivf_def, Ideal.ofBits_def, Ideal.ofBits_zero_f32, zero_add]
  rfl

/-! ### The anchors' values -/

theorem lidx78 (w : Fin 2048) (h : Fin 6) (mm : Fin 16) (d : Fin 32) (k : Fin 64) :
    lidx_main_v78 (ix4 w h mm d) k = ix4 w h mm k :=
  funext fun a => Fin.ext (by match a with | ⟨0, _⟩ => rfl | ⟨1, _⟩ => rfl | ⟨2, _⟩ => rfl | ⟨3, _⟩ => rfl)

theorem ridx78 (w : Fin 2048) (h : Fin 6) (mm : Fin 16) (d : Fin 32) (k : Fin 64) :
    ridx_main_v78 (ix4 w h mm d) k = ix4 w h k d :=
  funext fun a => Fin.ext (by match a with | ⟨0, _⟩ => rfl | ⟨1, _⟩ => rfl | ⟨2, _⟩ => rfl | ⟨3, _⟩ => rfl)

end Stage1

/-- Stage one of the reference at one entry: anchor m's value in window w and head h is the softmax-weighted sum of the
    window-head's value rows, the weights being the softmax over the tokens of the anchor's scores against the keys. -/
theorem anchor_apply (x0 : (⟨S2x65536x576, .f32⟩ : BufTy).Contents (Elt Ideal)) (x1 : (⟨S2x128x128x192, .f32⟩ : BufTy).Contents (Elt Ideal))
    (x2 : (⟨S1x11x11x2, .f32⟩ : BufTy).Contents (Elt Ideal)) (x3 : (⟨S16x64, .i32⟩ : BufTy).Contents (Elt Ideal))
    (x5 : (⟨S1024x16x64, .f32⟩ : BufTy).Contents (Elt Ideal)) (x7 : (⟨S6x1x1, .f32⟩ : BufTy).Contents (Elt Ideal))
    (x8 : (⟨S2x512, .f32⟩ : BufTy).Contents (Elt Ideal)) (x9 : (⟨S512, .f32⟩ : BufTy).Contents (Elt Ideal))
    (x10 : (⟨S512x6, .f32⟩ : BufTy).Contents (Elt Ideal)) (w : Fin 2048) (h : Fin 6) (mm : Fin 16) (d : Fin 32) :
    val_main_v78 (F := Ideal) x0 x1 x2 x3 x5 x7 x8 x9 x10 (ix4 w h mm d)
      = AnchorStripe.anchorValue (fun n d => val_main_v12 (F := Ideal) x0 (ix4 w h n d)) (fun n d => val_main_v14 (F := Ideal) x0 (ix4 w h n d))
          (fun m d => val_main_v16 (F := Ideal) x1 (ix4 w h m d)) (fun m n => val_main_v58 (F := Ideal) x2 x3 x8 x9 x10 (ix3 h m n))
          (fun m n => x5 (ix3 (wm w) m n)) (val_main_v30 (F := Ideal) x7 (ix3 h (0 : Fin 1) (0 : Fin 1))) mm d := by
  rw [val_main_v78_apply]
  simp only [Stage1.lidx78, Stage1.ridx78, Stage1.soft_apply, Stage1.score_apply]
  rfl

end Cert.ReferenceIdeal.RefValue
end
-- ==== Proof.RefStage2.lean ====
/-
  Stage two of the reference program, read at one output entry.

  For window w, head h, token n and feature d the reference divides each query row and each anchor row by its clamped
  Euclidean length, takes the inner products of the unit rows, scales them by the head's scale, adds the bias entry
  (h, n, m) and the mask entry (w mod 1024, n, m), turns each token's row of sixteen scores into softmax weights
  (row maximum folded from minus infinity and clamped once more, exponentials of the differences, division by their
  sum), and sums the weights against the stage-one anchor values. Each of these steps is identified here with the
  corresponding function of the specification, entry by entry; the only arithmetic is that splitting the window axis
  into [2, 1024] for the mask and joining it again returns every index to itself, with w mod 1024 on the mask axis.
-/
import proofs.«169394_j3865470566918_2_alg».proof.Proof.Gen.ReferenceIdeal.Read
import proofs.«169394_j3865470566918_2_alg».proof.Proof.Spec
import proofs.«169394_j3865470566918_2_alg».proof.Proof.LibRowMax
import Idealize.ShloMosaic.Lib.ValueIdx

noncomputable section

open Idealize.ShloMosaic Idealize.ShloMosaic.TcCoe Idealize.ShloMosaic.ValueIdx

namespace Cert.ReferenceIdeal.RefValue.Stage2
open Cert.ReferenceIdeal Cert.ReferenceIdeal.Read
open AnchorStripe (wm)

/-! ### The unit rows

A row's squared length is read through the keep-dimension broadcasts back at the row's own entries. -/

/-- Entry k of the query row behind the length broadcast to entry d. -/
theorem query_len_idx (w : Fin 2048) (h : Fin 6) (n : Fin 64) (d k : Fin 32) :
    idx_main_call3_v1 (idx_main_call3_v2 (idx_main_v82 (ix4 w h n d))) k = ix4 w h n k :=
  funext fun a => Fin.ext (by match a with | ⟨0, _⟩ => rfl | ⟨1, _⟩ => rfl | ⟨2, _⟩ => rfl | ⟨3, _⟩ => rfl)

/-- Entry k of the anchor row behind the length broadcast to entry d. -/
theorem anchor_len_idx (w : Fin 2048) (h : Fin 6) (m : Fin 16) (d k : Fin 32) :
    idx_main_call4_v1 (idx_main_call4_v2 (idx_main_v87 (ix4 w h m d))) k = ix4 w h m k :=
  funext fun a => Fin.ext (by match a with | ⟨0, _⟩ => rfl | ⟨1, _⟩ => rfl | ⟨2, _⟩ => rfl | ⟨3, _⟩ => rfl)

/-- The normalised queries are the unit rows of the queries. -/
theorem unit_query (x0 : (⟨S2x65536x576, .f32⟩ : BufTy).Contents (Elt Ideal)) (w : Fin 2048) (h : Fin 6) (n : Fin 64) (d : Fin 32) :
    val_main_v83 (F := Ideal) x0 (ix4 w h n d) = AnchorStripe.unitRow (fun e => val_main_v10 (F := Ideal) x0 (ix4 w h n e)) d := by
  rw [val_main_v83_apply, val_main_v82_apply, val_main_v81_apply, val_main_v79_apply, val_main_call3_v2_apply,
    val_main_call3_v1_apply, val_main_v80_apply, val_main_cst_9_apply, val_main_call3_cst_apply]
  simp only [val_main_call3_v0_apply, query_len_idx]
  unfold AnchorStripe.unitRow
  simp only [Ideal.hostDivf_def, Ideal.maximumf_def, Ideal.hostUnary_sqrt_def, Ideal.mulf_def, Ideal.ofBits_def,
    Ideal.ofBits_zero_f32, zero_add]

/-- The normalised anchors are the unit rows of the anchors. -/
theorem unit_anchor (x1 : (⟨S2x128x128x192, .f32⟩ : BufTy).Contents (Elt Ideal)) (w : Fin 2048) (h : Fin 6) (m : Fin 16) (d : Fin 32) :
    val_main_v88 (F := Ideal) x1 (ix4 w h m d) = AnchorStripe.unitRow (fun e => val_main_v16 (F := Ideal) x1 (ix4 w h m e)) d := by
  rw [val_main_v88_apply, val_main_v87_apply, val_main_v86_apply, val_main_v84_apply, val_main_call4_v2_apply,
    val_main_call4_v1_apply, val_main_v85_apply, val_main_cst_10_apply, val_main_call4_cst_apply]
  simp only [val_main_call4_v0_apply, anchor_len_idx]
  unfold AnchorStripe.unitRow
  simp only [Ideal.hostDivf_def, Ideal.maximumf_def, Ideal.hostUnary_sqrt_def, Ideal.mulf_def, Ideal.ofBits_def,
    Ideal.ofBits_zero_f32, zero_add]

/-! ### The scores

The score array is reshaped to [2, 1024, 6, 64, 16] to receive the mask and reshaped back, so entry (w, h, n, m) meets
mask row w mod 1024. -/

/-- The row-major position of entry (w, h, n, m) of a [2048, 6, 64, 16] array, cut into the five coordinates of
    [2, 1024, 6, 64, 16] and joined again, is the position itself. -/
theorem cut_join (w h n m : Nat) (hw : w < 2048) (hh : h < 6) (hn : n < 64) (hm : m < 16) :
    (((((((w * 6 + h) * 64 + n) * 16 + m) / 6291456 * 1024 + (((w * 6 + h) * 64 + n) * 16 + m) / 6144 % 1024) * 6 + (((w * 6 + h) * 64 + n) * 16 + m) / 1024 % 6) * 64 + (((w * 6 + h) * 64 + n) * 16 + m) / 16 % 64) * 16 + (((w * 6 + h) * 64 + n) * 16 + m) % 16) = (((w * 6 + h) * 64 + n) * 16 + m) := by omega
theorem join0 (w h n m : Nat) (hw : w < 2048) (hh : h < 6) (hn : n < 64) (hm : m < 16) : (((((((w * 6 + h) * 64 + n) * 16 + m) / 6291456 * 1024 + (((w * 6 + h) * 64 + n) * 16 + m) / 6144 % 1024) * 6 + (((w * 6 + h) * 64 + n) * 16 + m) / 1024 % 6) * 64 + (((w * 6 + h) * 64 + n) * 16 + m) / 16 % 64) * 16 + (((w * 6 + h) * 64 + n) * 16 + m) % 16) / 6144 = w := by
  rw [cut_join w h n m hw hh hn hm]; omega
theorem join1 (w h n m : Nat) (hw : w < 2048) (hh : h < 6) (hn : n < 64) (hm : m < 16) : (((((((w * 6 + h) * 64 + n) * 16 + m) / 6291456 * 1024 + (((w * 6 + h) * 64 + n) * 16 + m) / 6144 % 1024) * 6 + (((w * 6 + h) * 64 + n) * 16 + m) / 1024 % 6) * 64 + (((w * 6 + h) * 64 + n) * 16 + m) / 16 % 64) * 16 + (((w * 6 + h) * 64 + n) * 16 + m) % 16) / 1024 % 6 = h := by
  rw [cut_join w h n m hw hh hn hm]; omega
theorem join2 (w h n m : Nat) (hw : w < 2048) (hh : h < 6) (hn : n < 64) (hm : m < 16) : (((((((w * 6 + h) * 64 + n) * 16 + m) / 6291456 * 1024 + (((w * 6 + h) * 64 + n) * 16 + m) / 6144 % 1024) * 6 + (((w * 6 + h) * 64 + n) * 16 + m) / 1024 % 6) * 64 + (((w * 6 + h) * 64 + n) * 16 + m) / 16 % 64) * 16 + (((w * 6 + h) * 64 + n) * 16 + m) % 16) / 16 % 64 = n := by
  rw [cut_join w h n m hw hh hn hm]; omega
theorem join3 (w h n m : Nat) (hw : w < 2048) (hh : h < 6) (hn : n < 64) (hm : m < 16) : (((((((w * 6 + h) * 64 + n) * 16 + m) / 6291456 * 1024 + (((w * 6 + h) * 64 + n) * 16 + m) / 6144 % 1024) * 6 + (((w * 6 + h) * 64 + n) * 16 + m) / 1024 % 6) * 64 + (((w * 6 + h) * 64 + n) * 16 + m) / 16 % 64) * 16 + (((w * 6 + h) * 64 + n) * 16 + m) % 16) % 16 = m := by
  rw [cut_join w h n m hw hh hn hm]; omega
/-- The second of the five coordinates is w mod 1024; the last two are n and m. -/
theorem cut1 (w h n m : Nat) (hw : w < 2048) (hh : h < 6) (hn : n < 64) (hm : m < 16) : (((w * 6 + h) * 64 + n) * 16 + m) / 6144 % 1024 = w % 1024 := by omega
theorem cut3 (w h n m : Nat) (hw : w < 2048) (hh : h < 6) (hn : n < 64) (hm : m < 16) : (((w * 6 + h) * 64 + n) * 16 + m) / 16 % 64 = n := by omega
theorem cut4 (w h n m : Nat) (hw : w < 2048) (hh : h < 6) (hn : n < 64) (hm : m < 16) : (((w * 6 + h) * 64 + n) * 16 + m) % 16 = m := by omega

/-- Reshaping to five axes and back is the identity on indices. -/
theorem reshape_idx (w : Fin 2048) (h : Fin 6) (n : Fin 64) (m : Fin 16) :
    idx_main_v124 (idx_main_v128 (ix4 w h n m)) = ix4 w h n m :=
  funext fun a => Fin.ext (by
    match a with
    | ⟨0, _⟩ => exact join0 w.val h.val n.val m.val w.isLt h.isLt n.isLt m.isLt
    | ⟨1, _⟩ => exact join1 w.val h.val n.val m.val w.isLt h.isLt n.isLt m.isLt
    | ⟨2, _⟩ => exact join2 w.val h.val n.val m.val w.isLt h.isLt n.isLt m.isLt
    | ⟨3, _⟩ => exact join3 w.val h.val n.val m.val w.isLt h.isLt n.isLt m.isLt)

/-- The mask entry met by score entry (w, h, n, m) is (w mod 1024, n, m). -/
theorem mask_idx (w : Fin 2048) (h : Fin 6) (n : Fin 64) (m : Fin 16) :
    idx_main_v125 (idx_main_v126 (idx_main_v128 (ix4 w h n m))) = ix3 (wm w) n m :=
  funext fun a => Fin.ext (by
    match a with
    | ⟨0, _⟩ => exact cut1 w.val h.val n.val m.val w.isLt h.isLt n.isLt m.isLt
    | ⟨1, _⟩ => exact cut3 w.val h.val n.val m.val w.isLt h.isLt n.isLt m.isLt
    | ⟨2, _⟩ => exact cut4 w.val h.val n.val m.val w.isLt h.isLt n.isLt m.isLt)

/-- The scale entry met by score entry (w, h, n, m) is the head's. -/
theorem scale_idx (w : Fin 2048) (h : Fin 6) (n : Fin 64) (m : Fin 16) :
    idx_main_v93 (idx_main_v94 (ix4 w h n m)) = ix3 h (0 : Fin 1) (0 : Fin 1) :=
  funext fun a => Fin.ext (by match a with | ⟨0, _⟩ => rfl | ⟨1, _⟩ => rfl | ⟨2, _⟩ => rfl)

/-- The bias entry met by score entry (w, h, n, m) is (h, n, m). -/
theorem bias_idx (w : Fin 2048) (h : Fin 6) (n : Fin 64) (m : Fin 16) :
    idx_main_v121 (idx_main_v122 (ix4 w h n m)) = ix3 h n m :=
  funext fun a => Fin.ext (by match a with | ⟨0, _⟩ => rfl | ⟨1, _⟩ => rfl | ⟨2, _⟩ => rfl)

/-- The inner product behind score entry (w, h, n, m) runs over query row (w, h, n) ... -/
theorem dot_query_idx (w : Fin 2048) (h : Fin 6) (n : Fin 64) (m : Fin 16) (k : Fin 32) :
    lidx_main_v89 (ix4 w h n m) k = ix4 w h n k :=
  funext fun a => Fin.ext (by match a with | ⟨0, _⟩ => rfl | ⟨1, _⟩ => rfl | ⟨2, _⟩ => rfl | ⟨3, _⟩ => rfl)

/-- ... and anchor row (w, h, m). -/
theorem dot_anchor_idx (w : Fin 2048) (h : Fin 6) (n : Fin 64) (m : Fin 16) (k : Fin 32) :
    ridx_main_v89 (ix4 w h n m) k = ix4 w h m k :=
  funext fun a => Fin.ext (by match a with | ⟨0, _⟩ => rfl | ⟨1, _⟩ => rfl | ⟨2, _⟩ => rfl | ⟨3, _⟩ => rfl)

/-- The masked scores are the scores of the unit query rows against the unit anchor rows. -/
theorem score_apply (x0 : (⟨S2x65536x576, .f32⟩ : BufTy).Contents (Elt Ideal)) (x1 : (⟨S2x128x128x192, .f32⟩ : BufTy).Contents (Elt Ideal)) (x2 : (⟨S1x11x11x2, .f32⟩ : BufTy).Contents (Elt Ideal)) (x4 : (⟨S64x16, .i32⟩ : BufTy).Contents (Elt Ideal)) (x6 : (⟨S1024x64x16, .f32⟩ : BufTy).Contents (Elt Ideal)) (x11 : (⟨S6x1x1, .f32⟩ : BufTy).Contents (Elt Ideal)) (x12 : (⟨S2x512, .f32⟩ : BufTy).Contents (Elt Ideal)) (x13 : (⟨S512, .f32⟩ : BufTy).Contents (Elt Ideal)) (x14 : (⟨S512x6, .f32⟩ : BufTy).Contents (Elt Ideal))
    (w : Fin 2048) (h : Fin 6) (n : Fin 64) (m : Fin 16) :
    val_main_v128 (F := Ideal) x0 x1 x2 x4 x6 x11 x12 x13 x14 (ix4 w h n m)
      = AnchorStripe.score (fun n d => val_main_v10 (F := Ideal) x0 (ix4 w h n d)) (fun m d => val_main_v16 (F := Ideal) x1 (ix4 w h m d))
          (val_main_v92 (F := Ideal) x11 (ix3 h (0 : Fin 1) (0 : Fin 1)))
          (fun n m => val_main_v120 (F := Ideal) x2 x4 x12 x13 x14 (ix3 h n m)) (fun n m => x6 (ix3 (wm w) n m)) n m := by
  rw [val_main_v128_apply, val_main_v127_apply, val_main_v124_apply, val_main_v126_apply, val_main_v125_apply, reshape_idx, mask_idx,
    val_main_v123_apply, val_main_v95_apply, val_main_v89_apply, val_main_v94_apply, val_main_v93_apply, val_main_v122_apply,
    val_main_v121_apply, scale_idx, bias_idx]
  simp only [dot_query_idx, dot_anchor_idx, unit_query, unit_anchor]
  unfold AnchorStripe.score
  simp only [Ideal.addf_def, Ideal.mulf_def]

/-! ### The softmax over the anchors -/

/-- The row whose maximum is broadcast to entry (w, h, n, m). -/
theorem max_idx (w : Fin 2048) (h : Fin 6) (n : Fin 64) (m : Fin 16) :
    idx_main_v132 (idx_main_v133 (ix4 w h n m)) = ix3 w h n :=
  funext fun a => Fin.ext (by match a with | ⟨0, _⟩ => rfl | ⟨1, _⟩ => rfl | ⟨2, _⟩ => rfl)

/-- Entry k of the row whose sum is broadcast to entry (w, h, n, m). -/
theorem sum_idx (w : Fin 2048) (h : Fin 6) (n : Fin 64) (m k : Fin 16) :
    idx_main_v136 (idx_main_v137 (idx_main_v138 (ix4 w h n m))) k = ix4 w h n k :=
  funext fun a => Fin.ext (by match a with | ⟨0, _⟩ => rfl | ⟨1, _⟩ => rfl | ⟨2, _⟩ => rfl | ⟨3, _⟩ => rfl)

/-- The maximum-reduction of a row of scores is the fold of max over the row from minus infinity. -/
theorem row_fold (x0 : (⟨S2x65536x576, .f32⟩ : BufTy).Contents (Elt Ideal)) (x1 : (⟨S2x128x128x192, .f32⟩ : BufTy).Contents (Elt Ideal)) (x2 : (⟨S1x11x11x2, .f32⟩ : BufTy).Contents (Elt Ideal)) (x4 : (⟨S64x16, .i32⟩ : BufTy).Contents (Elt Ideal)) (x6 : (⟨S1024x64x16, .f32⟩ : BufTy).Contents (Elt Ideal)) (x11 : (⟨S6x1x1, .f32⟩ : BufTy).Contents (Elt Ideal)) (x12 : (⟨S2x512, .f32⟩ : BufTy).Contents (Elt Ideal)) (x13 : (⟨S512, .f32⟩ : BufTy).Contents (Elt Ideal)) (x14 : (⟨S512x6, .f32⟩ : BufTy).Contents (Elt Ideal))
    (w : Fin 2048) (h : Fin 6) (n : Fin 64) :
    val_main_v129 (F := Ideal) x0 x1 x2 x4 x6 x11 x12 x13 x14 (ix3 w h n)
      = AnchorStripe.rowMax fun m => val_main_v128 (F := Ideal) x0 x1 x2 x4 x6 x11 x12 x13 x14 (ix4 w h n m) := by
  unfold val_main_v129 val_main_cst_17
  generalize val_main_v128 (F := Ideal) x0 x1 x2 x4 x6 x11 x12 x13 x14 = y
  exact AnchorStripe.hostRowMax_apply y Gen.reducesTo_S2048x6x64x16_S2048x6x64_d3 Gen.h_S_ w h n

/-- The clamped row maximum: that fold, taken once more against minus infinity. -/
theorem row_max (x0 : (⟨S2x65536x576, .f32⟩ : BufTy).Contents (Elt Ideal)) (x1 : (⟨S2x128x128x192, .f32⟩ : BufTy).Contents (Elt Ideal)) (x2 : (⟨S1x11x11x2, .f32⟩ : BufTy).Contents (Elt Ideal)) (x4 : (⟨S64x16, .i32⟩ : BufTy).Contents (Elt Ideal)) (x6 : (⟨S1024x64x16, .f32⟩ : BufTy).Contents (Elt Ideal)) (x11 : (⟨S6x1x1, .f32⟩ : BufTy).Contents (Elt Ideal)) (x12 : (⟨S2x512, .f32⟩ : BufTy).Contents (Elt Ideal)) (x13 : (⟨S512, .f32⟩ : BufTy).Contents (Elt Ideal)) (x14 : (⟨S512x6, .f32⟩ : BufTy).Contents (Elt Ideal))
    (w : Fin 2048) (h : Fin 6) (n : Fin 64) :
    val_main_v131 (F := Ideal) x0 x1 x2 x4 x6 x11 x12 x13 x14 (ix3 w h n)
      = max AnchorStripe.bottom (AnchorStripe.rowMax fun m => val_main_v128 (F := Ideal) x0 x1 x2 x4 x6 x11 x12 x13 x14 (ix4 w h n m)) := by
  rw [val_main_v131_apply, val_main_v130_apply, val_main_cst_18_apply, row_fold]
  simp only [Ideal.maximumf_def, Ideal.ofBits_def]

/-- The exponentials of the scores less the clamped row maximum. -/
theorem exp_apply (x0 : (⟨S2x65536x576, .f32⟩ : BufTy).Contents (Elt Ideal)) (x1 : (⟨S2x128x128x192, .f32⟩ : BufTy).Contents (Elt Ideal)) (x2 : (⟨S1x11x11x2, .f32⟩ : BufTy).Contents (Elt Ideal)) (x4 : (⟨S64x16, .i32⟩ : BufTy).Contents (Elt Ideal)) (x6 : (⟨S1024x64x16, .f32⟩ : BufTy).Contents (Elt Ideal)) (x11 : (⟨S6x1x1, .f32⟩ : BufTy).Contents (Elt Ideal)) (x12 : (⟨S2x512, .f32⟩ : BufTy).Contents (Elt Ideal)) (x13 : (⟨S512, .f32⟩ : BufTy).Contents (Elt Ideal)) (x14 : (⟨S512x6, .f32⟩ : BufTy).Contents (Elt Ideal))
    (w : Fin 2048) (h : Fin 6) (n : Fin 64) (m : Fin 16) :
    val_main_v135 (F := Ideal) x0 x1 x2 x4 x6 x11 x12 x13 x14 (ix4 w h n m)
      = Ideal.exp (val_main_v128 (F := Ideal) x0 x1 x2 x4 x6 x11 x12 x13 x14 (ix4 w h n m)
          - max AnchorStripe.bottom (AnchorStripe.rowMax fun m' => val_main_v128 (F := Ideal) x0 x1 x2 x4 x6 x11 x12 x13 x14 (ix4 w h n m'))) := by
  rw [val_main_v135_apply, val_main_v134_apply, val_main_v133_apply, val_main_v132_apply, max_idx, row_max]
  simp only [Ideal.hostUnary_exp_def, Ideal.subf_def]

/-- The weights are the softmax of the row of scores. -/
theorem soft_apply (x0 : (⟨S2x65536x576, .f32⟩ : BufTy).Contents (Elt Ideal)) (x1 : (⟨S2x128x128x192, .f32⟩ : BufTy).Contents (Elt Ideal)) (x2 : (⟨S1x11x11x2, .f32⟩ : BufTy).Contents (Elt Ideal)) (x4 : (⟨S64x16, .i32⟩ : BufTy).Contents (Elt Ideal)) (x6 : (⟨S1024x64x16, .f32⟩ : BufTy).Contents (Elt Ideal)) (x11 : (⟨S6x1x1, .f32⟩ : BufTy).Contents (Elt Ideal)) (x12 : (⟨S2x512, .f32⟩ : BufTy).Contents (Elt Ideal)) (x13 : (⟨S512, .f32⟩ : BufTy).Contents (Elt Ideal)) (x14 : (⟨S512x6, .f32⟩ : BufTy).Contents (Elt Ideal))
    (w : Fin 2048) (h : Fin 6) (n : Fin 64) (m : Fin 16) :
    val_main_v139 (F := Ideal) x0 x1 x2 x4 x6 x11 x12 x13 x14 (ix4 w h n m)
      = AnchorStripe.softRow (fun m' => val_main_v128 (F := Ideal) x0 x1 x2 x4 x6 x11 x12 x13 x14 (ix4 w h n m')) m := by
  rw [val_main_v139_apply, val_main_v138_apply, val_main_v137_apply, val_main_v136_apply, val_main_cst_19_apply]
  simp only [sum_idx, exp_apply]
  unfold AnchorStripe.softRow
  simp only [Ideal.hostDivf_def, Ideal.ofBits_def, Ideal.ofBits_zero_f32, zero_add]

/-! ### The weighted sum of the anchor values -/

/-- Output entry (w, h, n, d) sums weight (w, h, n, k) ... -/
theorem out_weight_idx (w : Fin 2048) (h : Fin 6) (n : Fin 64) (d : Fin 32) (k : Fin 16) :
    lidx_main_v140 (ix4 w h n d) k = ix4 w h n k :=
  funext fun a => Fin.ext (by match a with | ⟨0, _⟩ => rfl | ⟨1, _⟩ => rfl | ⟨2, _⟩ => rfl | ⟨3, _⟩ => rfl)

/-- ... times anchor value (w, h, k, d). -/
theorem out_value_idx (w : Fin 2048) (h : Fin 6) (n : Fin 64) (d : Fin 32) (k : Fin 16) :
    ridx_main_v140 (ix4 w h n d) k = ix4 w h k d :=
  funext fun a => Fin.ext (by match a with | ⟨0, _⟩ => rfl | ⟨1, _⟩ => rfl | ⟨2, _⟩ => rfl | ⟨3, _⟩ => rfl)

end Cert.ReferenceIdeal.RefValue.Stage2

namespace Cert.ReferenceIdeal.RefValue
open Cert.ReferenceIdeal Cert.ReferenceIdeal.Read

open AnchorStripe (wh wm)

theorem token_apply (x0 : (⟨S2x65536x576, .f32⟩ : BufTy).Contents (Elt Ideal)) (x1 : (⟨S2x128x128x192, .f32⟩ : BufTy).Contents (Elt Ideal))
    (x2 : (⟨S1x11x11x2, .f32⟩ : BufTy).Contents (Elt Ideal)) (x3 : (⟨S16x64, .i32⟩ : BufTy).Contents (Elt Ideal)) (x4 : (⟨S64x16, .i32⟩ : BufTy).Contents (Elt Ideal))
    (x5 : (⟨S1024x16x64, .f32⟩ : BufTy).Contents (Elt Ideal)) (x6 : (⟨S1024x64x16, .f32⟩ : BufTy).Contents (Elt Ideal)) (x7 : (⟨S6x1x1, .f32⟩ : BufTy).Contents (Elt Ideal))
    (x8 : (⟨S2x512, .f32⟩ : BufTy).Contents (Elt Ideal)) (x9 : (⟨S512, .f32⟩ : BufTy).Contents (Elt Ideal))
    (x10 : (⟨S512x6, .f32⟩ : BufTy).Contents (Elt Ideal)) (x11 : (⟨S6x1x1, .f32⟩ : BufTy).Contents (Elt Ideal))
    (x12 : (⟨S2x512, .f32⟩ : BufTy).Contents (Elt Ideal)) (x13 : (⟨S512, .f32⟩ : BufTy).Contents (Elt Ideal))
    (x14 : (⟨S512x6, .f32⟩ : BufTy).Contents (Elt Ideal)) (w : Fin 2048) (h : Fin 6) (n : Fin 64) (d : Fin 32) :
    val_main_v140 (F := Ideal) x0 x1 x2 x3 x4 x5 x6 x7 x8 x9 x10 x11 x12 x13 x14 (ix4 w h n d)
      = AnchorStripe.tokenOut (fun n d => val_main_v10 (F := Ideal) x0 (ix4 w h n d)) (fun m d => val_main_v16 (F := Ideal) x1 (ix4 w h m d))
          (fun m d => val_main_v78 (F := Ideal) x0 x1 x2 x3 x5 x7 x8 x9 x10 (ix4 w h m d))
          (fun n m => val_main_v120 (F := Ideal) x2 x4 x12 x13 x14 (ix3 h n m))
          (fun n m => x6 (ix3 (wm w) n m)) (val_main_v92 (F := Ideal) x11 (ix3 h (0 : Fin 1) (0 : Fin 1))) n d := by
  rw [val_main_v140_apply]
  simp only [Stage2.out_weight_idx, Stage2.out_value_idx, Stage2.soft_apply, Stage2.score_apply]
  unfold AnchorStripe.tokenOut
  rfl

end Cert.ReferenceIdeal.RefValue
end
-- ==== Proof.KernelOperands.lean ====
/-
  The arrays the attention kernel is handed, against the reference's stage values.

  Before the kernel's region runs, a prelude of host operations turns the program's arguments into the region's operands:
  the token array is cut into windows and its 576 columns into query, key and value, each split into 6 heads of 32; the
  anchor array likewise; the two relative-position biases are computed by a small two-layer network, gathered by an index
  table and squashed to (0, 16); the two per-head scales are exponentials of clamped arguments. The reference computes
  the same arrays as its own first stages. For the anchors, the biases and the scales the two programs apply the same
  operations in the same order, so the two terms coincide once both are written out. For query, key and value they
  re-index differently (cut then split, against split then cut), and both are read at an element: each reaches the
  windowed token array at window `w`, token `n`, column `192 s + 32 h + d` (`s = 0, 1, 2` for query, key, value).
-/
import proofs.«169394_j3865470566918_2_alg».proof.Proof.Gen.KernelIdeal.Frame
import proofs.«169394_j3865470566918_2_alg».proof.Proof.Gen.ReferenceIdeal.Read
import Idealize.ShloMosaic.Lib.ValueIdx

noncomputable section

open Idealize.ShloMosaic Idealize.ShloMosaic.TcCoe Idealize.ShloMosaic.ValueIdx

namespace Cert.KernelIdeal.Operands
open Cert.KernelIdeal Cert.KernelIdeal.Gen
open Cert.ReferenceIdeal.Read (val_main_v10 val_main_v12 val_main_v14 val_main_v16 val_main_v58 val_main_v120 val_main_v30 val_main_v92)

variable (m : (ℓ : Loc nD τ sig) → Buf (Elt Ideal) ℓ) (c : Dev nD)

/-- A rank-3 array cut along its last axis from `o` reads, at `(a, b, j)`, the source at `(a, b, k)` with `k = o + j`. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- The kernel's road from the windowed token array `y : [2048, 64, 576]` to one of the three operands: columns
    `o … o+191` are cut out, split as 6 heads of 32, and the head axis is moved in front of the token axis. Element
    `(w, h, n, d)` of the result is `y` at window `w`, token `n`, column `o + 32 h + d`. -/
theorem kernel_read (y : S2048x64x576.Idx → EReal) (o : Nat) (hs : S2048x64x576.Slices ![0, 0, o] S2048x64x192)
    (w : Fin 2048) (h : Fin 6) (n : Fin 64) (d : Fin 32) (k : Fin 576) (hk : k.val = o + (32 * h.val + d.val)) :
    transpose S2048x6x64x32 [0, 2, 1, 3]
        (shapeCast S2048x64x6x32 (extractStridedSlice S2048x64x192 ![0, 0, o] y hs) shapeCasts_S2048x64x192_S2048x64x6x32)
        transposes_S2048x64x6x32_S2048x6x64x32_0_2_1_3 (ix4 w h n d)
      = y (ix3 w n k) := by
  have hj : 32 * h.val + d.val < 192 := by have := h.isLt; have := d.isLt; omega
  rw [transpose_apply [0, 2, 1, 3] _ transposes_S2048x64x6x32_S2048x6x64x32_0_2_1_3 (ix4 w h n d) (ix4 w n h d)
    (fun b => match b with | ⟨0, _⟩ => rfl | ⟨1, _⟩ => rfl | ⟨2, _⟩ => rfl | ⟨3, _⟩ => rfl)]
  rw [shapeCast_apply _ shapeCasts_S2048x64x192_S2048x64x6x32 (ix4 w n h d) (ix3 w n (⟨32 * h.val + d.val, hj⟩ : Fin 192))
    (by rw [Shape.rowMajor_val_three, Shape.rowMajor_val_four]
        show (w.val * 64 + n.val) * 192 + (32 * h.val + d.val) = ((w.val * 64 + n.val) * 6 + h.val) * 32 + d.val
        omega)]
  exact slice3_axis2_apply o y hs w n _ k hk

/-- The reference's road from the same array `y : [2048, 64, 576]`: the 576 columns are split as 3 × 6 × 32, the
    three-way axis is moved to the front (and the head axis in front of the token axis), part `s` is cut out and its
    unit axis dropped. Element `(w, h, n, d)` of the result is `y` at window `w`, token `n`, column
    `192 s + 32 h + d`. -/
theorem reference_read (y : (⟨3, ![2048, 64, 576]⟩ : Shape).Idx → EReal) (s : Nat) (hs3 : s < 3)
    (h7 : (⟨3, ![2048, 64, 576]⟩ : Shape).ShapeCasts ⟨5, ![2048, 64, 3, 6, 32]⟩)
    (h8 : (⟨5, ![2048, 64, 3, 6, 32]⟩ : Shape).Transposes [2, 0, 3, 1, 4] ⟨5, ![3, 2048, 6, 64, 32]⟩)
    (h9 : (⟨5, ![3, 2048, 6, 64, 32]⟩ : Shape).Slices ![s, 0, 0, 0, 0] ⟨5, ![1, 2048, 6, 64, 32]⟩)
    (h10 : (⟨5, ![1, 2048, 6, 64, 32]⟩ : Shape).ShapeCasts ⟨4, ![2048, 6, 64, 32]⟩)
    (w : Fin 2048) (h : Fin 6) (n : Fin 64) (d : Fin 32) (k : Fin 576) (hk : k.val = 192 * s + (32 * h.val + d.val)) :
    shapeCast ⟨4, ![2048, 6, 64, 32]⟩ (extractStridedSlice ⟨5, ![1, 2048, 6, 64, 32]⟩ ![s, 0, 0, 0, 0]
        (transpose ⟨5, ![3, 2048, 6, 64, 32]⟩ [2, 0, 3, 1, 4] (shapeCast ⟨5, ![2048, 64, 3, 6, 32]⟩ y h7) h8) h9) h10 (ix4 w h n d)
      = y (ix3 w n k) := by
  rw [shapeCast_apply _ h10 (ix4 w h n d) (ix5 (0 : Fin 1) w h n d)
    (by rw [Shape.rowMajor_val_five, Shape.rowMajor_val_four]
        show (((0 * 2048 + w.val) * 6 + h.val) * 64 + n.val) * 32 + d.val = ((w.val * 6 + h.val) * 64 + n.val) * 32 + d.val
        omega)]
  rw [extractStridedSlice_apply ![s, 0, 0, 0, 0] _ h9 (ix5 (0 : Fin 1) w h n d) (ix5 (⟨s, hs3⟩ : Fin 3) w h n d)
    (fun a => match a with
      | ⟨0, _⟩ => (Nat.add_zero s).symm
      | ⟨1, _⟩ => (Nat.zero_add _).symm
      | ⟨2, _⟩ => (Nat.zero_add _).symm
      | ⟨3, _⟩ => (Nat.zero_add _).symm
      | ⟨4, _⟩ => (Nat.zero_add _).symm)]
  rw [transpose_apply [2, 0, 3, 1, 4] _ h8 (ix5 (⟨s, hs3⟩ : Fin 3) w h n d) (ix5 w n (⟨s, hs3⟩ : Fin 3) h d)
    (fun b => match b with | ⟨0, _⟩ => rfl | ⟨1, _⟩ => rfl | ⟨2, _⟩ => rfl | ⟨3, _⟩ => rfl | ⟨4, _⟩ => rfl)]
  exact shapeCast_apply y h7 (ix5 w n (⟨s, hs3⟩ : Fin 3) h d) (ix3 w n k)
    (by rw [Shape.rowMajor_val_three, Shape.rowMajor_val_five]
        show (w.val * 64 + n.val) * 576 + k.val = (((w.val * 64 + n.val) * 3 + s) * 6 + h.val) * 32 + d.val
        omega)

/-! ## Query, key and value: the same element of the windowed token array -/

/-- the kernel's query operand, as the region finds it, is the reference's query array of the same argument -/
theorem q_eq : V m c main_v9 = val_main_v10 (F := Ideal) (m ((c.tc : Thread nD τ).loc main_arg0)) := by
  have e : (V m c main_v9 : S2048x6x64x32.Idx → EReal)
      = transpose S2048x6x64x32 [0, 2, 1, 3] (shapeCast S2048x64x6x32 (extractStridedSlice S2048x64x192 ![0, 0, 0]
          (Cert.ReferenceIdeal.Read.val_main_v3 (F := Ideal) (m ((c.tc : Thread nD τ).loc main_arg0)))
          slices_S2048x64x576_S2048x64x192_0_0_0) shapeCasts_S2048x64x192_S2048x64x6x32)
          transposes_S2048x64x6x32_S2048x6x64x32_0_2_1_3 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results_simp
    rfl
  rw [e]
  funext i
  obtain ⟨w, h, n, d, rfl⟩ : ∃ (w : Fin 2048) (h : Fin 6) (n : Fin 64) (d : Fin 32), i = ix4 w h n d :=
    ⟨i 0, i 1, i 2, i 3, eq_ix4 i⟩
  have hk : 0 + (32 * h.val + d.val) < 576 := by have := h.isLt; have := d.isLt; omega
  rw [kernel_read _ 0 _ w h n d ⟨_, hk⟩ rfl]
  unfold val_main_v10 Cert.ReferenceIdeal.Read.val_main_v9 Cert.ReferenceIdeal.Read.val_main_v8 Cert.ReferenceIdeal.Read.val_main_v7
  generalize Cert.ReferenceIdeal.Read.val_main_v3 (F := Ideal) _ = y
  exact (reference_read y 0 (by omega) _ _ _ _ w h n d ⟨_, hk⟩ rfl).symm

theorem k_eq : V m c main_v12 = val_main_v12 (F := Ideal) (m ((c.tc : Thread nD τ).loc main_arg0)) := by
  have e : (V m c main_v12 : S2048x6x64x32.Idx → EReal)
      = transpose S2048x6x64x32 [0, 2, 1, 3] (shapeCast S2048x64x6x32 (extractStridedSlice S2048x64x192 ![0, 0, 192]
          (Cert.ReferenceIdeal.Read.val_main_v3 (F := Ideal) (m ((c.tc : Thread nD τ).loc main_arg0)))
          slices_S2048x64x576_S2048x64x192_0_0_192) shapeCasts_S2048x64x192_S2048x64x6x32)
          transposes_S2048x64x6x32_S2048x6x64x32_0_2_1_3 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results_simp
    rfl
  rw [e]
  funext i
  obtain ⟨w, h, n, d, rfl⟩ : ∃ (w : Fin 2048) (h : Fin 6) (n : Fin 64) (d : Fin 32), i = ix4 w h n d :=
    ⟨i 0, i 1, i 2, i 3, eq_ix4 i⟩
  have hk : 192 + (32 * h.val + d.val) < 576 := by have := h.isLt; have := d.isLt; omega
  rw [kernel_read _ 192 _ w h n d ⟨_, hk⟩ rfl]
  unfold val_main_v12 Cert.ReferenceIdeal.Read.val_main_v11 Cert.ReferenceIdeal.Read.val_main_v8 Cert.ReferenceIdeal.Read.val_main_v7
  generalize Cert.ReferenceIdeal.Read.val_main_v3 (F := Ideal) _ = y
  exact (reference_read y 1 (by omega) _ _ _ _ w h n d ⟨_, hk⟩ rfl).symm

theorem v_eq : V m c main_v15 = val_main_v14 (F := Ideal) (m ((c.tc : Thread nD τ).loc main_arg0)) := by
  have e : (V m c main_v15 : S2048x6x64x32.Idx → EReal)
      = transpose S2048x6x64x32 [0, 2, 1, 3] (shapeCast S2048x64x6x32 (extractStridedSlice S2048x64x192 ![0, 0, 384]
          (Cert.ReferenceIdeal.Read.val_main_v3 (F := Ideal) (m ((c.tc : Thread nD τ).loc main_arg0)))
          slices_S2048x64x576_S2048x64x192_0_0_384) shapeCasts_S2048x64x192_S2048x64x6x32)
          transposes_S2048x64x6x32_S2048x6x64x32_0_2_1_3 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results_simp
    rfl
  rw [e]
  funext i
  obtain ⟨w, h, n, d, rfl⟩ : ∃ (w : Fin 2048) (h : Fin 6) (n : Fin 64) (d : Fin 32), i = ix4 w h n d :=
    ⟨i 0, i 1, i 2, i 3, eq_ix4 i⟩
  have hk : 384 + (32 * h.val + d.val) < 576 := by have := h.isLt; have := d.isLt; omega
  rw [kernel_read _ 384 _ w h n d ⟨_, hk⟩ rfl]
  unfold val_main_v14 Cert.ReferenceIdeal.Read.val_main_v13 Cert.ReferenceIdeal.Read.val_main_v8 Cert.ReferenceIdeal.Read.val_main_v7
  generalize Cert.ReferenceIdeal.Read.val_main_v3 (F := Ideal) _ = y
  exact (reference_read y 2 (by omega) _ _ _ _ w h n d ⟨_, hk⟩ rfl).symm

/-! ## Anchors and biases: the same operations in the same order -/

theorem a_eq : V m c main_v17 = val_main_v16 (F := Ideal) (m ((c.tc : Thread nD τ).loc main_arg1)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

theorem b1_eq : V m c main_v42 = val_main_v58 (F := Ideal) (m ((c.tc : Thread nD τ).loc main_arg2)) (m ((c.tc : Thread nD τ).loc main_arg3))
    (m ((c.tc : Thread nD τ).loc main_arg8)) (m ((c.tc : Thread nD τ).loc main_arg9)) (m ((c.tc : Thread nD τ).loc main_arg10)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

theorem b2_eq : V m c main_v67 = val_main_v120 (F := Ideal) (m ((c.tc : Thread nD τ).loc main_arg2)) (m ((c.tc : Thread nD τ).loc main_arg4))
    (m ((c.tc : Thread nD τ).loc main_arg12)) (m ((c.tc : Thread nD τ).loc main_arg13)) (m ((c.tc : Thread nD τ).loc main_arg14)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

/-! ## The scales: the reference's [6, 1, 1] array laid out as [1, 6] -/

theorem s1_eq (h : Fin 6) : V m c main_v71 (ix2 (0 : Fin 1) h)
    = val_main_v30 (F := Ideal) (m ((c.tc : Thread nD τ).loc main_arg7)) (ix3 h (0 : Fin 1) (0 : Fin 1)) := by
  have e : (V m c main_v71 : S1x6.Idx → EReal)
      = shapeCast S1x6 (val_main_v30 (F := Ideal) (m ((c.tc : Thread nD τ).loc main_arg7))) shapeCasts_S6x1x1_S1x6 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results_simp
    rfl
  rw [e]
  refine shapeCast_apply _ _ _ _ ?_
  rw [Shape.rowMajor_val_three, Shape.rowMajor_val_two]
  show (h.val * 1 + 0) * 1 + 0 = 0 * 6 + h.val
  omega

theorem s2_eq (h : Fin 6) : V m c main_v75 (ix2 (0 : Fin 1) h)
    = val_main_v92 (F := Ideal) (m ((c.tc : Thread nD τ).loc main_arg11)) (ix3 h (0 : Fin 1) (0 : Fin 1)) := by
  have e : (V m c main_v75 : S1x6.Idx → EReal)
      = shapeCast S1x6 (val_main_v92 (F := Ideal) (m ((c.tc : Thread nD τ).loc main_arg11))) shapeCasts_S6x1x1_S1x6 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results_simp
    rfl
  rw [e]
  refine shapeCast_apply _ _ _ _ ?_
  rw [Shape.rowMajor_val_three, Shape.rowMajor_val_two]
  show (h.val * 1 + 0) * 1 + 0 = 0 * 6 + h.val
  omega

end Cert.KernelIdeal.Operands
end
-- ==== Proof.Bridge.lean ====
/-
  The kernel's output array against the reference's.

  The array the launch leaves is, entry by entry, the window-head attention function applied to rows of the operand
  arrays. The reference's output, read at an entry, is the same function applied to rows of
  its own stage values: its last stage is stage two over its stage-one array, and its stage-one array is stage one over
  its query, key, value, anchor, bias and scale stages. Those two readings are taken here as hypotheses. Since every
  operand array the kernel is handed is the reference's stage value of the same arguments, the two outputs are one array.
-/
import proofs.«169394_j3865470566918_2_alg».proof.Proof.KernelArray
import proofs.«169394_j3865470566918_2_alg».proof.Proof.KernelOperands
import proofs.«169394_j3865470566918_2_alg».proof.Proof.Gen.ReferenceIdeal.Read
import proofs.«169394_j3865470566918_2_alg».proof.Proof.Spec
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open AnchorStripe (wh wm headOut)
open Cert.ReferenceIdeal.Read (val_main_v10 val_main_v12 val_main_v14 val_main_v16 val_main_v58 val_main_v120 val_main_v30
  val_main_v92 val_main_v78 val_main_v140)

/-- The reference's stage-one array read at an entry: anchor `mm` of window `w`, head `h`, is stage one over that
    window-head's key, value and anchor rows, head `h`'s bias and scale, and mask row `w mod 1024`. -/
def AnchorReads : Prop :=
  ∀ (x0 : (⟨Cert.ReferenceIdeal.S2x65536x576, .f32⟩ : BufTy).Contents (Elt Ideal)) (x1 : (⟨Cert.ReferenceIdeal.S2x128x128x192, .f32⟩ : BufTy).Contents (Elt Ideal))
    (x2 : (⟨Cert.ReferenceIdeal.S1x11x11x2, .f32⟩ : BufTy).Contents (Elt Ideal)) (x3 : (⟨Cert.ReferenceIdeal.S16x64, .i32⟩ : BufTy).Contents (Elt Ideal))
    (x5 : (⟨Cert.ReferenceIdeal.S1024x16x64, .f32⟩ : BufTy).Contents (Elt Ideal)) (x7 : (⟨Cert.ReferenceIdeal.S6x1x1, .f32⟩ : BufTy).Contents (Elt Ideal))
    (x8 : (⟨Cert.ReferenceIdeal.S2x512, .f32⟩ : BufTy).Contents (Elt Ideal)) (x9 : (⟨Cert.ReferenceIdeal.S512, .f32⟩ : BufTy).Contents (Elt Ideal))
    (x10 : (⟨Cert.ReferenceIdeal.S512x6, .f32⟩ : BufTy).Contents (Elt Ideal)) (w : Fin 2048) (h : Fin 6) (mm : Fin 16) (d : Fin 32),
    val_main_v78 (F := Ideal) x0 x1 x2 x3 x5 x7 x8 x9 x10 (ix4 w h mm d)
      = AnchorStripe.anchorValue (fun n d => val_main_v12 (F := Ideal) x0 (ix4 w h n d)) (fun n d => val_main_v14 (F := Ideal) x0 (ix4 w h n d))
          (fun m d => val_main_v16 (F := Ideal) x1 (ix4 w h m d)) (fun m n => val_main_v58 (F := Ideal) x2 x3 x8 x9 x10 (ix3 h m n))
          (fun m n => x5 (ix3 (wm w) m n)) (val_main_v30 (F := Ideal) x7 (ix3 h (0 : Fin 1) (0 : Fin 1))) mm d

/-- The reference's output read at an entry: token `n` of window `w`, head `h`, is stage two over that window-head's
    query and anchor rows and stage-one values, head `h`'s bias and scale, and mask row `w mod 1024`. -/
def TokenReads : Prop :=
  ∀ (x0 : (⟨Cert.ReferenceIdeal.S2x65536x576, .f32⟩ : BufTy).Contents (Elt Ideal)) (x1 : (⟨Cert.ReferenceIdeal.S2x128x128x192, .f32⟩ : BufTy).Contents (Elt Ideal))
    (x2 : (⟨Cert.ReferenceIdeal.S1x11x11x2, .f32⟩ : BufTy).Contents (Elt Ideal)) (x3 : (⟨Cert.ReferenceIdeal.S16x64, .i32⟩ : BufTy).Contents (Elt Ideal)) (x4 : (⟨Cert.ReferenceIdeal.S64x16, .i32⟩ : BufTy).Contents (Elt Ideal))
    (x5 : (⟨Cert.ReferenceIdeal.S1024x16x64, .f32⟩ : BufTy).Contents (Elt Ideal)) (x6 : (⟨Cert.ReferenceIdeal.S1024x64x16, .f32⟩ : BufTy).Contents (Elt Ideal)) (x7 : (⟨Cert.ReferenceIdeal.S6x1x1, .f32⟩ : BufTy).Contents (Elt Ideal))
    (x8 : (⟨Cert.ReferenceIdeal.S2x512, .f32⟩ : BufTy).Contents (Elt Ideal)) (x9 : (⟨Cert.ReferenceIdeal.S512, .f32⟩ : BufTy).Contents (Elt Ideal))
    (x10 : (⟨Cert.ReferenceIdeal.S512x6, .f32⟩ : BufTy).Contents (Elt Ideal)) (x11 : (⟨Cert.ReferenceIdeal.S6x1x1, .f32⟩ : BufTy).Contents (Elt Ideal))
    (x12 : (⟨Cert.ReferenceIdeal.S2x512, .f32⟩ : BufTy).Contents (Elt Ideal)) (x13 : (⟨Cert.ReferenceIdeal.S512, .f32⟩ : BufTy).Contents (Elt Ideal))
    (x14 : (⟨Cert.ReferenceIdeal.S512x6, .f32⟩ : BufTy).Contents (Elt Ideal)) (w : Fin 2048) (h : Fin 6) (n : Fin 64) (d : Fin 32),
    val_main_v140 (F := Ideal) x0 x1 x2 x3 x4 x5 x6 x7 x8 x9 x10 x11 x12 x13 x14 (ix4 w h n d)
      = AnchorStripe.tokenOut (fun n d => val_main_v10 (F := Ideal) x0 (ix4 w h n d)) (fun m d => val_main_v16 (F := Ideal) x1 (ix4 w h m d))
          (fun m d => val_main_v78 (F := Ideal) x0 x1 x2 x3 x5 x7 x8 x9 x10 (ix4 w h m d))
          (fun n m => val_main_v120 (F := Ideal) x2 x4 x12 x13 x14 (ix3 h n m))
          (fun n m => x6 (ix3 (wm w) n m)) (val_main_v92 (F := Ideal) x11 (ix3 h (0 : Fin 1) (0 : Fin 1))) n d

/-- The whole-array function of the operands as the launch finds them is the reference's output of the same arguments. -/
theorem whole_eq_ref (hA : AnchorReads) (hT : TokenReads) (m : (ℓ : Loc nD τ sig) → Buf (Elt Ideal) ℓ) (c : Dev nD) :
    whole (V m c main_v9) (V m c main_v12) (V m c main_v15) (V m c main_v17) (V m c main_v42) (V m c main_v67)
        (V m c main_arg5) (V m c main_arg6) (V m c main_v71) (V m c main_v75)
      = val_main_v140 (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  -- the six computed operands and the two masks are the reference's stage values and arguments, as whole arrays
  rw [Operands.q_eq m c, Operands.k_eq m c, Operands.v_eq m c, Operands.a_eq m c, Operands.b1_eq m c, Operands.b2_eq m c,
    V_main_arg5 m c, V_main_arg6 m c]
  funext i
  obtain ⟨w, h, n, d, rfl⟩ : ∃ (w : Fin 2048) (h : Fin 6) (n : Fin 64) (d : Fin 32), i = ix4 w h n d :=
    ⟨i 0, i 1, i 2, i 3, eq_ix4 i⟩
  -- the reference's side: stage two over stage one
  unfold AnchorReads at hA
  rw [hT]
  simp only [hA]
  -- the kernel's side: the same, with the two scales read at head `h`
  show entry _ _ _ _ _ _ _ _ _ _ w h n d = _
  unfold entry headOut
  rw [Operands.s1_eq m c h, Operands.s2_eq m c h]

end Cert.KernelIdeal.Whole

end
-- ==== Proof.lean ====
/-
  Windowed two-stage anchor attention: a tiled kernel against its array-level reference, over the extended reals.

  The image's tokens are cut into 2048 windows of 64 tokens, with 16 anchors per window and 6 heads of 32 channels.
  Per window and head, stage one lets each anchor attend to the window's tokens (unit query and key rows, a per-head
  scale, a relative-position bias, a mask, a softmax) and collect their values; stage two lets each token attend to the
  anchors in the same way and collect the anchors' stage-one values. The kernel launches 128 grid points of 16 windows
  each, with the rows laid out per window and head by reshapes and transposes before the launch and laid back after it;
  the reference applies the same operations to whole arrays.

  Both programs apply the same elementary operations in the same order to every entry; they differ only in how entries
  are laid out and grouped: which reshape comes before which slice, 16 windows by 6 heads listed as 96 rows, a product
  summed over a contracted axis inside a tile or over the whole array, the mask row of window `w` found as row
  `w mod 1024`. Sums over the extended reals may be re-indexed freely, so no finiteness of the inputs is needed.

  The pieces: `Spec.lean` states one window-head's output as a function of its rows; `BodyStage1`, `BodyStage2` and
  `BodyValue` read the kernel body's block at an entry; `KernelArray` and `KernelRun` turn the 128 blocks into the whole
  output array and follow it through the final re-layout; `RefStage1` and `RefStage2` read the reference's two stages at
  an entry; `KernelOperands` and `Bridge` identify the kernel's operand arrays with the reference's stage values and
  conclude that the two outputs are one array.
-/
import proofs.«169394_j3865470566918_2_alg».proof.Defs
import proofs.«169394_j3865470566918_2_alg».proof.Proof.Gen.Kernel
import proofs.«169394_j3865470566918_2_alg».proof.Proof.Gen.Kernel.Skeleton
import proofs.«169394_j3865470566918_2_alg».proof.Proof.Gen.Kernel.Launch
import proofs.«169394_j3865470566918_2_alg».proof.Proof.Gen.Kernel.Points
import proofs.«169394_j3865470566918_2_alg».proof.Proof.Gen.Kernel.Frame
import proofs.«169394_j3865470566918_2_alg».proof.Proof.Gen.KernelIdeal
import proofs.«169394_j3865470566918_2_alg».proof.Proof.Gen.KernelIdeal.Skeleton
import proofs.«169394_j3865470566918_2_alg».proof.Proof.Gen.KernelIdeal.Launch
import proofs.«169394_j3865470566918_2_alg».proof.Proof.Gen.KernelIdeal.Points
import proofs.«169394_j3865470566918_2_alg».proof.Proof.Gen.KernelIdeal.Frame
import proofs.«169394_j3865470566918_2_alg».proof.Proof.Gen.ReferenceIdeal
import proofs.«169394_j3865470566918_2_alg».proof.Proof.Gen.ReferenceIdeal.Run
import proofs.«169394_j3865470566918_2_alg».proof.Proof.Gen.ReferenceIdeal.Read
import proofs.«169394_j3865470566918_2_alg».proof.Proof.Gen.Pre_finite_inputs
import proofs.«169394_j3865470566918_2_alg».proof.Proof.KernelRun
import proofs.«169394_j3865470566918_2_alg».proof.Proof.BodyValue
import proofs.«169394_j3865470566918_2_alg».proof.Proof.BodyStage1
import proofs.«169394_j3865470566918_2_alg».proof.Proof.BodyStage2
import proofs.«169394_j3865470566918_2_alg».proof.Proof.RefStage1
import proofs.«169394_j3865470566918_2_alg».proof.Proof.RefStage2
import proofs.«169394_j3865470566918_2_alg».proof.Proof.Bridge
import Idealize.ShloMosaic.Adequacy
import Idealize.ShloMosaic.Init

noncomputable section

namespace Cert.Proof

open Idealize.ShloMosaic Idealize.SL.Sem

namespace AnchorStripeClaims

open Cert.KernelIdeal Cert.KernelIdeal.Gen Cert.KernelIdeal.Whole

/-- The word-level kernel terminates without a fault and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of array operations: its run ends with the arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals: nothing to preserve. -/
theorem preserves : Cert.preserves_Kernel_KernelIdeal := trivial

/-- The reference ends with the same six re-layouts as the kernel, applied to its last product. -/
theorem ref_tail (x0 : (⟨Cert.ReferenceIdeal.S2x65536x576, .f32⟩ : BufTy).Contents (Elt Ideal)) (x1 : (⟨Cert.ReferenceIdeal.S2x128x128x192, .f32⟩ : BufTy).Contents (Elt Ideal)) (x2 : (⟨Cert.ReferenceIdeal.S1x11x11x2, .f32⟩ : BufTy).Contents (Elt Ideal)) (x3 : (⟨Cert.ReferenceIdeal.S16x64, .i32⟩ : BufTy).Contents (Elt Ideal)) (x4 : (⟨Cert.ReferenceIdeal.S64x16, .i32⟩ : BufTy).Contents (Elt Ideal)) (x5 : (⟨Cert.ReferenceIdeal.S1024x16x64, .f32⟩ : BufTy).Contents (Elt Ideal)) (x6 : (⟨Cert.ReferenceIdeal.S1024x64x16, .f32⟩ : BufTy).Contents (Elt Ideal)) (x7 : (⟨Cert.ReferenceIdeal.S6x1x1, .f32⟩ : BufTy).Contents (Elt Ideal)) (x8 : (⟨Cert.ReferenceIdeal.S2x512, .f32⟩ : BufTy).Contents (Elt Ideal)) (x9 : (⟨Cert.ReferenceIdeal.S512, .f32⟩ : BufTy).Contents (Elt Ideal)) (x10 : (⟨Cert.ReferenceIdeal.S512x6, .f32⟩ : BufTy).Contents (Elt Ideal)) (x11 : (⟨Cert.ReferenceIdeal.S6x1x1, .f32⟩ : BufTy).Contents (Elt Ideal)) (x12 : (⟨Cert.ReferenceIdeal.S2x512, .f32⟩ : BufTy).Contents (Elt Ideal)) (x13 : (⟨Cert.ReferenceIdeal.S512, .f32⟩ : BufTy).Contents (Elt Ideal)) (x14 : (⟨Cert.ReferenceIdeal.S512x6, .f32⟩ : BufTy).Contents (Elt Ideal)) :
    Cert.ReferenceIdeal.Read.val_main_v146 (F := Ideal) x0 x1 x2 x3 x4 x5 x6 x7 x8 x9 x10 x11 x12 x13 x14
      = tail (Cert.ReferenceIdeal.Read.val_main_v140 (F := Ideal) x0 x1 x2 x3 x4 x5 x6 x7 x8 x9 x10 x11 x12 x13 x14) := rfl

/-- The body's block is the window-head function of the staged rows: its two stages, each read at an entry. -/
theorem body : BodyReads :=
  body_reads_of Cert.KernelIdeal.Body.stage1_apply Cert.KernelIdeal.Body.stage2_apply

/-- The kernel's whole output array is the reference's last product of the same arguments. -/
theorem bridge (m : (ℓ : Loc nD τ sig) → Buf (Elt Ideal) ℓ) (c : Dev nD) :
    whole (V m c main_v9) (V m c main_v12) (V m c main_v15) (V m c main_v17) (V m c main_v42) (V m c main_v67)
        (V m c main_arg5) (V m c main_arg6) (V m c main_v71) (V m c main_v75)
      = Cert.ReferenceIdeal.Read.val_main_v140 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) :=
  whole_eq_ref Cert.ReferenceIdeal.RefValue.anchor_apply Cert.ReferenceIdeal.RefValue.token_apply m c

/-- Run from memories that agree on the arguments, both programs end, and their results are equal entry by entry: the
    kernel's is the re-layout of the whole-array function of its operands, the reference's the same re-layout of its last
    product, and the two arrays under the re-layout are one function of the arguments. -/
theorem algebraic : Cert.algebraic_KernelIdeal_ReferenceIdeal := by
  intro m ρ m' ρ' _ hagree
  refine ⟨fun c => tail (whole (V m c main_v9) (V m c main_v12) (V m c main_v15) (V m c main_v17) (V m c main_v42)
    (V m c main_v67) (V m c main_arg5) (V m c main_arg6) (V m c main_v71) (V m c main_v75)), run m ρ body, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v146_eq, a0, a1, a2, a3, a4, a5, a6, a7, a8, a9, a10, a11, a12, a13, a14, ref_tail]
  exact congrArg tail (bridge m c).symm

end AnchorStripeClaims

theorem claim : Cert.Claim := ⟨Cert.Kernel.Gen.facts, Cert.KernelIdeal.Gen.facts, Cert.ReferenceIdeal.Gen.facts, Cert.Pre_finite_inputs.Gen.facts,
  AnchorStripeClaims.frame_k, AnchorStripeClaims.frame_ki, AnchorStripeClaims.frame_ri, AnchorStripeClaims.preserves, AnchorStripeClaims.algebraic⟩

end Cert.Proof

end
